-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v44)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v44) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v66) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x1600000 : Shape := ⟨2, ![2, 1600000]⟩
abbrev S128x128 : Shape := ⟨2, ![128, 128]⟩
abbrev S128 : Shape := ⟨1, ![128]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_

variable [Facts]

def fn_part1 {F : FTy → Type} [FloatOps F] (main_arg5 : FVec F S128 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128 .f32 := Host.absf main_arg5
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  main_v23

def fn {F : FTy → Type} [FloatOps F] (main_arg0 : FVec F S100000x128 .f32) (main_arg1 : IVec S2x1600000 32) (main_arg2 : FVec F S128x128 .f32) (main_arg3 : FVec F S128 .f32) (main_arg4 : FVec F S128x128 .f32) (main_arg5 : FVec F S128 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x128 .f32 := Host.absf main_arg2
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x128 .f32 := Host.absf main_arg4
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg5 main_v13 main_v16
-- ==== Kernel.lean ====
abbrev S100000x128 : Shape := ⟨2, ![100000, 128]⟩
abbrev S2x1600000 : Shape := ⟨2, ![2, 1600000]⟩
abbrev S128x128 : Shape := ⟨2, ![128, 128]⟩
abbrev S128 : Shape := ⟨1, ![128]⟩
abbrev S1x1600000 : Shape := ⟨2, ![1, 1600000]⟩
abbrev S1600000 : Shape := ⟨1, ![1600000]⟩
abbrev S100000 : Shape := ⟨1, ![100000]⟩
abbrev S1700000 : Shape := ⟨1, ![1700000]⟩
abbrev S_ : Shape := ⟨0, ![]⟩
abbrev S1700000x1 : Shape := ⟨2, ![1700000, 1]⟩
abbrev S100000x1 : Shape := ⟨2, ![100000, 1]⟩
abbrev S5000x128 : Shape := ⟨2, ![5000, 128]⟩
abbrev S5000x1 : Shape := ⟨2, ![5000, 1]⟩
abbrev S1700000x128 : Shape := ⟨2, ![1700000, 128]⟩
abbrev S1x128 : Shape := ⟨2, ![1, 128]⟩
abbrev S100000x256 : Shape := ⟨2, ![100000, 256]⟩
abbrev S5000x256 : Shape := ⟨2, ![5000, 256]⟩

abbrev nBuf : Space → Nat
  | .hbm => 63
  | .vmem => 30
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S128x128, .f32⟩
  | .hbm, ⟨3, _⟩ => ⟨S128, .f32⟩
  | .hbm, ⟨4, _⟩ => ⟨S128x128, .f32⟩
  | .hbm, ⟨5, _⟩ => ⟨S128, .f32⟩
  | .hbm, ⟨6, _⟩ => ⟨S1x1600000, .i32⟩
  | .hbm, ⟨7, _⟩ => ⟨S1600000, .i32⟩
  | .hbm, ⟨8, _⟩ => ⟨S1x1600000, .i32⟩
  | .hbm, ⟨9, _⟩ => ⟨S1600000, .i32⟩
  | .hbm, ⟨10, _⟩ => ⟨S100000, .i32⟩
  | .hbm, ⟨11, _⟩ => ⟨S1700000, .i32⟩
  | .hbm, ⟨12, _⟩ => ⟨S1700000, .i32⟩
  | .hbm, ⟨13, _⟩ => ⟨S_, .f32⟩
  | .hbm, ⟨14, _⟩ => ⟨S1700000, .f32⟩
  | .hbm, ⟨15, _⟩ => ⟨S_, .f32⟩
  | .hbm, ⟨16, _⟩ => ⟨S100000, .f32⟩
  | .hbm, ⟨17, _⟩ => ⟨S1700000x1, .i32⟩
  | .hbm, ⟨18, _⟩ => ⟨S100000, .f32⟩
  | .hbm, ⟨19, _⟩ => ⟨S_, .f32⟩
  | .hbm, ⟨20, _⟩ => ⟨S100000, .f32⟩
  | .hbm, ⟨21, _⟩ => ⟨S100000, .i1⟩
  | .hbm, ⟨22, _⟩ => ⟨S100000, .f32⟩
  | .hbm, ⟨23, _⟩ => ⟨S_, .f32⟩
  | .hbm, ⟨24, _⟩ => ⟨S_, .f32⟩
  | .hbm, ⟨25, _⟩ => ⟨S100000, .f32⟩
  | .hbm, ⟨26, _⟩ => ⟨S100000, .f32⟩
  | .hbm, ⟨27, _⟩ => ⟨S100000x1, .f32⟩
  | .hbm, ⟨28, _⟩ => ⟨S100000x128, .f32⟩
  | .hbm, ⟨29, _⟩ => ⟨S_, .i32⟩
  | .hbm, ⟨30, _⟩ => ⟨S1700000, .i32⟩
  | .hbm, ⟨31, _⟩ => ⟨S1700000, .i1⟩
  | .hbm, ⟨32, _⟩ => ⟨S_, .i32⟩
  | .hbm, ⟨33, _⟩ => ⟨S1700000, .i32⟩
  | .hbm, ⟨34, _⟩ => ⟨S1700000, .i32⟩
  | .hbm, ⟨35, _⟩ => ⟨S1700000, .i32⟩
  | .hbm, ⟨36, _⟩ => ⟨S1700000x1, .i32⟩
  | .hbm, ⟨37, _⟩ => ⟨S1700000x128, .f32⟩
  | .hbm, ⟨38, _⟩ => ⟨S_, .f32⟩
  | .hbm, ⟨39, _⟩ => ⟨S100000x128, .f32⟩
  | .hbm, ⟨40, _⟩ => ⟨S1700000x1, .i32⟩
  | .hbm, ⟨41, _⟩ => ⟨S100000x128, .f32⟩
  | .hbm, ⟨42, _⟩ => ⟨S100000x1, .f32⟩
  | .hbm, ⟨43, _⟩ => ⟨S1x128, .f32⟩
  | .hbm, ⟨44, _⟩ => ⟨S100000x128, .f32⟩
  | .hbm, ⟨45, _⟩ => ⟨S100000x1, .f32⟩
  | .hbm, ⟨46, _⟩ => ⟨S100000x128, .f32⟩
  | .hbm, ⟨47, _⟩ => ⟨S_, .i32⟩
  | .hbm, ⟨48, _⟩ => ⟨S1700000, .i32⟩
  | .hbm, ⟨49, _⟩ => ⟨S1700000, .i1⟩
  | .hbm, ⟨50, _⟩ => ⟨S_, .i32⟩
  | .hbm, ⟨51, _⟩ => ⟨S1700000, .i32⟩
  | .hbm, ⟨52, _⟩ => ⟨S1700000, .i32⟩
  | .hbm, ⟨53, _⟩ => ⟨S1700000, .i32⟩
  | .hbm, ⟨54, _⟩ => ⟨S1700000x1, .i32⟩
  | .hbm, ⟨55, _⟩ => ⟨S1700000x128, .f32⟩
  | .hbm, ⟨56, _⟩ => ⟨S_, .f32⟩
  | .hbm, ⟨57, _⟩ => ⟨S100000x128, .f32⟩
  | .hbm, ⟨58, _⟩ => ⟨S1700000x1, .i32⟩
  | .hbm, ⟨59, _⟩ => ⟨S100000x128, .f32⟩
  | .hbm, ⟨60, _⟩ => ⟨S100000x1, .f32⟩
  | .hbm, ⟨61, _⟩ => ⟨S1x128, .f32⟩
  | .hbm, ⟨62, _⟩ => ⟨S100000x256, .f32⟩
  | .local _ .vmem, ⟨0, _⟩ => ⟨S5000x128, .f32⟩
  | .local _ .vmem, ⟨1, _⟩ => ⟨S5000x128, .f32⟩
  | .local _ .vmem, ⟨2, _⟩ => ⟨S128x128, .f32⟩
  | .local _ .vmem, ⟨3, _⟩ => ⟨S5000x1, .f32⟩
  | .local _ .vmem, ⟨4, _⟩ => ⟨S5000x1, .f32⟩
  | .local _ .vmem, ⟨5, _⟩ => ⟨S5000x128, .f32⟩
  | .local _ .vmem, ⟨6, _⟩ => ⟨S5000x128, .f32⟩
  | .local _ .vmem, ⟨7, _⟩ => ⟨S5000x128, .f32⟩
  | .local _ .vmem, ⟨8, _⟩ => ⟨S5000x128, .f32⟩
  | .local _ .vmem, ⟨9, _⟩ => ⟨S1x128, .f32⟩
  | .local _ .vmem, ⟨10, _⟩ => ⟨S5000x1, .f32⟩
  | .local _ .vmem, ⟨11, _⟩ => ⟨S5000x1, .f32⟩
  | .local _ .vmem, ⟨12, _⟩ => ⟨S5000x128, .f32⟩
  | .local _ .vmem, ⟨13, _⟩ => ⟨S5000x128, .f32⟩
  | .local _ .vmem, ⟨14, _⟩ => ⟨S5000x128, .f32⟩
  | .local _ .vmem, ⟨15, _⟩ => ⟨S5000x128, .f32⟩
  | .local _ .vmem, ⟨16, _⟩ => ⟨S128x128, .f32⟩
  | .local _ .vmem, ⟨17, _⟩ => ⟨S5000x1, .f32⟩
  | .local _ .vmem, ⟨18, _⟩ => ⟨S5000x1, .f32⟩
  | .local _ .vmem, ⟨19, _⟩ => ⟨S5000x128, .f32⟩
  | .local _ .vmem, ⟨20, _⟩ => ⟨S5000x128, .f32⟩
  | .local _ .vmem, ⟨21, _⟩ => ⟨S5000x128, .f32⟩
  | .local _ .vmem, ⟨22, _⟩ => ⟨S5000x128, .f32⟩
  | .local _ .vmem, ⟨23, _⟩ => ⟨S5000x128, .f32⟩
  | .local _ .vmem, ⟨24, _⟩ => ⟨S5000x128, .f32⟩
  | .local _ .vmem, ⟨25, _⟩ => ⟨S1x128, .f32⟩
  | .local _ .vmem, ⟨26, _⟩ => ⟨S5000x1, .f32⟩
  | .local _ .vmem, ⟨27, _⟩ => ⟨S5000x1, .f32⟩
  | .local _ .vmem, ⟨28, _⟩ => ⟨S5000x256, .f32⟩
  | .local _ .vmem, ⟨29, _⟩ => ⟨S5000x256, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | _, _ => false

abbrev semScoped : Fin 0 → Bool
  | ⟨_, h⟩ => absurd h (Nat.not_lt_zero _)

abbrev dmaSemScoped : Fin 30 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | _ => false

abbrev sig : RefSig :=
  ofTc nBuf bufTy 0 30 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_1 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_2 : Ref sig .tc := ⟨.hbm, 23, rfl⟩
abbrev main_call0_v0 : Ref sig .tc := ⟨.hbm, 24, rfl⟩
abbrev main_call0_v1 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_c : Ref sig .tc := ⟨.hbm, 29, rfl⟩
abbrev main_v17 : Ref sig .tc := ⟨.hbm, 30, rfl⟩
abbrev main_v18 : Ref sig .tc := ⟨.hbm, 31, rfl⟩
abbrev main_c_3 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_cst_4 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_c_5 : Ref sig .tc := ⟨.hbm, 47, rfl⟩
abbrev main_v32 : Ref sig .tc := ⟨.hbm, 48, rfl⟩
abbrev main_v33 : Ref sig .tc := ⟨.hbm, 49, rfl⟩
abbrev main_c_6 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_cst_7 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc1_stg0_0 : Ref sig .tc := ⟨.vmem, 7, rfl⟩
abbrev cc1_stg0_1 : Ref sig .tc := ⟨.vmem, 8, rfl⟩
abbrev cc1_stg1_0 : Ref sig .tc := ⟨.vmem, 9, rfl⟩
abbrev cc1_stg2_0 : Ref sig .tc := ⟨.vmem, 10, rfl⟩
abbrev cc1_stg2_1 : Ref sig .tc := ⟨.vmem, 11, rfl⟩
abbrev cc1_stg3_0 : Ref sig .tc := ⟨.vmem, 12, rfl⟩
abbrev cc1_stg3_1 : Ref sig .tc := ⟨.vmem, 13, rfl⟩
abbrev cc2_stg0_0 : Ref sig .tc := ⟨.vmem, 14, rfl⟩
abbrev cc2_stg0_1 : Ref sig .tc := ⟨.vmem, 15, rfl⟩
abbrev cc2_stg1_0 : Ref sig .tc := ⟨.vmem, 16, rfl⟩
abbrev cc2_stg2_0 : Ref sig .tc := ⟨.vmem, 17, rfl⟩
abbrev cc2_stg2_1 : Ref sig .tc := ⟨.vmem, 18, rfl⟩
abbrev cc2_stg3_0 : Ref sig .tc := ⟨.vmem, 19, rfl⟩
abbrev cc2_stg3_1 : Ref sig .tc := ⟨.vmem, 20, rfl⟩
abbrev cc3_stg0_0 : Ref sig .tc := ⟨.vmem, 21, rfl⟩
abbrev cc3_stg0_1 : Ref sig .tc := ⟨.vmem, 22, rfl⟩
abbrev cc3_stg1_0 : Ref sig .tc := ⟨.vmem, 23, rfl⟩
abbrev cc3_stg1_1 : Ref sig .tc := ⟨.vmem, 24, rfl⟩
abbrev cc3_stg2_0 : Ref sig .tc := ⟨.vmem, 25, rfl⟩
abbrev cc3_stg3_0 : Ref sig .tc := ⟨.vmem, 26, rfl⟩
abbrev cc3_stg3_1 : Ref sig .tc := ⟨.vmem, 27, rfl⟩
abbrev cc3_stg4_0 : Ref sig .tc := ⟨.vmem, 28, rfl⟩
abbrev cc3_stg4_1 : Ref sig .tc := ⟨.vmem, 29, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc1_sem0_0 : DmaSem sig := 7
abbrev cc1_sem0_1 : DmaSem sig := 8
abbrev cc1_sem1_0 : DmaSem sig := 9
abbrev cc1_sem2_0 : DmaSem sig := 10
abbrev cc1_sem2_1 : DmaSem sig := 11
abbrev cc1_sem3_0 : DmaSem sig := 12
abbrev cc1_sem3_1 : DmaSem sig := 13
abbrev cc2_sem0_0 : DmaSem sig := 14
abbrev cc2_sem0_1 : DmaSem sig := 15
abbrev cc2_sem1_0 : DmaSem sig := 16
abbrev cc2_sem2_0 : DmaSem sig := 17
abbrev cc2_sem2_1 : DmaSem sig := 18
abbrev cc2_sem3_0 : DmaSem sig := 19
abbrev cc2_sem3_1 : DmaSem sig := 20
abbrev cc3_sem0_0 : DmaSem sig := 21
abbrev cc3_sem0_1 : DmaSem sig := 22
abbrev cc3_sem1_0 : DmaSem sig := 23
abbrev cc3_sem1_1 : DmaSem sig := 24
abbrev cc3_sem2_0 : DmaSem sig := 25
abbrev cc3_sem3_0 : DmaSem sig := 26
abbrev cc3_sem3_1 : DmaSem sig := 27
abbrev cc3_sem4_0 : DmaSem sig := 28
abbrev cc3_sem4_1 : DmaSem sig := 29

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S5000x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S5000x1 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S5000x128 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨1, ![20], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S128x128 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S5000x1 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 2 → Memref sig .tc .vmem S5000x128 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev grid3 : Pipeline.Grid := ⟨1, ![20], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_4 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S5000x128 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 1 → Memref sig .tc .vmem S1x128 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 2 → Memref sig .tc .vmem S5000x1 .f32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true]

abbrev stage3_4 : Fin 2 → Memref sig .tc .vmem S5000x256 .f32 := fun | 0 => Memref.whole cc3_stg4_0 | 1 => Memref.whole cc3_stg4_1 | ⟨_ + 2, h⟩ => absurd h (Nat.not_lt.2 (Nat.le_add_left _ _))
abbrev sem3_4 : Fin 2 → DmaSem sig := fun | 0 => cc3_sem4_0 | 1 => cc3_sem4_1 | ⟨_ + 2, h⟩ => absurd h (Nat.not_lt.2 (Nat.le_add_left _ _))
abbrev reads3_4 : Fin grid3.rank → Bool := ![true]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  concatenates_S1600000_S100000_S1700000_d0 : Shape.Concatenates [S1600000, S100000] S1700000 0
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  shapeCasts_S100000_S100000x1 : S100000.ShapeCasts S100000x1
  inb_S5000x128_S5000x128_0_0 : ∀ a, (![0, 0] : Fin 2 → Nat) a + S5000x128.size a ≤ S5000x128.size a
  h_S5000x128 : 0 < S5000x128.numel
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  inb_S5000x1_S5000x1_0_0 : ∀ a, (![0, 0] : Fin 2 → Nat) a + S5000x1.size a ≤ S5000x1.size a
  h_S5000x1 : 0 < S5000x1.numel
  shapeCasts_S5000x1_S5000x1 : S5000x1.ShapeCasts S5000x1
  broadcasts_S5000x1_S5000x128 : S5000x1.Broadcasts S5000x128
  bcast_S_S100000x128 : S_.BroadcastsInDim S100000x128 (![] : Fin 0 → Fin S100000x128.rank)
  shapeCasts_S128_S1x128 : S128.ShapeCasts S1x128
  shapeCasts_S5000x128_S5000x128 : S5000x128.ShapeCasts S5000x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  inb_S5000x256_S5000x128_0_0 : ∀ a, (![0, 0] : Fin 2 → Nat) a + S5000x128.size a ≤ S5000x256.size a
  inb_S5000x256_S5000x128_0_128 : ∀ a, (![0, 128] : Fin 2 → Nat) a + S5000x128.size a ≤ S5000x256.size a
  scatter_S100000_S1700000x1_S1700000_n_0_0_1_wf : ScatterDims.WF S100000 S1700000x1 S1700000 [] [0] [0] 1
  dot_S5000x128_S128x128_S5000x128_1_0_0_1_n_n_wf : DotDims.WF S5000x128 S128x128 S5000x128 [1] [0] [0] [1] [] []
  gather_S100000x128_S1700000x1_S1700000x128_1_0_n_n_0_1_1128_wf : GatherDims.WF S100000x128 S1700000x1 S1700000x128 [1] [0] [] [0] [] 1 ![1, 128]
  scatter_S100000x128_S1700000x1_S1700000x128_1_0_0_1_wf : ScatterDims.WF S100000x128 S1700000x1 S1700000x128 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S100000x128.size a
  hwx0_0 : ∀ i : grid0.Coords, EltTy.bits .f32 = 32 ∨ (Rect.block (s := S100000x128) S5000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x1.size a ≤ S100000x1.size a
  hwx0_2 : ∀ i : grid0.Coords, EltTy.bits .f32 = 32 ∨ (Rect.block (s := S100000x1) S5000x1.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S5000x128.size a ≤ S100000x128.size a
  hwx0_3 : ∀ i : grid0.Coords, EltTy.bits .f32 = 32 ∨ (Rect.block (s := S100000x128) S5000x128.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S100000x128.size a
  hwx1_0 : ∀ i : grid1.Coords, EltTy.bits .f32 = 32 ∨ (Rect.block (s := S100000x128) S5000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x128.size a ≤ S1x128.size a
  hwx1_1 : ∀ i : grid1.Coords, EltTy.bits .f32 = 32 ∨ (Rect.block (s := S1x128) S1x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x1.size a ≤ S100000x1.size a
  hwx1_2 : ∀ i : grid1.Coords, EltTy.bits .f32 = 32 ∨ (Rect.block (s := S100000x1) S5000x1.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S5000x128.size a ≤ S100000x128.size a
  hwx1_3 : ∀ i : grid1.Coords, EltTy.bits .f32 = 32 ∨ (Rect.block (s := S100000x128) S5000x128.size (cc1_transform_3 i) (hinb1_3 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x128.size a ≤ S100000x128.size a
  hwx2_0 : ∀ i : grid2.Coords, EltTy.bits .f32 = 32 ∨ (Rect.block (s := S100000x128) S5000x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S128x128.size a ≤ S128x128.size a
  hwx2_1 : ∀ i : grid2.Coords, EltTy.bits .f32 = 32 ∨ (Rect.block (s := S128x128) S128x128.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S5000x1.size a ≤ S100000x1.size a
  hwx2_2 : ∀ i : grid2.Coords, EltTy.bits .f32 = 32 ∨ (Rect.block (s := S100000x1) S5000x1.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S5000x128.size a ≤ S100000x128.size a
  hwx2_3 : ∀ i : grid2.Coords, EltTy.bits .f32 = 32 ∨ (Rect.block (s := S100000x128) S5000x128.size (cc2_transform_3 i) (hinb2_3 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x128.size a ≤ S100000x128.size a
  hwx3_0 : ∀ i : grid3.Coords, EltTy.bits .f32 = 32 ∨ (Rect.block (s := S100000x128) S5000x128.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S5000x128.size a ≤ S100000x128.size a
  hwx3_1 : ∀ i : grid3.Coords, EltTy.bits .f32 = 32 ∨ (Rect.block (s := S100000x128) S5000x128.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S1x128.size a ≤ S1x128.size a
  hwx3_2 : ∀ i : grid3.Coords, EltTy.bits .f32 = 32 ∨ (Rect.block (s := S1x128) S1x128.size (cc3_transform_2 i) (hinb3_2 i)).WholeWords (EltTy.packing .f32)
  hstage3_3 : ∀ j, (stage3_3 j).IsWhole
  nbuf3_3 : grid3.bufCount reads3_3 false = 2
  hreads3_3 : ∀ i i' : grid3.Coords, (∀ a, reads3_3 a = true → i a = i' a) → cc3_transform_3 i = cc3_transform_3 i'
  hinb3_3 : ∀ (i : grid3.Coords) a, (cc3_transform_3 i a + 1) * S5000x1.size a ≤ S100000x1.size a
  hwx3_3 : ∀ i : grid3.Coords, EltTy.bits .f32 = 32 ∨ (Rect.block (s := S100000x1) S5000x1.size (cc3_transform_3 i) (hinb3_3 i)).WholeWords (EltTy.packing .f32)
  hstage3_4 : ∀ j, (stage3_4 j).IsWhole
  nbuf3_4 : grid3.bufCount reads3_4 false = 2
  hreads3_4 : ∀ i i' : grid3.Coords, (∀ a, reads3_4 a = true → i a = i' a) → cc3_transform_4 i = cc3_transform_4 i'
  hinb3_4 : ∀ (i : grid3.Coords) a, (cc3_transform_4 i a + 1) * S5000x256.size a ≤ S100000x256.size a
  hwx3_4 : ∀ i : grid3.Coords, EltTy.bits .f32 = 32 ∨ (Rect.block (s := S100000x256) S5000x256.size (cc3_transform_4 i) (hinb3_4 i)).WholeWords (EltTy.packing .f32)

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def gather_S100000x128_S1700000x1_S1700000x128_1_0_n_n_0_1_1128 : GatherDims S100000x128 S1700000x1 S1700000x128 where
  offsetDims := [1]
  collapsedSliceDims := [0]
  operandBatchingDims := []
  startIndicesBatchingDims := []
  startIndexMap := [0]
  indexVectorDim := 1
  sliceSizes := ![1, 128]
  wf := gather_S100000x128_S1700000x1_S1700000x128_1_0_n_n_0_1_1128_wf
def scatter_S100000x128_S1700000x1_S1700000x128_1_0_0_1 : ScatterDims S100000x128 S1700000x1 S1700000x128 where
  updateWindowDims := [1]
  insertedWindowDims := [0]
  scatterDimsToOperandDims := [0]
  indexVectorDim := 1
  wf := scatter_S100000x128_S1700000x1_S1700000x128_1_0_0_1_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v15) S5000x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v16) S5000x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v26) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v28) S1x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v27) S5000x1.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v29) S5000x128.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v29) S5000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg4) S128x128.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v30) S5000x1.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_v31) S5000x128.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

abbrev win3_0 : Pipeline.Window sig grid3 :=
  Pipeline.Window.ofSpec (Memref.whole main_v29) S5000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v41) S5000x128.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v43) S1x128.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v42) S5000x1.size cc3_transform_3 reads3_3 false false 2 stage3_3 sem3_3
    hrank3 hreads3_3 hinb3_3 nbuf3_3 (Memref.isWhole_whole _) hwx3_3 hstage3_3

abbrev win3_4 : Pipeline.Window sig grid3 :=
  Pipeline.Window.ofSpec (Memref.whole main_v44) S5000x256.size cc3_transform_4 reads3_4 true false 2 stage3_4 sem3_4
    hrank3 hreads3_4 hinb3_4 nbuf3_4 (Memref.isWhole_whole _) hwx3_4 hstage3_4

abbrev win3 : Fin 5 → Pipeline.Window sig grid3 := fun | 0 => win3_0 | 1 => win3_1 | 2 => win3_2 | 3 => win3_3 | 4 => win3_4 | ⟨_ + 5, h⟩ => absurd h (Nat.not_lt.2 (Nat.le_add_left _ _))
abbrev spec3 : Fin 5 → Pipeline.WinSpec sig grid3.rank := fun w => (win3 w).toWinSpec

class Facts : Prop extends Facts₀ where

variable [Facts]
-- ==== ReferenceIdeal.lean ====
abbrev S100000x128 : Shape := ⟨2, ![100000, 128]⟩
abbrev S2x1600000 : Shape := ⟨2, ![2, 1600000]⟩
abbrev S128x128 : Shape := ⟨2, ![128, 128]⟩
abbrev S128 : Shape := ⟨1, ![128]⟩
abbrev S1x1600000 : Shape := ⟨2, ![1, 1600000]⟩
abbrev S1600000 : Shape := ⟨1, ![1600000]⟩
abbrev S100000 : Shape := ⟨1, ![100000]⟩
abbrev S1700000 : Shape := ⟨1, ![1700000]⟩
abbrev S_ : Shape := ⟨0, ![]⟩
abbrev S1700000x1 : Shape := ⟨2, ![1700000, 1]⟩
abbrev S1700000x128 : Shape := ⟨2, ![1700000, 128]⟩
abbrev S1x128 : Shape := ⟨2, ![1, 128]⟩
abbrev S100000x256 : Shape := ⟨2, ![100000, 256]⟩

abbrev nBuf : Space → Nat
  | .hbm => 93
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S128x128, .f32⟩
  | .hbm, ⟨3, _⟩ => ⟨S128, .f32⟩
  | .hbm, ⟨4, _⟩ => ⟨S128x128, .f32⟩
  | .hbm, ⟨5, _⟩ => ⟨S128, .f32⟩
  | .hbm, ⟨6, _⟩ => ⟨S1x1600000, .i32⟩
  | .hbm, ⟨7, _⟩ => ⟨S1600000, .i32⟩
  | .hbm, ⟨8, _⟩ => ⟨S1x1600000, .i32⟩
  | .hbm, ⟨9, _⟩ => ⟨S1600000, .i32⟩
  | .hbm, ⟨10, _⟩ => ⟨S100000, .i32⟩
  | .hbm, ⟨11, _⟩ => ⟨S1700000, .i32⟩
  | .hbm, ⟨12, _⟩ => ⟨S1700000, .i32⟩
  | .hbm, ⟨13, _⟩ => ⟨S_, .f32⟩
  | .hbm, ⟨14, _⟩ => ⟨S1700000, .f32⟩
  | .hbm, ⟨15, _⟩ => ⟨S_, .f32⟩
  | .hbm, ⟨16, _⟩ => ⟨S100000, .f32⟩
  | .hbm, ⟨17, _⟩ => ⟨S1700000x1, .i32⟩
  | .hbm, ⟨18, _⟩ => ⟨S100000, .f32⟩
  | .hbm, ⟨19, _⟩ => ⟨S_, .f32⟩
  | .hbm, ⟨20, _⟩ => ⟨S100000, .f32⟩
  | .hbm, ⟨21, _⟩ => ⟨S100000, .i1⟩
  | .hbm, ⟨22, _⟩ => ⟨S100000, .f32⟩
  | .hbm, ⟨23, _⟩ => ⟨S_, .f32⟩
  | .hbm, ⟨24, _⟩ => ⟨S_, .f32⟩
  | .hbm, ⟨25, _⟩ => ⟨S100000, .f32⟩
  | .hbm, ⟨26, _⟩ => ⟨S100000, .f32⟩
  | .hbm, ⟨27, _⟩ => ⟨S_, .i32⟩
  | .hbm, ⟨28, _⟩ => ⟨S1700000, .i32⟩
  | .hbm, ⟨29, _⟩ => ⟨S1700000, .i1⟩
  | .hbm, ⟨30, _⟩ => ⟨S_, .i32⟩
  | .hbm, ⟨31, _⟩ => ⟨S1700000, .i32⟩
  | .hbm, ⟨32, _⟩ => ⟨S1700000, .i32⟩
  | .hbm, ⟨33, _⟩ => ⟨S1700000, .i32⟩
  | .hbm, ⟨34, _⟩ => ⟨S1700000x1, .i32⟩
  | .hbm, ⟨35, _⟩ => ⟨S1700000, .f32⟩
  | .hbm, ⟨36, _⟩ => ⟨S_, .i32⟩
  | .hbm, ⟨37, _⟩ => ⟨S1700000, .i32⟩
  | .hbm, ⟨38, _⟩ => ⟨S1700000, .i1⟩
  | .hbm, ⟨39, _⟩ => ⟨S_, .i32⟩
  | .hbm, ⟨40, _⟩ => ⟨S1700000, .i32⟩
  | .hbm, ⟨41, _⟩ => ⟨S1700000, .i32⟩
  | .hbm, ⟨42, _⟩ => ⟨S1700000, .i32⟩
  | .hbm, ⟨43, _⟩ => ⟨S1700000x1, .i32⟩
  | .hbm, ⟨44, _⟩ => ⟨S1700000, .f32⟩
  | .hbm, ⟨45, _⟩ => ⟨S1700000, .f32⟩
  | .hbm, ⟨46, _⟩ => ⟨S100000x128, .f32⟩
  | .hbm, ⟨47, _⟩ => ⟨S_, .i32⟩
  | .hbm, ⟨48, _⟩ => ⟨S1700000, .i32⟩
  | .hbm, ⟨49, _⟩ => ⟨S1700000, .i1⟩
  | .hbm, ⟨50, _⟩ => ⟨S_, .i32⟩
  | .hbm, ⟨51, _⟩ => ⟨S1700000, .i32⟩
  | .hbm, ⟨52, _⟩ => ⟨S1700000, .i32⟩
  | .hbm, ⟨53, _⟩ => ⟨S1700000, .i32⟩
  | .hbm, ⟨54, _⟩ => ⟨S1700000x1, .i32⟩
  | .hbm, ⟨55, _⟩ => ⟨S1700000x128, .f32⟩
  | .hbm, ⟨56, _⟩ => ⟨S1700000x1, .f32⟩
  | .hbm, ⟨57, _⟩ => ⟨S1700000x128, .f32⟩
  | .hbm, ⟨58, _⟩ => ⟨S1700000x128, .f32⟩
  | .hbm, ⟨59, _⟩ => ⟨S_, .f32⟩
  | .hbm, ⟨60, _⟩ => ⟨S100000x128, .f32⟩
  | .hbm, ⟨61, _⟩ => ⟨S1700000x1, .i32⟩
  | .hbm, ⟨62, _⟩ => ⟨S100000x128, .f32⟩
  | .hbm, ⟨63, _⟩ => ⟨S1x128, .f32⟩
  | .hbm, ⟨64, _⟩ => ⟨S100000x128, .f32⟩
  | .hbm, ⟨65, _⟩ => ⟨S100000x128, .f32⟩
  | .hbm, ⟨66, _⟩ => ⟨S_, .f32⟩
  | .hbm, ⟨67, _⟩ => ⟨S100000x128, .f32⟩
  | .hbm, ⟨68, _⟩ => ⟨S100000x128, .f32⟩
  | .hbm, ⟨69, _⟩ => ⟨S100000x128, .f32⟩
  | .hbm, ⟨70, _⟩ => ⟨S_, .i32⟩
  | .hbm, ⟨71, _⟩ => ⟨S1700000, .i32⟩
  | .hbm, ⟨72, _⟩ => ⟨S1700000, .i1⟩
  | .hbm, ⟨73, _⟩ => ⟨S_, .i32⟩
  | .hbm, ⟨74, _⟩ => ⟨S1700000, .i32⟩
  | .hbm, ⟨75, _⟩ => ⟨S1700000, .i32⟩
  | .hbm, ⟨76, _⟩ => ⟨S1700000, .i32⟩
  | .hbm, ⟨77, _⟩ => ⟨S1700000x1, .i32⟩
  | .hbm, ⟨78, _⟩ => ⟨S1700000x128, .f32⟩
  | .hbm, ⟨79, _⟩ => ⟨S1700000x1, .f32⟩
  | .hbm, ⟨80, _⟩ => ⟨S1700000x128, .f32⟩
  | .hbm, ⟨81, _⟩ => ⟨S1700000x128, .f32⟩
  | .hbm, ⟨82, _⟩ => ⟨S_, .f32⟩
  | .hbm, ⟨83, _⟩ => ⟨S100000x128, .f32⟩
  | .hbm, ⟨84, _⟩ => ⟨S1700000x1, .i32⟩
  | .hbm, ⟨85, _⟩ => ⟨S100000x128, .f32⟩
  | .hbm, ⟨86, _⟩ => ⟨S1x128, .f32⟩
  | .hbm, ⟨87, _⟩ => ⟨S100000x128, .f32⟩
  | .hbm, ⟨88, _⟩ => ⟨S100000x128, .f32⟩
  | .hbm, ⟨89, _⟩ => ⟨S_, .f32⟩
  | .hbm, ⟨90, _⟩ => ⟨S100000x128, .f32⟩
  | .hbm, ⟨91, _⟩ => ⟨S100000x128, .f32⟩
  | .hbm, ⟨92, _⟩ => ⟨S100000x256, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_1 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_2 : Ref sig .tc := ⟨.hbm, 23, rfl⟩
abbrev main_call0_v0 : Ref sig .tc := ⟨.hbm, 24, rfl⟩
abbrev main_call0_v1 : Ref sig .tc := ⟨.hbm, 25, rfl⟩
abbrev main_v14 : Ref sig .tc := ⟨.hbm, 26, rfl⟩
abbrev main_c : Ref sig .tc := ⟨.hbm, 27, rfl⟩
abbrev main_v15 : Ref sig .tc := ⟨.hbm, 28, rfl⟩
abbrev main_v16 : Ref sig .tc := ⟨.hbm, 29, rfl⟩
abbrev main_c_3 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_c_4 : Ref sig .tc := ⟨.hbm, 36, rfl⟩
abbrev main_v22 : Ref sig .tc := ⟨.hbm, 37, rfl⟩
abbrev main_v23 : Ref sig .tc := ⟨.hbm, 38, rfl⟩
abbrev main_c_5 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_c_6 : Ref sig .tc := ⟨.hbm, 47, rfl⟩
abbrev main_v31 : Ref sig .tc := ⟨.hbm, 48, rfl⟩
abbrev main_v32 : Ref sig .tc := ⟨.hbm, 49, rfl⟩
abbrev main_c_7 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_cst_8 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_call1_cst : Ref sig .tc := ⟨.hbm, 66, rfl⟩
abbrev main_call1_v0 : Ref sig .tc := ⟨.hbm, 67, rfl⟩
abbrev main_v47 : Ref sig .tc := ⟨.hbm, 68, rfl⟩
abbrev main_v48 : Ref sig .tc := ⟨.hbm, 69, rfl⟩
abbrev main_c_9 : Ref sig .tc := ⟨.hbm, 70, rfl⟩
abbrev main_v49 : Ref sig .tc := ⟨.hbm, 71, rfl⟩
abbrev main_v50 : Ref sig .tc := ⟨.hbm, 72, rfl⟩
abbrev main_c_10 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩
abbrev main_v57 : Ref sig .tc := ⟨.hbm, 80, rfl⟩
abbrev main_v58 : Ref sig .tc := ⟨.hbm, 81, rfl⟩
abbrev main_cst_11 : Ref sig .tc := ⟨.hbm, 82, rfl⟩
abbrev main_v59 : Ref sig .tc := ⟨.hbm, 83, rfl⟩
abbrev main_v60 : Ref sig .tc := ⟨.hbm, 84, rfl⟩
abbrev main_v61 : Ref sig .tc := ⟨.hbm, 85, rfl⟩
abbrev main_v62 : Ref sig .tc := ⟨.hbm, 86, rfl⟩
abbrev main_v63 : Ref sig .tc := ⟨.hbm, 87, rfl⟩
abbrev main_v64 : Ref sig .tc := ⟨.hbm, 88, rfl⟩
abbrev main_call2_cst : Ref sig .tc := ⟨.hbm, 89, rfl⟩
abbrev main_call2_v0 : Ref sig .tc := ⟨.hbm, 90, rfl⟩
abbrev main_v65 : Ref sig .tc := ⟨.hbm, 91, rfl⟩
abbrev main_v66 : Ref sig .tc := ⟨.hbm, 92, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  concatenates_S1600000_S100000_S1700000_d0 : Shape.Concatenates [S1600000, S100000] S1700000 0
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  bcast_S1700000x1_S1700000x128_0_1 : S1700000x1.BroadcastsInDim S1700000x128 (![0, 1] : Fin 2 → Fin S1700000x128.rank)
  bcast_S_S100000x128 : S_.BroadcastsInDim S100000x128 (![] : Fin 0 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  concatenates_S100000x128_S100000x128_S100000x256_d1 : Shape.Concatenates [S100000x128, S100000x128] S100000x256 1
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  dot_S100000x128_S128x128_S100000x128_1_0_0_1_n_n_wf : DotDims.WF S100000x128 S128x128 S100000x128 [1] [0] [0] [1] [] []
  gather_S100000x128_S1700000x1_S1700000x128_1_0_n_n_0_1_1128_wf : GatherDims.WF S100000x128 S1700000x1 S1700000x128 [1] [0] [] [0] [] 1 ![1, 128]
  scatter_S100000x128_S1700000x1_S1700000x128_1_0_0_1_wf : ScatterDims.WF S100000x128 S1700000x1 S1700000x128 [1] [0] [0] 1

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def gather_S100000x128_S1700000x1_S1700000x128_1_0_n_n_0_1_1128 : GatherDims S100000x128 S1700000x1 S1700000x128 where
  offsetDims := [1]
  collapsedSliceDims := [0]
  operandBatchingDims := []
  startIndicesBatchingDims := []
  startIndexMap := [0]
  indexVectorDim := 1
  sliceSizes := ![1, 128]
  wf := gather_S100000x128_S1700000x1_S1700000x128_1_0_n_n_0_1_1128_wf
def scatter_S100000x128_S1700000x1_S1700000x128_1_0_0_1 : ScatterDims S100000x128 S1700000x1 S1700000x128 where
  updateWindowDims := [1]
  insertedWindowDims := [0]
  scatterDimsToOperandDims := [0]
  indexVectorDim := 1
  wf := scatter_S100000x128_S1700000x1_S1700000x128_1_0_0_1_wf

class Facts : Prop extends Facts₀ where

variable [Facts]
-- ==== Proof.KernelRun.lean ====
/-
  The idealized kernel's run with its result named.

  @main is ten segments: stretches of host operations and the four kernel regions in turn. The launch theorem for such a
  list hands back, for every buffer that is not scoped to a region, its contents at the last boundary — the fold `W10`
  of the launch memory through every stretch and every region's write-backs. Read at the argument buffers that fold is the
  launch memory (nothing writes an argument); read at the result buffer it is what the last region's write-backs leave
  there, which the modules after this one compute. So: every weakly fair execution terminates, nothing faults, the
  result buffer ends at `W10` of itself, and the arguments end as launched.
-/
import proofs.«167142_j42640435314985_2_alg».proof.Proof.Gen.KernelIdeal.Frame

set_option maxRecDepth 16384

noncomputable section

namespace Cert.KernelIdeal.RunValue

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- The run, at any float instance: the result buffer ends at the last boundary's contents, the arguments as launched. -/
theorem run : θ_run defs (onTc (τ := τ) (main (F := F))) ⟨m, fun _ => 0, ρ⟩ (fun r => ∀ c : Dev nD,
      r.2.mem ((c.tc : Thread nD τ).loc main_v44) = W10 m ρ c (Proc.devRef .tc main_v44)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W10 m ρ c b)
    (hfin := fun c s' => by
      iintro ⟨⟨Hh, -⟩, HSI⟩
      unfold StableHlo.held
      imodintro
      iapply (pointsTo_read_all (Pipeline.ucRefs τ sig) (fun b => (((c : Thread nD τ)).1, b)) (W10 m ρ c) s')
      isplitl [Hh] <;> iassumption)
    (hQ := fun s h c =>
      ⟨h c _ (mem_uc main_v44 (by decide)),
       (h c _ (mem_uc main_arg0 (by decide))).trans (W10_main_arg0 m ρ c),
       (h c _ (mem_uc main_arg1 (by decide))).trans (W10_main_arg1 m ρ c),
       (h c _ (mem_uc main_arg2 (by decide))).trans (W10_main_arg2 m ρ c),
       (h c _ (mem_uc main_arg3 (by decide))).trans (W10_main_arg3 m ρ c),
       (h c _ (mem_uc main_arg4 (by decide))).trans (W10_main_arg4 m ρ c),
       (h c _ (mem_uc main_arg5 (by decide))).trans (W10_main_arg5 m ρ c)⟩)

end Cert.KernelIdeal.RunValue

end
-- ==== Proof.LibPlainDot.lean ====
/-
  A plain matrix product read at an index. For the dimension numbers that contract the second axis of an `M × K`
  array with the first axis of a `K × N` array and keep the other two axes in order, both the `dot_general`
  of the two arrays and their `matmul` into a zero accumulator are, at the extended reals, the textbook sum
  `∑ k, X (r, k) · W (k, c)`: the contraction shape has one axis of extent `K`, its indices are re-indexed by `Fin K`,
  and each operand index is read coordinate by coordinate.
-/
import Idealize.ShloMosaic.PureOps.Ideal
import Idealize.ShloMosaic.PureOps.Ideal.Laws
import Idealize.ShloMosaic.Lib.ValueIdx

noncomputable section

open scoped BigOperators

namespace Cert.Proof.PlainDot

open Idealize.ShloMosaic Idealize.ShloMosaic.ValueIdx

variable {M K N : Nat}

/-- The left operand's row coordinate is the output's row coordinate: axis 0 of the left is its one free axis. -/
theorem lhs_row (i : (⟨2, ![M, N]⟩ : Shape).Idx) (q : (DotDims.plain M K N).contr.Idx) :
    ((DotDims.plain M K N).lhsIdx i q 0).val = (i 0).val := by
  unfold DotDims.lhsIdx
  rw [dif_neg (show ¬(0 : Fin 2) ∈ (DotDims.plain M K N).lhsBatch from List.not_mem_nil),
    dif_pos (show (0 : Fin 2) ∈ (DotDims.plain M K N).lhsNonContracting from List.mem_singleton.mpr rfl)]
  rfl

/-- The left operand's column coordinate is the contraction position: axis 1 of the left is the contracted one. -/
theorem lhs_col (i : (⟨2, ![M, N]⟩ : Shape).Idx) (q : (DotDims.plain M K N).contr.Idx) :
    ((DotDims.plain M K N).lhsIdx i q 1).val = (q ⟨0, Nat.one_pos⟩).val :=
  (DotDims.plain M K N).lhsIdx_val_of_single rfl i q

/-- The right operand's row coordinate is the contraction position: axis 0 of the right is the contracted one. -/
theorem rhs_row (i : (⟨2, ![M, N]⟩ : Shape).Idx) (q : (DotDims.plain M K N).contr.Idx) :
    ((DotDims.plain M K N).rhsIdx i q 0).val = (q ⟨0, Nat.one_pos⟩).val :=
  (DotDims.plain M K N).rhsIdx_val_of_single rfl i q

/-- The right operand's column coordinate is the output's column coordinate: axis 1 of the right is its one free axis. -/
theorem rhs_col (i : (⟨2, ![M, N]⟩ : Shape).Idx) (q : (DotDims.plain M K N).contr.Idx) :
    ((DotDims.plain M K N).rhsIdx i q 1).val = (i 1).val := by
  unfold DotDims.rhsIdx
  rw [dif_neg (show ¬(1 : Fin 2) ∈ (DotDims.plain M K N).rhsBatch from List.not_mem_nil),
    dif_pos (show (1 : Fin 2) ∈ (DotDims.plain M K N).rhsNonContracting from List.mem_singleton.mpr rfl)]
  rfl

/-- At contraction position `k` (put on the contraction shape's one axis) the left operand is read at `(r, k)`. -/
theorem lhsIdx_plain (i : (⟨2, ![M, N]⟩ : Shape).Idx) (k : Fin K) :
    (DotDims.plain M K N).lhsIdx i ((contrEquiv1 (DotDims.plain M K N) K rfl rfl).symm k) = ix2 (i 0) k := by
  have hk := contrEquiv1_symm_val (DotDims.plain M K N) K rfl rfl k
  funext a
  refine Fin.ext ?_
  match a with
  | ⟨0, _⟩ => exact lhs_row i _
  | ⟨1, _⟩ => exact (lhs_col i _).trans hk

/-- At contraction position `k` the right operand is read at `(k, c)`. -/
theorem rhsIdx_plain (i : (⟨2, ![M, N]⟩ : Shape).Idx) (k : Fin K) :
    (DotDims.plain M K N).rhsIdx i ((contrEquiv1 (DotDims.plain M K N) K rfl rfl).symm k) = ix2 k (i 1) := by
  have hk := contrEquiv1_symm_val (DotDims.plain M K N) K rfl rfl k
  funext a
  refine Fin.ext ?_
  match a with
  | ⟨0, _⟩ => exact (rhs_row i _).trans hk
  | ⟨1, _⟩ => exact rhs_col i _

/-- The sum over the contraction shape's indices of the operands' products is the sum over `k : Fin K` of
    `X (r, k) · W (k, c)`. -/
theorem sum_contr_plain {φ₁ φ₂ : FTy} (X : FVec Ideal ⟨2, ![M, K]⟩ φ₁) (W : FVec Ideal ⟨2, ![K, N]⟩ φ₂)
    (i : (⟨2, ![M, N]⟩ : Shape).Idx) :
    (∑ q : (DotDims.plain M K N).contr.Idx, X ((DotDims.plain M K N).lhsIdx i q) * W ((DotDims.plain M K N).rhsIdx i q))
      = ∑ k : Fin K, X (ix2 (i 0) k) * W (ix2 k (i 1)) := by
  rw [← Equiv.sum_comp (contrEquiv1 (DotDims.plain M K N) K rfl rfl).symm]
  refine Finset.sum_congr rfl fun k _ => ?_
  exact congrArg₂ (· * ·) (congrArg X (lhsIdx_plain i k)) (congrArg W (rhsIdx_plain i k))

/-- The `dot_general` with the plain dimension numbers, at the extended reals, is the matrix product:
    entry `(r, c)` is `∑ k, X (r, k) · W (k, c)`, whatever the precision and the schedule key. -/
theorem dotGeneral_plain {φ₁ φ₂ : FTy} (prec : Option ContractPrecision) (sched : HostSchedule)
    (X : FVec Ideal ⟨2, ![M, K]⟩ φ₁) (W : FVec Ideal ⟨2, ![K, N]⟩ φ₂) (i : (⟨2, ![M, N]⟩ : Shape).Idx) :
    FloatOps.dotGeneral (DotDims.plain M K N) prec sched X W i = ∑ k : Fin K, X (ix2 (i 0) k) * W (ix2 k (i 1)) := by
  rw [Ideal.dotGeneral_apply]
  exact sum_contr_plain X W i

/-- The `matmul` with the plain dimension numbers into the zero accumulator, at the extended reals, is the matrix
    product: entry `(r, c)` is `∑ k, X (r, k) · W (k, c)`. -/
theorem matmul_plain_zero {φ₁ φ₂ : FTy} (prec : Option ContractPrecision)
    (X : FVec Ideal ⟨2, ![M, K]⟩ φ₁) (W : FVec Ideal ⟨2, ![K, N]⟩ φ₂) (i : (⟨2, ![M, N]⟩ : Shape).Idx) :
    FloatOps.matmul (DotDims.plain M K N) prec X W (constant ⟨2, ![M, N]⟩ .f32 0x00000000#32) i
      = ∑ k : Fin K, X (ix2 (i 0) k) * W (ix2 k (i 1)) := by
  rw [Ideal.matmul_constant_zero_apply]
  exact sum_contr_plain X W i

end Cert.Proof.PlainDot

end
-- ==== Proof.LibColumns.lean ====
/-
  Column forms of three layout operations, read at an index of literal coordinates.

  A sum over the lanes of an `a × b` array keeps one entry per row; kernels then give that column vector a unit second
  axis (`[a] → [a, 1]`) and spread it back over the lanes (`[a, 1] → [a, b]`). Read at an index:

  * `shapeCast_a_a1_apply`: the cast of `x : [a]` to `[a, 1]` at `(r, u)` is `x r`, whatever the unit coordinate `u`;
  * `broadcastTo_a1_ab_apply`: the broadcast of `v : [a, 1]` to `[a, b]` at `(r, c)` is `v (r, 0)`;
  * `shapeCast_a1_1a_apply`: the cast of a column `x : [a, 1]` to a row `[1, a]` at `(u, c)` is `x (c, 0)`;
  * `lift_rows`: over a row index `r`, the source index with lane `k` put back is `(r, k)`;
  * `multiReduction_add_rows`: at the extended reals the lane sum of `x : [a, b]` at row `r` is `∑ k, x (r, k)`.
-/
import Idealize.ShloMosaic.PureOps.Ideal
import Idealize.ShloMosaic.PureOps.Ideal.Laws
import Idealize.ShloMosaic.Lib.ValueIdx
import Idealize.ShloMosaic.Lib.Pipeline.Value

noncomputable section

open scoped BigOperators

namespace Cert.Proof.Columns

open Idealize.ShloMosaic Idealize.ShloMosaic.ValueIdx

variable {α : Type}

/-- An `[a]` array cast to `[a, 1]` reads, at `(r, u)`, the operand at `r`. -/
theorem shapeCast_a_a1_apply {a : ℕ} (x : (⟨1, ![a]⟩ : Shape).Idx → α) (h : (⟨1, ![a]⟩ : Shape).ShapeCasts ⟨2, ![a, 1]⟩)
    (r : Fin a) (u : Fin 1) : shapeCast ⟨2, ![a, 1]⟩ x h (ix2 r u) = x (ix1 r) :=
  shapeCast_apply x h _ _ (by
    have hu : u.val = 0 := by omega
    rw [Shape.rowMajor_val_two, Shape.rowMajor_val_one]
    show r.val = r.val * 1 + u.val
    rw [hu, Nat.mul_one, Nat.add_zero])

/-- A column `[a, 1]` cast to a row `[1, a]` reads, at `(u, c)`, the operand at `(c, 0)`. -/
theorem shapeCast_a1_1a_apply {a : ℕ} (x : (⟨2, ![a, 1]⟩ : Shape).Idx → α) (h : (⟨2, ![a, 1]⟩ : Shape).ShapeCasts ⟨2, ![1, a]⟩)
    (u : Fin 1) (c : Fin a) : shapeCast ⟨2, ![1, a]⟩ x h (ix2 u c) = x (ix2 c (0 : Fin 1)) :=
  shapeCast_apply x h _ _ (by
    have hu : u.val = 0 := by omega
    rw [Shape.rowMajor_val_two, Shape.rowMajor_val_two]
    show c.val * 1 + 0 = u.val * a + c.val
    rw [hu, Nat.zero_mul, Nat.zero_add, Nat.mul_one, Nat.add_zero])

/-- An `[a, 1]` array broadcast to `[a, b]` reads, at `(r, c)`, the operand's entry of row `r`. -/
theorem broadcastTo_a1_ab_apply {a b : ℕ} (v : (⟨2, ![a, 1]⟩ : Shape).Idx → α)
    (h : (⟨2, ![a, 1]⟩ : Shape).Broadcasts ⟨2, ![a, b]⟩) (r : Fin a) (c : Fin b) :
    broadcastTo ⟨2, ![a, b]⟩ v h (ix2 r c) = v (ix2 r (0 : Fin 1)) := by
  refine broadcastTo_apply v h (ix2 r c) (ix2 r (0 : Fin 1)) fun ax => ?_
  match ax with
  | ⟨0, _⟩ =>
    show r.val = if a = 1 then 0 else r.val
    split
    · have := r.isLt; omega
    · rfl
  | ⟨1, _⟩ => rfl

/-- Over the row index `r`, the source index whose lane coordinate is `k` is `(r, k)`. -/
theorem lift_rows {a b : ℕ} (h : (⟨2, ![a, b]⟩ : Shape).Reduces [(1 : Fin 2)] ⟨1, ![a]⟩) (r : Fin a) (k : Fin b) :
    h.lift (ix1 r) k = ix2 r k := by
  funext c
  refine Fin.ext ?_
  match c with
  | ⟨0, _⟩ => rfl
  | ⟨1, _⟩ => rfl

/-- A float sum over the lanes of an `a × b` array, at the extended reals and at row `r`, is `∑ k, x (r, k)`. The
    accumulator fact is taken in the form a printed program carries it. -/
theorem multiReduction_add_rows {a b : ℕ} {φ : FTy} (x : FVec Ideal ⟨2, ![a, b]⟩ φ) (acc : BitVec φ.bits)
    (h : (⟨2, ![a, b]⟩ : Shape).Reduces [(1 : Fin 2)] ⟨1, ![a]⟩) (hφ : FKind.Formats φ)
    (hacc : acc = FKind.add.neutral φ hφ) (r : Fin a) :
    multiReduction .add [(1 : Fin 2)] ⟨1, ![a]⟩ x acc h hφ hacc (ix1 r) = ∑ k : Fin b, x (ix2 r k) := by
  refine (Ideal.multiReduction_add_single x acc h hφ hacc (ix1 r)).trans ?_
  exact Finset.sum_congr rfl fun k _ => congrArg x (lift_rows h r k)

end Cert.Proof.Columns

end
-- ==== Proof.Payloads.lean ====
/-
  What each kernel body stores, read at one index of its block, on the extended reals.

  The four bodies work on blocks of 5000 rows. Over a block `x` of 5000 × 128 features, a 128 × 128 weight matrix `w`,
  the block's column `d` of per-node scales (5000 × 1) and a bias row `b` (1 × 128):

  * the product bodies (first and third) store `(x · w) (p, q) · d p` — the product's entry `∑ₖ x (p, k) · w (k, q)`, both
    factors passed through a narrower float format on the way in, which on the extended reals changes nothing, scaled by
    the row's scale;
  * the second body stores `max (x (p, q) · d p + b q) 0`;
  * the last body stores its first input unchanged in the left half of its block and `max (x (p, q) · d p + b q) 0` in the
    right half.
-/
import proofs.«167142_j42640435314985_2_alg».proof.Proof.Gen.KernelIdeal.Skeleton
import proofs.«167142_j42640435314985_2_alg».proof.Proof.LibPlainDot
import proofs.«167142_j42640435314985_2_alg».proof.Proof.LibColumns
import Idealize.ShloMosaic.Lib.Pipeline.Value
import Idealize.ShloMosaic.Lib.ValueIdx
import Idealize.ShloMosaic.PureOps.Ideal.Laws

noncomputable section

open scoped BigOperators

namespace Cert.KernelIdeal.Payload

open Cert.KernelIdeal Cert.KernelIdeal.Gen Idealize.ShloMosaic Idealize.ShloMosaic.ValueIdx

/-- A row `[1, b]` spread over `a` rows reads, at `(r, c)`, the row's entry `c`. -/
theorem broadcastTo_1b_ab_apply {α : Type} {a b : ℕ} (v : (⟨2, ![1, b]⟩ : Shape).Idx → α)
    (h : (⟨2, ![1, b]⟩ : Shape).Broadcasts ⟨2, ![a, b]⟩) (r : Fin a) (c : Fin b) :
    broadcastTo ⟨2, ![a, b]⟩ v h (ix2 r c) = v (ix2 (0 : Fin 1) c) := by
  refine broadcastTo_apply v h (ix2 r c) (ix2 (0 : Fin 1) c) fun ax => ?_
  match ax with
  | ⟨0, _⟩ => rfl
  | ⟨1, _⟩ =>
    show c.val = if b = 1 then 0 else c.val
    split
    · have := c.isLt; omega
    · rfl

/-- The scaled product at `(p, q)`. -/
theorem scaledProduct_apply (x : Vec Ideal S5000x128 .f32) (w : Vec Ideal S128x128 .f32) (d : Vec Ideal S5000x1 .f32)
    (p : Fin 5000) (q : Fin 128) :
    k0_pay1 (F := Ideal) x w d (ix2 p q) = (∑ k : Fin 128, x (ix2 p k) * w (ix2 k q)) * d (ix2 p (0 : Fin 1)) := by
  unfold k0_pay1
  show FloatOps.matmul (DotDims.plain 5000 128 128) none (truncf .bf16 x bitsLt_bf16_f32) (truncf .bf16 w bitsLt_bf16_f32)
        (constant (F := Ideal) ⟨2, ![5000, 128]⟩ .f32 0x00000000#32) (ix2 p q)
      * broadcastTo S5000x128 (shapeCast S5000x1 d shapeCasts_S5000x1_S5000x1) broadcasts_S5000x1_S5000x128 (ix2 p q) = _
  rw [Cert.Proof.PlainDot.matmul_plain_zero, shapeCast_self, Cert.Proof.Columns.broadcastTo_a1_ab_apply]
  rfl

/-- The third body is the first one over again. -/
theorem scaledProduct2_apply (x : Vec Ideal S5000x128 .f32) (w : Vec Ideal S128x128 .f32) (d : Vec Ideal S5000x1 .f32)
    (p : Fin 5000) (q : Fin 128) :
    k2_pay1 (F := Ideal) x w d (ix2 p q) = (∑ k : Fin 128, x (ix2 p k) * w (ix2 k q)) * d (ix2 p (0 : Fin 1)) := by
  unfold k2_pay1
  show FloatOps.matmul (DotDims.plain 5000 128 128) none
        (truncf .bf16 (shapeCast S5000x128 x shapeCasts_S5000x128_S5000x128) bitsLt_bf16_f32) (truncf .bf16 w bitsLt_bf16_f32)
        (constant (F := Ideal) ⟨2, ![5000, 128]⟩ .f32 0x00000000#32) (ix2 p q)
      * broadcastTo S5000x128 (shapeCast S5000x1 d shapeCasts_S5000x1_S5000x1) broadcasts_S5000x1_S5000x128 (ix2 p q) = _
  rw [Cert.Proof.PlainDot.matmul_plain_zero, shapeCast_self, shapeCast_self, Cert.Proof.Columns.broadcastTo_a1_ab_apply]
  rfl

/-- Scale, add the bias, rectify: the second body at `(p, q)`. -/
theorem scaleBiasRelu_apply (x : Vec Ideal S5000x128 .f32) (d : Vec Ideal S5000x1 .f32) (b : Vec Ideal S1x128 .f32)
    (p : Fin 5000) (q : Fin 128) :
    k1_pay1 (F := Ideal) x d b (ix2 p q) = max (x (ix2 p q) * d (ix2 p (0 : Fin 1)) + b (ix2 (0 : Fin 1) q)) 0 := by
  unfold k1_pay1
  show max (shapeCast S5000x128 x shapeCasts_S5000x128_S5000x128 (ix2 p q)
        * broadcastTo S5000x128 (shapeCast S5000x1 d shapeCasts_S5000x1_S5000x1) broadcasts_S5000x1_S5000x128 (ix2 p q)
        + broadcastTo S5000x128 (shapeCast S1x128 b shapeCasts_S1x128_S1x128) broadcasts_S1x128_S5000x128 (ix2 p q))
      (Ideal.ofBits .f32 0x00000000#32) = _
  rw [shapeCast_self, shapeCast_self, shapeCast_self, Cert.Proof.Columns.broadcastTo_a1_ab_apply, broadcastTo_1b_ab_apply,
    Ideal.ofBits_zero_f32]

/-- The last body's left half is its first input. -/
theorem passThrough_apply (x : Vec Ideal S5000x128 .f32) (j : S5000x128.Idx) : k3_pay1 (F := Ideal) x j = x j := by
  unfold k3_pay1
  show shapeCast S5000x128 x shapeCasts_S5000x128_S5000x128 j = _
  rw [shapeCast_self]

/-- The last body's right half: scale, add the bias, rectify. -/
theorem scaleBiasRelu2_apply (x : Vec Ideal S5000x128 .f32) (d : Vec Ideal S5000x1 .f32) (b : Vec Ideal S1x128 .f32)
    (p : Fin 5000) (q : Fin 128) :
    k3_pay2 (F := Ideal) x d b (ix2 p q) = max (x (ix2 p q) * d (ix2 p (0 : Fin 1)) + b (ix2 (0 : Fin 1) q)) 0 := by
  unfold k3_pay2
  show max (shapeCast S5000x128 x shapeCasts_S5000x128_S5000x128 (ix2 p q)
        * broadcastTo S5000x128 (shapeCast S5000x1 d shapeCasts_S5000x1_S5000x1) broadcasts_S5000x1_S5000x128 (ix2 p q)
        + broadcastTo S5000x128 (shapeCast S1x128 b shapeCasts_S1x128_S1x128) broadcasts_S1x128_S5000x128 (ix2 p q))
      (Ideal.ofBits .f32 0x00000000#32) = _
  rw [shapeCast_self, shapeCast_self, shapeCast_self, Cert.Proof.Columns.broadcastTo_a1_ab_apply, broadcastTo_1b_ab_apply,
    Ideal.ofBits_zero_f32]

end Cert.KernelIdeal.Payload

end
-- ==== Proof.Region0.lean ====
/-
  What the first kernel region leaves in its output array.

  The region walks 20 grid points; point `t` takes rows 5000 t … 5000 t + 4999 of the feature array and of the column
  of per-node scales, the whole weight matrix, and writes the same rows of the output. Its body stores the product of
  its block of rows with the weight matrix, each row scaled by the row's scale; a row of a matrix product reads only
  that row of the left factor, so block `t` of the output is block `t` of ONE function of the whole arrays,
  `(X W) (r, c) · D r`. The blocks cover the array (row `r` is in the block of point `r / 5000`), so after the region
  the output array IS that function of the arrays the region found.
-/
import proofs.«167142_j42640435314985_2_alg».proof.Proof.Gen.KernelIdeal.Frame
import proofs.«167142_j42640435314985_2_alg».proof.Proof.Payloads
import Idealize.ShloMosaic.Lib.Pipeline.Value
import Idealize.ShloMosaic.Lib.ValueIdx

set_option maxRecDepth 16384

noncomputable section

open scoped BigOperators

namespace Cert.KernelIdeal.Region0

open Cert.KernelIdeal Cert.KernelIdeal.Gen Idealize.ShloMosaic Idealize.ShloMosaic.TcCoe Idealize.ShloMosaic.ValueIdx
open Idealize.SL.Sem
open Idealize.ShloMosaic.Pipeline (Dat Cfg Window)

variable (V : (c : Dev nD) → (b : Ref sig .tc) → Buf (Elt Ideal) ((c : Thread nD τ).loc b))

theorem origin : (![0, 0] : Fin 2 → Nat) = fun _ => 0 := funext fun a => by fin_cases a <;> rfl

/-- The product of a 100000 × 128 array with a 128 × 128 array, row `r` scaled by entry `r` of a 100000 × 1 column. -/
def scaledProduct (X : S100000x128.Idx → EReal) (W : S128x128.Idx → EReal) (D : S100000x1.Idx → EReal) :
    S100000x128.Idx → EReal :=
  fun i => (∑ k : Fin 128, X (ix2 (i 0 : Fin 100000) k) * W (ix2 k (i 1 : Fin 128))) * D (ix2 (i 0 : Fin 100000) (0 : Fin 1))

/-- The printed index maps over the grid: at point `t` the row-blocked windows sit at block row `t`, block column 0; the
    weight window at block (0, 0). -/
theorem index_facts : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0
    ∧ win0_3.index t (0 : Fin 2) = t.val ∧ win0_3.index t (1 : Fin 2) = 0 :=
  (by decide +kernel : ∀ t : Fin grid0.N, _)

theorem point_lt (t : Fin cfg0.N) : t.val < 20 := lt_of_lt_of_eq t.isLt N_0

/-- Row `p` of point `t`'s block is row `5000 t + p` of the array. -/
def rowAt (t : Fin cfg0.N) (p : Fin 5000) : Fin 100000 :=
  ⟨t.val * 5000 + p.val, by have := point_lt t; have := p.isLt; omega⟩

theorem emb_x (t : Fin cfg0.N) (p : Fin 5000) (k : Fin 128) :
    ((cfg0.win 0).blk t).view.emb (ix2 p k) = ix2 (rowAt t p) k := by
  obtain ⟨e00, e01, -, -, -, -, -, -⟩ := index_facts t
  funext a; apply Fin.ext
  match a with
  | ⟨0, _⟩ => show win0_0.index t (0 : Fin 2) * 5000 + 1 * p.val = t.val * 5000 + p.val; omega
  | ⟨1, _⟩ => show win0_0.index t (1 : Fin 2) * 128 + 1 * k.val = k.val; omega

theorem emb_w (t : Fin cfg0.N) (k : Fin 128) (q : Fin 128) :
    ((cfg0.win 1).blk t).view.emb (ix2 k q) = ix2 k q := by
  obtain ⟨-, -, e10, e11, -, -, -, -⟩ := index_facts t
  funext a; apply Fin.ext
  match a with
  | ⟨0, _⟩ => show win0_1.index t (0 : Fin 2) * 128 + 1 * k.val = k.val; omega
  | ⟨1, _⟩ => show win0_1.index t (1 : Fin 2) * 128 + 1 * q.val = q.val; omega

theorem emb_d (t : Fin cfg0.N) (p : Fin 5000) (u : Fin 1) :
    ((cfg0.win 2).blk t).view.emb (ix2 p u) = ix2 (rowAt t p) (0 : Fin 1) := by
  obtain ⟨-, -, -, -, e20, e21, -, -⟩ := index_facts t
  funext a; apply Fin.ext
  match a with
  | ⟨0, _⟩ => show win0_2.index t (0 : Fin 2) * 5000 + 1 * p.val = t.val * 5000 + p.val; omega
  | ⟨1, _⟩ => show win0_2.index t (1 : Fin 2) * 1 + 1 * u.val = 0; have := u.isLt; omega

theorem emb_out (t : Fin cfg0.N) (p : Fin 5000) (q : Fin 128) :
    ((cfg0.win 3).blk t).view.emb (ix2 p q) = ix2 (rowAt t p) q := by
  obtain ⟨-, -, -, -, -, -, e30, e31⟩ := index_facts t
  funext a; apply Fin.ext
  match a with
  | ⟨0, _⟩ => show win0_3.index t (0 : Fin 2) * 5000 + 1 * p.val = t.val * 5000 + p.val; omega
  | ⟨1, _⟩ => show win0_3.index t (1 : Fin 2) * 128 + 1 * q.val = q.val; omega

/-- Read through point `t`'s blocks, the body's value at `(p, q)` is the scaled product at the block's place in the
    array — for ANY three arrays. -/
theorem block_read (X : S100000x128.Idx → EReal) (W : S128x128.Idx → EReal) (D : S100000x1.Idx → EReal)
    (t : Fin cfg0.N) (p : Fin 5000) (q : Fin 128) :
    (∑ k : Fin 128, X (((cfg0.win 0).blk t).view.emb (ix2 p k)) * W (((cfg0.win 1).blk t).view.emb (ix2 k q)))
        * D (((cfg0.win 2).blk t).view.emb (ix2 p (0 : Fin 1)))
      = scaledProduct X W D (((cfg0.win 3).blk t).view.emb (ix2 p q)) := by
  rw [emb_out, emb_d]
  refine congrArg₂ (· * ·) (Finset.sum_congr rfl fun k _ => ?_) rfl
  rw [emb_x, emb_w]

/-- WHAT POINT `t` WRITES BACK is block `t` of the scaled product of the arrays as the region finds them. -/
theorem flushed_eq (c : Dev nD) (t : Fin cfg0.N) :
    (dat0 V c).flushed 3 t = ((cfg0.win 3).blk t).view.read (Elt Ideal)
      (scaledProduct (V c main_arg0) (V c main_arg2) (V c main_v15)) := by
  show (cfg0.win 3).cut (grid0.coords t) ((dat0 V c).after 3 t) = _
  rw [after0_3]
  unfold out0_3
  rw [View.canon_unit_zero origin]
  simp only [View.ld_unit_zero (S := S5000x128) origin, View.ld_unit_zero (S := S128x128) origin,
    View.ld_unit_zero (S := S5000x1) origin]
  funext j
  obtain ⟨p, q, rfl⟩ : ∃ (p : Fin 5000) (q : Fin 128), j = ix2 p q := ⟨j 0, j 1, eq_ix2 j⟩
  refine (Payload.scaledProduct_apply (iblk0 V c 0 t) (iblk0 V c 1 t) (iblk0 V c 2 t) p q).trans ?_
  exact block_read (V c main_arg0) (V c main_arg2) (V c main_v15) t p q

/-- An index of the array is in point `t`'s block iff each coordinate is in the block's range on its axis. -/
theorem mem_blk (t : Fin cfg0.N) (i : S100000x128.Idx) :
    i ∈ ((cfg0.win 3).blk t).view.set ↔ ∀ a : Fin 2, win0_3.index t a * S5000x128.size a ≤ (i a).val
      ∧ (i a).val < win0_3.index t a * S5000x128.size a + S5000x128.size a := by
  show i ∈ ((View.whole main_v16).slice (win0_3.rect t)).set ↔ _
  rw [View.set_slice_whole, Rect.mem_set_unit]
  exact Iff.rfl

/-- Every row belongs to the block of the point numbered by its quotient by 5000. -/
theorem covered (i : S100000x128.Idx) :
    ∃ t : Fin cfg0.N, (cfg0.win 3).flush t = true ∧ i ∈ ((cfg0.win 3).blk t).view.set := by
  have hi0 : (i 0).val < 100000 := (i 0).isLt
  have hi1 : (i 1).val < 128 := (i 1).isLt
  let t : Fin cfg0.N := ⟨(i 0).val / 5000, lt_of_lt_of_eq (by omega : (i 0).val / 5000 < 20) N_0.symm⟩
  have ht : t.val = (i 0).val / 5000 := rfl
  obtain ⟨-, -, -, -, -, -, e30, e31⟩ := index_facts t
  refine ⟨t, flush0_3 t, ?_⟩
  rw [mem_blk]
  intro a
  match a with
  | ⟨0, _⟩ =>
    show win0_3.index t (0 : Fin 2) * 5000 ≤ (i 0).val ∧ (i 0).val < win0_3.index t (0 : Fin 2) * 5000 + 5000
    omega
  | ⟨1, _⟩ =>
    show win0_3.index t (1 : Fin 2) * 128 ≤ (i 1).val ∧ (i 1).val < win0_3.index t (1 : Fin 2) * 128 + 128
    omega

/-- THE ARRAY after the region: the scaled product of the arrays as the region finds them. -/
theorem final (c : Dev nD) :
    (dat0 V c).arrAt 3 cfg0.N = scaledProduct (V c main_arg0) (V c main_arg2) (V c main_v15) :=
  (dat0 V c).arrAt_eq_of_cover 3 _ (fun t _ => flushed_eq V c t) covered

end Cert.KernelIdeal.Region0

end
-- ==== Proof.Region1.lean ====
/-
  What the second kernel region leaves in its output array.

  The region walks 20 grid points; point `t` takes rows 5000 t … 5000 t + 4999 of the aggregated features and of the
  column of per-node scales, the whole bias row, and writes the same rows of the output. Its body works entry by entry:
  `max (A (r, c) · D r + b c) 0`. So block `t` of the output is block `t` of that one function of the whole arrays, the
  blocks cover the array (row `r` is in the block of point `r / 5000`), and after the region the output array IS that
  function of the arrays the region found.
-/
import proofs.«167142_j42640435314985_2_alg».proof.Proof.Gen.KernelIdeal.Frame
import proofs.«167142_j42640435314985_2_alg».proof.Proof.Payloads
import Idealize.ShloMosaic.Lib.Pipeline.Value
import Idealize.ShloMosaic.Lib.ValueIdx

set_option maxRecDepth 16384

noncomputable section

open scoped BigOperators

namespace Cert.KernelIdeal.Region1

open Cert.KernelIdeal Cert.KernelIdeal.Gen Idealize.ShloMosaic Idealize.ShloMosaic.TcCoe Idealize.ShloMosaic.ValueIdx
open Idealize.SL.Sem
open Idealize.ShloMosaic.Pipeline (Dat Cfg Window)

variable (V : (c : Dev nD) → (b : Ref sig .tc) → Buf (Elt Ideal) ((c : Thread nD τ).loc b))

theorem origin : (![0, 0] : Fin 2 → Nat) = fun _ => 0 := funext fun a => by fin_cases a <;> rfl

/-- Row `r` of a 100000 × 128 array scaled by entry `r` of a 100000 × 1 column, a 1 × 128 bias row added, rectified. -/
def scaleBiasRelu (A : S100000x128.Idx → EReal) (B : S1x128.Idx → EReal) (D : S100000x1.Idx → EReal) :
    S100000x128.Idx → EReal :=
  fun i => max (A (ix2 (i 0 : Fin 100000) (i 1 : Fin 128)) * D (ix2 (i 0 : Fin 100000) (0 : Fin 1))
    + B (ix2 (0 : Fin 1) (i 1 : Fin 128))) 0

/-- The printed index maps over the grid: at point `t` the row-blocked windows sit at block row `t`, block column 0; the
    bias window at block (0, 0). -/
theorem index_facts : ∀ t : Fin cfg1.N,
    win1_0.index t (0 : Fin 2) = t.val ∧ win1_0.index t (1 : Fin 2) = 0
    ∧ win1_1.index t (0 : Fin 2) = 0 ∧ win1_1.index t (1 : Fin 2) = 0
    ∧ win1_2.index t (0 : Fin 2) = t.val ∧ win1_2.index t (1 : Fin 2) = 0
    ∧ win1_3.index t (0 : Fin 2) = t.val ∧ win1_3.index t (1 : Fin 2) = 0 :=
  (by decide +kernel : ∀ t : Fin grid1.N, _)

theorem point_lt (t : Fin cfg1.N) : t.val < 20 := lt_of_lt_of_eq t.isLt N_1

/-- Row `p` of point `t`'s block is row `5000 t + p` of the array. -/
def rowAt (t : Fin cfg1.N) (p : Fin 5000) : Fin 100000 :=
  ⟨t.val * 5000 + p.val, by have := point_lt t; have := p.isLt; omega⟩

theorem emb_a (t : Fin cfg1.N) (p : Fin 5000) (q : Fin 128) :
    ((cfg1.win 0).blk t).view.emb (ix2 p q) = ix2 (rowAt t p) q := by
  obtain ⟨e00, e01, -, -, -, -, -, -⟩ := index_facts t
  funext a; apply Fin.ext
  match a with
  | ⟨0, _⟩ => show win1_0.index t (0 : Fin 2) * 5000 + 1 * p.val = t.val * 5000 + p.val; omega
  | ⟨1, _⟩ => show win1_0.index t (1 : Fin 2) * 128 + 1 * q.val = q.val; omega

theorem emb_b (t : Fin cfg1.N) (u : Fin 1) (q : Fin 128) :
    ((cfg1.win 1).blk t).view.emb (ix2 u q) = ix2 (0 : Fin 1) q := by
  obtain ⟨-, -, e10, e11, -, -, -, -⟩ := index_facts t
  funext a; apply Fin.ext
  match a with
  | ⟨0, _⟩ => show win1_1.index t (0 : Fin 2) * 1 + 1 * u.val = 0; have := u.isLt; omega
  | ⟨1, _⟩ => show win1_1.index t (1 : Fin 2) * 128 + 1 * q.val = q.val; omega

theorem emb_d (t : Fin cfg1.N) (p : Fin 5000) (u : Fin 1) :
    ((cfg1.win 2).blk t).view.emb (ix2 p u) = ix2 (rowAt t p) (0 : Fin 1) := by
  obtain ⟨-, -, -, -, e20, e21, -, -⟩ := index_facts t
  funext a; apply Fin.ext
  match a with
  | ⟨0, _⟩ => show win1_2.index t (0 : Fin 2) * 5000 + 1 * p.val = t.val * 5000 + p.val; omega
  | ⟨1, _⟩ => show win1_2.index t (1 : Fin 2) * 1 + 1 * u.val = 0; have := u.isLt; omega

theorem emb_out (t : Fin cfg1.N) (p : Fin 5000) (q : Fin 128) :
    ((cfg1.win 3).blk t).view.emb (ix2 p q) = ix2 (rowAt t p) q := by
  obtain ⟨-, -, -, -, -, -, e30, e31⟩ := index_facts t
  funext a; apply Fin.ext
  match a with
  | ⟨0, _⟩ => show win1_3.index t (0 : Fin 2) * 5000 + 1 * p.val = t.val * 5000 + p.val; omega
  | ⟨1, _⟩ => show win1_3.index t (1 : Fin 2) * 128 + 1 * q.val = q.val; omega

/-- Read through point `t`'s blocks, the body's value at `(p, q)` is that function at the block's place in the array —
    for ANY three arrays. -/
theorem block_read (A : S100000x128.Idx → EReal) (B : S1x128.Idx → EReal) (D : S100000x1.Idx → EReal)
    (t : Fin cfg1.N) (p : Fin 5000) (q : Fin 128) :
    max (A (((cfg1.win 0).blk t).view.emb (ix2 p q)) * D (((cfg1.win 2).blk t).view.emb (ix2 p (0 : Fin 1)))
        + B (((cfg1.win 1).blk t).view.emb (ix2 (0 : Fin 1) q))) 0
      = scaleBiasRelu A B D (((cfg1.win 3).blk t).view.emb (ix2 p q)) := by
  rw [emb_out, emb_d, emb_a, emb_b]
  rfl

/-- WHAT POINT `t` WRITES BACK is block `t` of that function of the arrays as the region finds them. -/
theorem flushed_eq (c : Dev nD) (t : Fin cfg1.N) :
    (dat1 V c).flushed 3 t = ((cfg1.win 3).blk t).view.read (Elt Ideal)
      (scaleBiasRelu (V c main_v26) (V c main_v28) (V c main_v27)) := by
  show (cfg1.win 3).cut (grid1.coords t) ((dat1 V c).after 3 t) = _
  rw [after1_3]
  unfold out1_3
  rw [View.canon_unit_zero origin]
  simp only [View.ld_unit_zero (S := S5000x128) origin, View.ld_unit_zero (S := S1x128) origin,
    View.ld_unit_zero (S := S5000x1) origin]
  funext j
  obtain ⟨p, q, rfl⟩ : ∃ (p : Fin 5000) (q : Fin 128), j = ix2 p q := ⟨j 0, j 1, eq_ix2 j⟩
  refine (Payload.scaleBiasRelu_apply (iblk1 V c 0 t) (iblk1 V c 2 t) (iblk1 V c 1 t) p q).trans ?_
  exact block_read (V c main_v26) (V c main_v28) (V c main_v27) t p q

/-- An index of the array is in point `t`'s block iff each coordinate is in the block's range on its axis. -/
theorem mem_blk (t : Fin cfg1.N) (i : S100000x128.Idx) :
    i ∈ ((cfg1.win 3).blk t).view.set ↔ ∀ a : Fin 2, win1_3.index t a * S5000x128.size a ≤ (i a).val
      ∧ (i a).val < win1_3.index t a * S5000x128.size a + S5000x128.size a := by
  show i ∈ ((View.whole main_v29).slice (win1_3.rect t)).set ↔ _
  rw [View.set_slice_whole, Rect.mem_set_unit]
  exact Iff.rfl

/-- Every row belongs to the block of the point numbered by its quotient by 5000. -/
theorem covered (i : S100000x128.Idx) :
    ∃ t : Fin cfg1.N, (cfg1.win 3).flush t = true ∧ i ∈ ((cfg1.win 3).blk t).view.set := by
  have hi0 : (i 0).val < 100000 := (i 0).isLt
  have hi1 : (i 1).val < 128 := (i 1).isLt
  let t : Fin cfg1.N := ⟨(i 0).val / 5000, lt_of_lt_of_eq (by omega : (i 0).val / 5000 < 20) N_1.symm⟩
  have ht : t.val = (i 0).val / 5000 := rfl
  obtain ⟨-, -, -, -, -, -, e30, e31⟩ := index_facts t
  refine ⟨t, flush1_3 t, ?_⟩
  rw [mem_blk]
  intro a
  match a with
  | ⟨0, _⟩ =>
    show win1_3.index t (0 : Fin 2) * 5000 ≤ (i 0).val ∧ (i 0).val < win1_3.index t (0 : Fin 2) * 5000 + 5000
    omega
  | ⟨1, _⟩ =>
    show win1_3.index t (1 : Fin 2) * 128 ≤ (i 1).val ∧ (i 1).val < win1_3.index t (1 : Fin 2) * 128 + 128
    omega

/-- THE ARRAY after the region: scaled, biased and rectified, of the arrays as the region finds them. -/
theorem final (c : Dev nD) :
    (dat1 V c).arrAt 3 cfg1.N = scaleBiasRelu (V c main_v26) (V c main_v28) (V c main_v27) :=
  (dat1 V c).arrAt_eq_of_cover 3 _ (fun t _ => flushed_eq V c t) covered

end Cert.KernelIdeal.Region1

end
-- ==== Proof.Region2.lean ====
/-
  What the third kernel region leaves in its output array.

  It is the first region's kernel run on the second layer's arrays: point `t` takes rows 5000 t … 5000 t + 4999 of the
  hidden features and of the column of per-node scales, the whole second weight matrix, and writes the same rows of the
  output, each the product row scaled by the row's scale. Block `t` of the output is block `t` of ONE function of the
  whole arrays, `(H W) (r, c) · D r`; the blocks cover the array (row `r` is in the block of point `r / 5000`), so
  after the region the output array IS that function of the arrays the region found.
-/
import proofs.«167142_j42640435314985_2_alg».proof.Proof.Gen.KernelIdeal.Frame
import proofs.«167142_j42640435314985_2_alg».proof.Proof.Payloads
import Idealize.ShloMosaic.Lib.Pipeline.Value
import Idealize.ShloMosaic.Lib.ValueIdx

set_option maxRecDepth 16384

noncomputable section

open scoped BigOperators

namespace Cert.KernelIdeal.Region2

open Cert.KernelIdeal Cert.KernelIdeal.Gen Idealize.ShloMosaic Idealize.ShloMosaic.TcCoe Idealize.ShloMosaic.ValueIdx
open Idealize.SL.Sem
open Idealize.ShloMosaic.Pipeline (Dat Cfg Window)

variable (V : (c : Dev nD) → (b : Ref sig .tc) → Buf (Elt Ideal) ((c : Thread nD τ).loc b))

theorem origin : (![0, 0] : Fin 2 → Nat) = fun _ => 0 := funext fun a => by fin_cases a <;> rfl

/-- The product of a 100000 × 128 array with a 128 × 128 array, row `r` scaled by entry `r` of a 100000 × 1 column. -/
def scaledProduct (X : S100000x128.Idx → EReal) (W : S128x128.Idx → EReal) (D : S100000x1.Idx → EReal) :
    S100000x128.Idx → EReal :=
  fun i => (∑ k : Fin 128, X (ix2 (i 0 : Fin 100000) k) * W (ix2 k (i 1 : Fin 128))) * D (ix2 (i 0 : Fin 100000) (0 : Fin 1))

/-- The printed index maps over the grid: at point `t` the row-blocked windows sit at block row `t`, block column 0; the
    weight window at block (0, 0). -/
theorem index_facts : ∀ t : Fin cfg2.N,
    win2_0.index t (0 : Fin 2) = t.val ∧ win2_0.index t (1 : Fin 2) = 0
    ∧ win2_1.index t (0 : Fin 2) = 0 ∧ win2_1.index t (1 : Fin 2) = 0
    ∧ win2_2.index t (0 : Fin 2) = t.val ∧ win2_2.index t (1 : Fin 2) = 0
    ∧ win2_3.index t (0 : Fin 2) = t.val ∧ win2_3.index t (1 : Fin 2) = 0 :=
  (by decide +kernel : ∀ t : Fin grid2.N, _)

theorem point_lt (t : Fin cfg2.N) : t.val < 20 := lt_of_lt_of_eq t.isLt N_2

/-- Row `p` of point `t`'s block is row `5000 t + p` of the array. -/
def rowAt (t : Fin cfg2.N) (p : Fin 5000) : Fin 100000 :=
  ⟨t.val * 5000 + p.val, by have := point_lt t; have := p.isLt; omega⟩

theorem emb_x (t : Fin cfg2.N) (p : Fin 5000) (k : Fin 128) :
    ((cfg2.win 0).blk t).view.emb (ix2 p k) = ix2 (rowAt t p) k := by
  obtain ⟨e00, e01, -, -, -, -, -, -⟩ := index_facts t
  funext a; apply Fin.ext
  match a with
  | ⟨0, _⟩ => show win2_0.index t (0 : Fin 2) * 5000 + 1 * p.val = t.val * 5000 + p.val; omega
  | ⟨1, _⟩ => show win2_0.index t (1 : Fin 2) * 128 + 1 * k.val = k.val; omega

theorem emb_w (t : Fin cfg2.N) (k : Fin 128) (q : Fin 128) :
    ((cfg2.win 1).blk t).view.emb (ix2 k q) = ix2 k q := by
  obtain ⟨-, -, e10, e11, -, -, -, -⟩ := index_facts t
  funext a; apply Fin.ext
  match a with
  | ⟨0, _⟩ => show win2_1.index t (0 : Fin 2) * 128 + 1 * k.val = k.val; omega
  | ⟨1, _⟩ => show win2_1.index t (1 : Fin 2) * 128 + 1 * q.val = q.val; omega

theorem emb_d (t : Fin cfg2.N) (p : Fin 5000) (u : Fin 1) :
    ((cfg2.win 2).blk t).view.emb (ix2 p u) = ix2 (rowAt t p) (0 : Fin 1) := by
  obtain ⟨-, -, -, -, e20, e21, -, -⟩ := index_facts t
  funext a; apply Fin.ext
  match a with
  | ⟨0, _⟩ => show win2_2.index t (0 : Fin 2) * 5000 + 1 * p.val = t.val * 5000 + p.val; omega
  | ⟨1, _⟩ => show win2_2.index t (1 : Fin 2) * 1 + 1 * u.val = 0; have := u.isLt; omega

theorem emb_out (t : Fin cfg2.N) (p : Fin 5000) (q : Fin 128) :
    ((cfg2.win 3).blk t).view.emb (ix2 p q) = ix2 (rowAt t p) q := by
  obtain ⟨-, -, -, -, -, -, e30, e31⟩ := index_facts t
  funext a; apply Fin.ext
  match a with
  | ⟨0, _⟩ => show win2_3.index t (0 : Fin 2) * 5000 + 1 * p.val = t.val * 5000 + p.val; omega
  | ⟨1, _⟩ => show win2_3.index t (1 : Fin 2) * 128 + 1 * q.val = q.val; omega

/-- Read through point `t`'s blocks, the body's value at `(p, q)` is the scaled product at the block's place in the
    array — for ANY three arrays. -/
theorem block_read (X : S100000x128.Idx → EReal) (W : S128x128.Idx → EReal) (D : S100000x1.Idx → EReal)
    (t : Fin cfg2.N) (p : Fin 5000) (q : Fin 128) :
    (∑ k : Fin 128, X (((cfg2.win 0).blk t).view.emb (ix2 p k)) * W (((cfg2.win 1).blk t).view.emb (ix2 k q)))
        * D (((cfg2.win 2).blk t).view.emb (ix2 p (0 : Fin 1)))
      = scaledProduct X W D (((cfg2.win 3).blk t).view.emb (ix2 p q)) := by
  rw [emb_out, emb_d]
  refine congrArg₂ (· * ·) (Finset.sum_congr rfl fun k _ => ?_) rfl
  rw [emb_x, emb_w]

/-- WHAT POINT `t` WRITES BACK is block `t` of the scaled product of the arrays as the region finds them. -/
theorem flushed_eq (c : Dev nD) (t : Fin cfg2.N) :
    (dat2 V c).flushed 3 t = ((cfg2.win 3).blk t).view.read (Elt Ideal)
      (scaledProduct (V c main_v29) (V c main_arg4) (V c main_v30)) := by
  show (cfg2.win 3).cut (grid2.coords t) ((dat2 V c).after 3 t) = _
  rw [after2_3]
  unfold out2_3
  rw [View.canon_unit_zero origin]
  simp only [View.ld_unit_zero (S := S5000x128) origin, View.ld_unit_zero (S := S128x128) origin,
    View.ld_unit_zero (S := S5000x1) origin]
  funext j
  obtain ⟨p, q, rfl⟩ : ∃ (p : Fin 5000) (q : Fin 128), j = ix2 p q := ⟨j 0, j 1, eq_ix2 j⟩
  refine (Payload.scaledProduct2_apply (iblk2 V c 0 t) (iblk2 V c 1 t) (iblk2 V c 2 t) p q).trans ?_
  exact block_read (V c main_v29) (V c main_arg4) (V c main_v30) t p q

/-- An index of the array is in point `t`'s block iff each coordinate is in the block's range on its axis. -/
theorem mem_blk (t : Fin cfg2.N) (i : S100000x128.Idx) :
    i ∈ ((cfg2.win 3).blk t).view.set ↔ ∀ a : Fin 2, win2_3.index t a * S5000x128.size a ≤ (i a).val
      ∧ (i a).val < win2_3.index t a * S5000x128.size a + S5000x128.size a := by
  show i ∈ ((View.whole main_v31).slice (win2_3.rect t)).set ↔ _
  rw [View.set_slice_whole, Rect.mem_set_unit]
  exact Iff.rfl

/-- Every row belongs to the block of the point numbered by its quotient by 5000. -/
theorem covered (i : S100000x128.Idx) :
    ∃ t : Fin cfg2.N, (cfg2.win 3).flush t = true ∧ i ∈ ((cfg2.win 3).blk t).view.set := by
  have hi0 : (i 0).val < 100000 := (i 0).isLt
  have hi1 : (i 1).val < 128 := (i 1).isLt
  let t : Fin cfg2.N := ⟨(i 0).val / 5000, lt_of_lt_of_eq (by omega : (i 0).val / 5000 < 20) N_2.symm⟩
  have ht : t.val = (i 0).val / 5000 := rfl
  obtain ⟨-, -, -, -, -, -, e30, e31⟩ := index_facts t
  refine ⟨t, flush2_3 t, ?_⟩
  rw [mem_blk]
  intro a
  match a with
  | ⟨0, _⟩ =>
    show win2_3.index t (0 : Fin 2) * 5000 ≤ (i 0).val ∧ (i 0).val < win2_3.index t (0 : Fin 2) * 5000 + 5000
    omega
  | ⟨1, _⟩ =>
    show win2_3.index t (1 : Fin 2) * 128 ≤ (i 1).val ∧ (i 1).val < win2_3.index t (1 : Fin 2) * 128 + 128
    omega

/-- THE ARRAY after the region: the scaled product of the arrays as the region finds them. -/
theorem final (c : Dev nD) :
    (dat2 V c).arrAt 3 cfg2.N = scaledProduct (V c main_v29) (V c main_arg4) (V c main_v30) :=
  (dat2 V c).arrAt_eq_of_cover 3 _ (fun t _ => flushed_eq V c t) covered

end Cert.KernelIdeal.Region2

end
-- ==== Proof.LibUnitRect.lean ====
/-
  Reading a matrix through a unit-stride rectangle.

  A unit-stride rectangle of an N0 × N1 matrix with first row o0, first column o1 and n0 × n1 entries places its own
  index (a, b) at the matrix index (o0 + a, o1 + b). This is what a load or a store through such a rectangle reads or
  writes, entry by entry: a body that handles a block in several rectangular pieces is read piece by piece with it.
  The target coordinates are taken as arbitrary indices with their values given by hypotheses, so that a caller can name
  them in whatever form its own statement uses (a literal offset, a grid coordinate's multiple, a computed offset known
  only through an equation) and never has to rewrite the rectangle itself, whose bounds proof depends on the offsets.
-/
import Idealize.ShloMosaic.Lib.ValueIdx

namespace Cert.LibUnitRect

open Idealize.ShloMosaic Idealize.ShloMosaic.ValueIdx

/-- A unit-stride rectangle of a matrix places its own index `x` at (first row + x 0, first column + x 1): for any
    matrix indices `a`, `b` with those values, `idx x = (a, b)`. -/
theorem unit_idx2 {N0 N1 : Nat} (off size : Fin 2 → Nat) (inb : ∀ a, off a + size a ≤ (⟨2, ![N0, N1]⟩ : Shape).size a)
    (x : (Rect.unit (s := ⟨2, ![N0, N1]⟩) off size inb).shape.Idx) (a : Fin N0) (b : Fin N1)
    (ha : a.val = off 0 + (x 0).val) (hb : b.val = off 1 + (x 1).val) :
    (Rect.unit (s := ⟨2, ![N0, N1]⟩) off size inb).idx x = ix2 a b := by
  funext d; apply Fin.ext
  match d with
  | ⟨0, _⟩ => show off 0 + 1 * (x 0).val = a.val; omega
  | ⟨1, _⟩ => show off 1 + 1 * (x 1).val = b.val; omega

/-- The same for the rectangle's embedding (a store's side of the same reading). -/
theorem unit_emb2 {N0 N1 : Nat} (off size : Fin 2 → Nat) (inb : ∀ a, off a + size a ≤ (⟨2, ![N0, N1]⟩ : Shape).size a)
    (x : (Rect.unit (s := ⟨2, ![N0, N1]⟩) off size inb).shape.Idx) (a : Fin N0) (b : Fin N1)
    (ha : a.val = off 0 + (x 0).val) (hb : b.val = off 1 + (x 1).val) :
    (Rect.unit (s := ⟨2, ![N0, N1]⟩) off size inb).emb x = ix2 a b :=
  unit_idx2 off size inb x a b ha hb

end Cert.LibUnitRect
-- ==== Proof.Region3.lean ====
/-
  What the last kernel region leaves in its output array.

  The output is 100000 × 256. Point `t` takes rows 5000 t … 5000 t + 4999 of the hidden features `H`, of the second
  aggregate `A` and of the column of per-node scales `D`, the whole bias row `b`, and writes the same rows of the
  output in two stores: columns 0 … 127 receive the block of `H` unchanged, columns 128 … 255 receive
  `max (A (r, c) · D r + b c) 0`. The two stores tile the block, so the block is one function of the block's index —
  by the column's half —, hence block `t` of ONE function of the whole arrays; the blocks cover the array (row `r` is in
  the block of point `r / 5000`), so after the region the output array IS that function of the arrays the region found.
-/
import proofs.«167142_j42640435314985_2_alg».proof.Proof.Gen.KernelIdeal.Frame
import proofs.«167142_j42640435314985_2_alg».proof.Proof.Payloads
import proofs.«167142_j42640435314985_2_alg».proof.Proof.LibUnitRect
import Idealize.ShloMosaic.Lib.Pipeline.Value
import Idealize.ShloMosaic.Lib.ValueIdx

set_option maxRecDepth 16384

noncomputable section

open scoped BigOperators

namespace Cert.KernelIdeal.Region3

open Cert.KernelIdeal Cert.KernelIdeal.Gen Idealize.ShloMosaic Idealize.ShloMosaic.TcCoe Idealize.ShloMosaic.ValueIdx
open Idealize.SL.Sem
open Idealize.ShloMosaic.Pipeline (Dat Cfg Window)

variable (V : (c : Dev nD) → (b : Ref sig .tc) → Buf (Elt Ideal) ((c : Thread nD τ).loc b))

theorem origin : (![0, 0] : Fin 2 → Nat) = fun _ => 0 := funext fun a => by fin_cases a <;> rfl

/-- Two 128-column halves side by side: the left half is `H`; the right half is row `r` of `A` scaled by entry `r` of the
    column `D`, the bias row `B` added, rectified. `half` is generic in the number of rows so that it serves the
    whole array and one block of it alike. -/
def half {n : ℕ} (H A : (⟨2, ![n, 128]⟩ : Shape).Idx → EReal) (B : (⟨2, ![1, 128]⟩ : Shape).Idx → EReal)
    (D : (⟨2, ![n, 1]⟩ : Shape).Idx → EReal) : (⟨2, ![n, 256]⟩ : Shape).Idx → EReal :=
  fun i => if h : (i 1).val < 128 then H (ix2 (i 0 : Fin n) ⟨(i 1).val, h⟩)
    else max (A (ix2 (i 0 : Fin n) ⟨(i 1).val - 128, by have h256 : (i 1).val < 256 := (i 1).isLt; show (i 1).val - 128 < 128; omega⟩)
      * D (ix2 (i 0 : Fin n) (0 : Fin 1))
      + B (ix2 (0 : Fin 1) ⟨(i 1).val - 128, by have h256 : (i 1).val < 256 := (i 1).isLt; show (i 1).val - 128 < 128; omega⟩)) 0

theorem half_left {n : ℕ} (H A : (⟨2, ![n, 128]⟩ : Shape).Idx → EReal) (B : (⟨2, ![1, 128]⟩ : Shape).Idx → EReal)
    (D : (⟨2, ![n, 1]⟩ : Shape).Idx → EReal) (r : Fin n) (q : Fin 128) (j : Fin 256) (hj : j.val = q.val) :
    half H A B D (ix2 r j) = H (ix2 r q) := by
  have hlt : ((ix2 r j : (⟨2, ![n, 256]⟩ : Shape).Idx) 1).val < 128 := by show j.val < 128; have := q.isLt; omega
  unfold half
  rw [dif_pos hlt]
  exact congrArg H (congrArg (ix2 r) (Fin.ext hj))

theorem half_right {n : ℕ} (H A : (⟨2, ![n, 128]⟩ : Shape).Idx → EReal) (B : (⟨2, ![1, 128]⟩ : Shape).Idx → EReal)
    (D : (⟨2, ![n, 1]⟩ : Shape).Idx → EReal) (r : Fin n) (q : Fin 128) (j : Fin 256) (hj : j.val = 128 + q.val) :
    half H A B D (ix2 r j) = max (A (ix2 r q) * D (ix2 r (0 : Fin 1)) + B (ix2 (0 : Fin 1) q)) 0 := by
  have hge : ¬ ((ix2 r j : (⟨2, ![n, 256]⟩ : Shape).Idx) 1).val < 128 := by show ¬ j.val < 128; omega
  have hq : (⟨j.val - 128, by have := j.isLt; omega⟩ : Fin 128) = q := Fin.ext (by show j.val - 128 = q.val; omega)
  unfold half
  rw [dif_neg hge]
  show max (A (ix2 r ⟨j.val - 128, _⟩) * D (ix2 r (0 : Fin 1)) + B (ix2 (0 : Fin 1) ⟨j.val - 128, _⟩)) 0 = _
  rw [hq]

/-- The printed index maps over the grid: at point `t` the row-blocked windows sit at block row `t`, block column 0; the
    bias window at block (0, 0). -/
theorem index_facts : ∀ t : Fin cfg3.N,
    win3_0.index t (0 : Fin 2) = t.val ∧ win3_0.index t (1 : Fin 2) = 0
    ∧ win3_1.index t (0 : Fin 2) = t.val ∧ win3_1.index t (1 : Fin 2) = 0
    ∧ win3_2.index t (0 : Fin 2) = 0 ∧ win3_2.index t (1 : Fin 2) = 0
    ∧ win3_3.index t (0 : Fin 2) = t.val ∧ win3_3.index t (1 : Fin 2) = 0
    ∧ win3_4.index t (0 : Fin 2) = t.val ∧ win3_4.index t (1 : Fin 2) = 0 :=
  (by decide +kernel : ∀ t : Fin grid3.N, _)

theorem point_lt (t : Fin cfg3.N) : t.val < 20 := lt_of_lt_of_eq t.isLt N_3

/-- Row `p` of point `t`'s block is row `5000 t + p` of the array. -/
def rowAt (t : Fin cfg3.N) (p : Fin 5000) : Fin 100000 :=
  ⟨t.val * 5000 + p.val, by have := point_lt t; have := p.isLt; omega⟩

theorem emb_h (t : Fin cfg3.N) (p : Fin 5000) (q : Fin 128) :
    ((cfg3.win 0).blk t).view.emb (ix2 p q) = ix2 (rowAt t p) q := by
  obtain ⟨e00, e01, -, -, -, -, -, -, -, -⟩ := index_facts t
  funext a; apply Fin.ext
  match a with
  | ⟨0, _⟩ => show win3_0.index t (0 : Fin 2) * 5000 + 1 * p.val = t.val * 5000 + p.val; omega
  | ⟨1, _⟩ => show win3_0.index t (1 : Fin 2) * 128 + 1 * q.val = q.val; omega

theorem emb_a (t : Fin cfg3.N) (p : Fin 5000) (q : Fin 128) :
    ((cfg3.win 1).blk t).view.emb (ix2 p q) = ix2 (rowAt t p) q := by
  obtain ⟨-, -, e10, e11, -, -, -, -, -, -⟩ := index_facts t
  funext a; apply Fin.ext
  match a with
  | ⟨0, _⟩ => show win3_1.index t (0 : Fin 2) * 5000 + 1 * p.val = t.val * 5000 + p.val; omega
  | ⟨1, _⟩ => show win3_1.index t (1 : Fin 2) * 128 + 1 * q.val = q.val; omega

theorem emb_b (t : Fin cfg3.N) (u : Fin 1) (q : Fin 128) :
    ((cfg3.win 2).blk t).view.emb (ix2 u q) = ix2 (0 : Fin 1) q := by
  obtain ⟨-, -, -, -, e20, e21, -, -, -, -⟩ := index_facts t
  funext a; apply Fin.ext
  match a with
  | ⟨0, _⟩ => show win3_2.index t (0 : Fin 2) * 1 + 1 * u.val = 0; have := u.isLt; omega
  | ⟨1, _⟩ => show win3_2.index t (1 : Fin 2) * 128 + 1 * q.val = q.val; omega

theorem emb_d (t : Fin cfg3.N) (p : Fin 5000) (u : Fin 1) :
    ((cfg3.win 3).blk t).view.emb (ix2 p u) = ix2 (rowAt t p) (0 : Fin 1) := by
  obtain ⟨-, -, -, -, -, -, e30, e31, -, -⟩ := index_facts t
  funext a; apply Fin.ext
  match a with
  | ⟨0, _⟩ => show win3_3.index t (0 : Fin 2) * 5000 + 1 * p.val = t.val * 5000 + p.val; omega
  | ⟨1, _⟩ => show win3_3.index t (1 : Fin 2) * 1 + 1 * u.val = 0; have := u.isLt; omega

theorem emb_out (t : Fin cfg3.N) (p : Fin 5000) (j : Fin 256) :
    ((cfg3.win 4).blk t).view.emb (ix2 p j) = ix2 (rowAt t p) j := by
  obtain ⟨-, -, -, -, -, -, -, -, e40, e41⟩ := index_facts t
  funext a; apply Fin.ext
  match a with
  | ⟨0, _⟩ => show win3_4.index t (0 : Fin 2) * 5000 + 1 * p.val = t.val * 5000 + p.val; omega
  | ⟨1, _⟩ => show win3_4.index t (1 : Fin 2) * 256 + 1 * j.val = j.val; omega

/-- The block after the body, from the input blocks: its two stores tile it, and each store's payload is the two-halves
    function of the block's own index. -/
theorem block_eq (h a : Vec Ideal S5000x128 .f32) (b : Vec Ideal S1x128 .f32) (d : Vec Ideal S5000x1 .f32) :
    out3_4 (F := Ideal) h a b d = half (n := 5000) h a b d := by
  funext y
  unfold out3_4
  refine View.canon_apply_of_pieces (Val := Elt Ideal) (half (n := 5000) h a b d) _ ?_ y (cover3_4 _ _ y)
  intro pc hpc x
  rcases List.mem_cons.mp hpc with rfl | hpc
  · -- the right half: columns 128 + q
    obtain ⟨p, q, rfl⟩ : ∃ (p : Fin 5000) (q : Fin 128), x = ix2 p q := ⟨x 0, x 1, eq_ix2 x⟩
    show k3_pay2 (View.ld a r3_0) (View.ld d r3_2) (View.ld b r3_3) (ix2 p q) = half h a b d (r3_4.emb (ix2 p q))
    rw [View.ld_unit_zero (S := S5000x128) origin, View.ld_unit_zero (S := S5000x1) origin,
      View.ld_unit_zero (S := S1x128) origin, Payload.scaleBiasRelu2_apply,
      Cert.LibUnitRect.unit_emb2 (N0 := 5000) (N1 := 256) ![0, 128] S5000x128.size inb_S5000x256_S5000x128_0_128 (ix2 p q) p
        (⟨128 + q.val, by have := q.isLt; omega⟩ : Fin 256) (by show p.val = 0 + p.val; omega) (by show 128 + q.val = 128 + q.val; rfl)]
    exact (half_right h a b d p q _ rfl).symm
  · rcases List.mem_cons.mp hpc with rfl | hpc
    · -- the left half: columns q
      obtain ⟨p, q, rfl⟩ : ∃ (p : Fin 5000) (q : Fin 128), x = ix2 p q := ⟨x 0, x 1, eq_ix2 x⟩
      show k3_pay1 (View.ld h r3_0) (ix2 p q) = half h a b d (r3_1.emb (ix2 p q))
      rw [View.ld_unit_zero (S := S5000x128) origin, Payload.passThrough_apply,
        Cert.LibUnitRect.unit_emb2 (N0 := 5000) (N1 := 256) ![0, 0] S5000x128.size inb_S5000x256_S5000x128_0_0 (ix2 p q) p
          (⟨q.val, by have := q.isLt; omega⟩ : Fin 256) (by show p.val = 0 + p.val; omega) (by show q.val = 0 + q.val; omega)]
      exact (half_left h a b d p q _ rfl).symm
    · exact absurd hpc List.not_mem_nil

/-- Read through point `t`'s blocks, the two halves of the blocks at `(p, j)` are the two halves of the arrays at the
    block's place in the array — for ANY four arrays. -/
theorem block_read (H A : S100000x128.Idx → EReal) (B : S1x128.Idx → EReal) (D : S100000x1.Idx → EReal)
    (t : Fin cfg3.N) (p : Fin 5000) (j1 : Fin 256) :
    half (n := 5000) (fun y => H (((cfg3.win 0).blk t).view.emb y)) (fun y => A (((cfg3.win 1).blk t).view.emb y))
        (fun y => B (((cfg3.win 2).blk t).view.emb y)) (fun y => D (((cfg3.win 3).blk t).view.emb y)) (ix2 p j1)
      = half (n := 100000) H A B D (((cfg3.win 4).blk t).view.emb (ix2 p j1)) := by
  rw [emb_out]
  by_cases hlt : j1.val < 128
  · rw [half_left _ _ _ _ p ⟨j1.val, hlt⟩ j1 rfl, half_left _ _ _ _ (rowAt t p) ⟨j1.val, hlt⟩ j1 rfl]
    show H (((cfg3.win 0).blk t).view.emb (ix2 p ⟨j1.val, hlt⟩)) = _
    rw [emb_h]
  · have hq : j1.val - 128 < 128 := by have := j1.isLt; omega
    rw [half_right _ _ _ _ p ⟨j1.val - 128, hq⟩ j1 (by show j1.val = 128 + (j1.val - 128); omega),
      half_right _ _ _ _ (rowAt t p) ⟨j1.val - 128, hq⟩ j1 (by show j1.val = 128 + (j1.val - 128); omega)]
    show max (A (((cfg3.win 1).blk t).view.emb (ix2 p ⟨j1.val - 128, hq⟩))
        * D (((cfg3.win 3).blk t).view.emb (ix2 p (0 : Fin 1)))
        + B (((cfg3.win 2).blk t).view.emb (ix2 (0 : Fin 1) ⟨j1.val - 128, hq⟩))) 0 = _
    rw [emb_a, emb_d, emb_b]

/-- WHAT POINT `t` WRITES BACK is block `t` of the two halves of the arrays as the region finds them. -/
theorem flushed_eq (c : Dev nD) (t : Fin cfg3.N) :
    (dat3 V c).flushed 4 t = ((cfg3.win 4).blk t).view.read (Elt Ideal)
      (half (n := 100000) (V c main_v29) (V c main_v41) (V c main_v43) (V c main_v42)) := by
  show (cfg3.win 4).cut (grid3.coords t) ((dat3 V c).after 4 t) = _
  rw [after3_4, block_eq]
  funext j
  obtain ⟨p, j1, rfl⟩ : ∃ (p : Fin 5000) (j1 : Fin 256), j = ix2 p j1 := ⟨j 0, j 1, eq_ix2 j⟩
  exact block_read (V c main_v29) (V c main_v41) (V c main_v43) (V c main_v42) t p j1

/-- An index of the array is in point `t`'s block iff each coordinate is in the block's range on its axis. -/
theorem mem_blk (t : Fin cfg3.N) (i : S100000x256.Idx) :
    i ∈ ((cfg3.win 4).blk t).view.set ↔ ∀ a : Fin 2, win3_4.index t a * S5000x256.size a ≤ (i a).val
      ∧ (i a).val < win3_4.index t a * S5000x256.size a + S5000x256.size a := by
  show i ∈ ((View.whole main_v44).slice (win3_4.rect t)).set ↔ _
  rw [View.set_slice_whole, Rect.mem_set_unit]
  exact Iff.rfl

/-- Every row belongs to the block of the point numbered by its quotient by 5000. -/
theorem covered (i : S100000x256.Idx) :
    ∃ t : Fin cfg3.N, (cfg3.win 4).flush t = true ∧ i ∈ ((cfg3.win 4).blk t).view.set := by
  have hi0 : (i 0).val < 100000 := (i 0).isLt
  have hi1 : (i 1).val < 256 := (i 1).isLt
  let t : Fin cfg3.N := ⟨(i 0).val / 5000, lt_of_lt_of_eq (by omega : (i 0).val / 5000 < 20) N_3.symm⟩
  have ht : t.val = (i 0).val / 5000 := rfl
  obtain ⟨-, -, -, -, -, -, -, -, e40, e41⟩ := index_facts t
  refine ⟨t, flush3_4 t, ?_⟩
  rw [mem_blk]
  intro a
  match a with
  | ⟨0, _⟩ =>
    show win3_4.index t (0 : Fin 2) * 5000 ≤ (i 0).val ∧ (i 0).val < win3_4.index t (0 : Fin 2) * 5000 + 5000
    omega
  | ⟨1, _⟩ =>
    show win3_4.index t (1 : Fin 2) * 256 ≤ (i 1).val ∧ (i 1).val < win3_4.index t (1 : Fin 2) * 256 + 256
    omega

/-- THE ARRAY after the region: the two halves of the arrays as the region finds them. -/
theorem final (c : Dev nD) :
    (dat3 V c).arrAt 4 cfg3.N = half (n := 100000) (V c main_v29) (V c main_v41) (V c main_v43) (V c main_v42) :=
  (dat3 V c).arrAt_eq_of_cover 4 _ (fun t _ => flushed_eq V c t) covered

end Cert.KernelIdeal.Region3

end
-- ==== Proof.KernelStages.lean ====
/-
  The idealized kernel's result as one term of its arguments.

  @main alternates stretches of host operations with the four kernel regions. This module follows one device's
  buffers through the ten boundaries (the fold `W0 … W10` of the launch memory):

  * the edge lists with the self loops appended (source `v5`, target `v6`) and the per-node scale (`v14`, the guarded
    inverse square root of the in-degree) are computed before the first region and never written again, so every later
    stretch finds them as first computed — as functions of the edge array alone, the SAME composites the reference
    computes, whose names for them are used here;
  * the first region leaves the first product with its rows scaled; the stretch after it gathers that by source and
    scatter-adds it by target; the second region scales, adds the bias and rectifies: the hidden layer;
  * the third region and the stretch after it do the same to the hidden layer with the second weights;
  * the last region lays the hidden layer and the rectified second layer side by side in the result.
-/
import proofs.«167142_j42640435314985_2_alg».proof.Proof.Gen.KernelIdeal.Frame
import proofs.«167142_j42640435314985_2_alg».proof.Proof.RefReadPatched
import proofs.«167142_j42640435314985_2_alg».proof.Proof.Region0
import proofs.«167142_j42640435314985_2_alg».proof.Proof.Region1
import proofs.«167142_j42640435314985_2_alg».proof.Proof.Region2
import proofs.«167142_j42640435314985_2_alg».proof.Proof.Region3
import Idealize.ShloMosaic.Lib.StableHlo.Run

set_option maxRecDepth 16384

noncomputable section

namespace Cert.KernelIdeal.Stages

open Cert.KernelIdeal Cert.KernelIdeal.Gen Idealize.ShloMosaic Idealize.ShloMosaic.TcCoe Idealize.ShloMosaic.StableHlo
open Idealize.SL.Sem
open Cert.ReferenceIdeal.ReadP (val_main_v5 val_main_v6 val_main_v12 val_main_v13 val_main_v14 val_main_v36 val_main_v42)

/-- A buffer that none of a stretch's operations writes keeps its contents across the stretch. -/
macro "host_keeps " ops:ident : tactic =>
  `(tactic| exact StableHlo.after_of_forall_not_mem _ _ (List.forall_iff_forall_mem.mp (by
      simp only [$ops:ident, List.flatten_cons, List.flatten_nil, List.append_nil, List.cons_append,
        List.nil_append, List.Forall, StableHlo.nullary_writes, StableHlo.unary_writes, StableHlo.binary_writes,
        StableHlo.ternary_writes, StableHlo.quaternary_writes, StableHlo.reshape_writes, StableHlo.binaryIndexed_writes,
        Finset.mem_singleton]
      repeat' apply And.intro
      all_goals exact StableHlo.devRef_ne_of_ne (by decide))))

/-! ## The kernel's intermediate arrays, as terms of the arguments -/

/-- The per-node scale as a 100000 × 1 column. -/
def scaleColumn (e : S2x1600000.Idx → BitVec 32) : S100000x1.Idx → EReal :=
  shapeCast S100000x1 (val_main_v14 (F := Ideal) e) shapeCasts_S100000_S100000x1

/-- A bias vector as a 1 × 128 row. -/
def biasRow (b : S128.Idx → EReal) : S1x128.Idx → EReal := shapeCast S1x128 b shapeCasts_S128_S1x128

/-- One aggregation as the kernel writes it: the rows of `H` gathered by the edges' (normalised) source indices and
    scatter-added by their target indices into a zero array. -/
def aggregate (e : S2x1600000.Idx → BitVec 32) (H : S100000x128.Idx → EReal) : S100000x128.Idx → EReal :=
  Host.scatterAdd (F := Ideal) scatter_S100000x128_S1700000x1_S1700000x128_1_0_0_1
    (broadcastInDim S100000x128 ![] bcast_S_S100000x128 (constant (F := Ideal) S_ .f32 0x00000000#32))
    (val_main_v42 (F := Ideal) e)
    (Host.gather gather_S100000x128_S1700000x1_S1700000x128_1_0_n_n_0_1_1128 H (val_main_v36 (F := Ideal) e))

/-- The first product, rows scaled. -/
def lin1 (x : S100000x128.Idx → EReal) (e : S2x1600000.Idx → BitVec 32) (w1 : S128x128.Idx → EReal) : S100000x128.Idx → EReal :=
  Region0.scaledProduct x w1 (scaleColumn e)

/-- The hidden layer. -/
def hidden (x : S100000x128.Idx → EReal) (e : S2x1600000.Idx → BitVec 32) (w1 : S128x128.Idx → EReal) (b1 : S128.Idx → EReal) :
    S100000x128.Idx → EReal :=
  Region1.scaleBiasRelu (aggregate e (lin1 x e w1)) (biasRow b1) (scaleColumn e)

/-- The second product, rows scaled. -/
def lin2 (x : S100000x128.Idx → EReal) (e : S2x1600000.Idx → BitVec 32) (w1 : S128x128.Idx → EReal) (b1 : S128.Idx → EReal)
    (w2 : S128x128.Idx → EReal) : S100000x128.Idx → EReal :=
  Region2.scaledProduct (hidden x e w1 b1) w2 (scaleColumn e)

/-- The result: the hidden layer beside the rectified second layer. -/
def result (x : S100000x128.Idx → EReal) (e : S2x1600000.Idx → BitVec 32) (w1 : S128x128.Idx → EReal) (b1 : S128.Idx → EReal)
    (w2 : S128x128.Idx → EReal) (b2 : S128.Idx → EReal) : S100000x256.Idx → EReal :=
  Region3.half (n := 100000) (hidden x e w1 b1) (aggregate e (lin2 x e w1 b1 w2)) (biasRow b2) (scaleColumn e)

variable (m : (ℓ : Loc nD τ sig) → Buf (Elt Ideal) ℓ) (ρ : Dev nD → PrngReg) (c : Dev nD)

/-! ## Before the first region -/

theorem W3_arg0 : W3 m ρ c (Proc.devRef .tc main_arg0) = (m ((c : Thread nD τ).loc main_arg0)) := by
  show StableHlo.after hostOps0_2 (StableHlo.after hostOps0_1 (StableHlo.after hostOps0 (W0 m ρ c))) (Proc.devRef .tc main_arg0) = _
  after_results
theorem W3_arg2 : W3 m ρ c (Proc.devRef .tc main_arg2) = (m ((c : Thread nD τ).loc main_arg2)) := by
  show StableHlo.after hostOps0_2 (StableHlo.after hostOps0_1 (StableHlo.after hostOps0 (W0 m ρ c))) (Proc.devRef .tc main_arg2) = _
  after_results
theorem W3_arg3 : W3 m ρ c (Proc.devRef .tc main_arg3) = (m ((c : Thread nD τ).loc main_arg3)) := by
  show StableHlo.after hostOps0_2 (StableHlo.after hostOps0_1 (StableHlo.after hostOps0 (W0 m ρ c))) (Proc.devRef .tc main_arg3) = _
  after_results
theorem W3_arg4 : W3 m ρ c (Proc.devRef .tc main_arg4) = (m ((c : Thread nD τ).loc main_arg4)) := by
  show StableHlo.after hostOps0_2 (StableHlo.after hostOps0_1 (StableHlo.after hostOps0 (W0 m ρ c))) (Proc.devRef .tc main_arg4) = _
  after_results
theorem W3_arg5 : W3 m ρ c (Proc.devRef .tc main_arg5) = (m ((c : Thread nD τ).loc main_arg5)) := by
  show StableHlo.after hostOps0_2 (StableHlo.after hostOps0_1 (StableHlo.after hostOps0 (W0 m ρ c))) (Proc.devRef .tc main_arg5) = _
  after_results

/-! The first list of operations: the edge lists with the self loops, the in-degree, its test against zero and its
    inverse square root. -/

theorem W1_v5 : W1 m ρ c (Proc.devRef .tc main_v5) = val_main_v5 (F := Ideal) (m ((c : Thread nD τ).loc main_arg1)) := by
  show StableHlo.after hostOps0 (W0 m ρ c) (Proc.devRef .tc main_v5) = _
  after_results
  rfl
theorem W1_v6 : W1 m ρ c (Proc.devRef .tc main_v6) = val_main_v6 (F := Ideal) (m ((c : Thread nD τ).loc main_arg1)) := by
  show StableHlo.after hostOps0 (W0 m ρ c) (Proc.devRef .tc main_v6) = _
  after_results
  rfl
theorem W1_v12 : W1 m ρ c (Proc.devRef .tc main_v12) = val_main_v12 (F := Ideal) (m ((c : Thread nD τ).loc main_arg1)) := by
  show StableHlo.after hostOps0 (W0 m ρ c) (Proc.devRef .tc main_v12) = _
  after_results
  rfl
theorem W1_v13 : W1 m ρ c (Proc.devRef .tc main_v13) = val_main_v13 (F := Ideal) (m ((c : Thread nD τ).loc main_arg1)) := by
  show StableHlo.after hostOps0 (W0 m ρ c) (Proc.devRef .tc main_v13) = _
  after_results
  rfl
theorem W1_cst_2 : W1 m ρ c (Proc.devRef .tc main_cst_2) = constant (F := Ideal) S_ .f32 0x00000000#32 := by
  show StableHlo.after hostOps0 (W0 m ρ c) (Proc.devRef .tc main_cst_2) = _
  after_results

/-! The selection (a called function's three operations), then the reshape to a column. -/

theorem W2_v14 : W2 m ρ c (Proc.devRef .tc main_v14) = val_main_v14 (F := Ideal) (m ((c : Thread nD τ).loc main_arg1)) := by
  show StableHlo.after hostOps0_1 (W1 m ρ c) (Proc.devRef .tc main_v14) = _
  generalize hV : W1 m ρ c = Vv
  after_results
  simp only [TRef.toBuf, TRef.ofBuf, cast_eq]
  subst hV
  rw [W1_v12, W1_v13, W1_cst_2]
  rfl

theorem W3_v14 : W3 m ρ c (Proc.devRef .tc main_v14) = val_main_v14 (F := Ideal) (m ((c : Thread nD τ).loc main_arg1)) :=
  (show W3 m ρ c (Proc.devRef .tc main_v14) = W2 m ρ c (Proc.devRef .tc main_v14) by host_keeps hostOps0_2).trans (W2_v14 m ρ c)
theorem W3_v15 : W3 m ρ c (Proc.devRef .tc main_v15) = scaleColumn (m ((c : Thread nD τ).loc main_arg1)) := by
  show StableHlo.after hostOps0_2 (W2 m ρ c) (Proc.devRef .tc main_v15) = _
  generalize hV : W2 m ρ c = Vv
  after_results
  subst hV
  rw [W2_v14]
  rfl

theorem W3_v5 : W3 m ρ c (Proc.devRef .tc main_v5) = val_main_v5 (F := Ideal) (m ((c : Thread nD τ).loc main_arg1)) :=
  calc W3 m ρ c (Proc.devRef .tc main_v5)
    _ = W2 m ρ c (Proc.devRef .tc main_v5) := by host_keeps hostOps0_2
    _ = W1 m ρ c (Proc.devRef .tc main_v5) := by host_keeps hostOps0_1
    _ = val_main_v5 (F := Ideal) (m ((c : Thread nD τ).loc main_arg1)) := W1_v5 m ρ c
theorem W3_v6 : W3 m ρ c (Proc.devRef .tc main_v6) = val_main_v6 (F := Ideal) (m ((c : Thread nD τ).loc main_arg1)) :=
  calc W3 m ρ c (Proc.devRef .tc main_v6)
    _ = W2 m ρ c (Proc.devRef .tc main_v6) := by host_keeps hostOps0_2
    _ = W1 m ρ c (Proc.devRef .tc main_v6) := by host_keeps hostOps0_1
    _ = val_main_v6 (F := Ideal) (m ((c : Thread nD τ).loc main_arg1)) := W1_v6 m ρ c

/-! ## The first region and the stretch after it -/

theorem W4_v16 : W4 m ρ c (Proc.devRef .tc main_v16) = lin1 (m ((c : Thread nD τ).loc main_arg0)) (m ((c : Thread nD τ).loc main_arg1)) (m ((c : Thread nD τ).loc main_arg2)) :=
  (W4_arr m ρ c 3).trans ((Region0.final (V3 m ρ) c).trans (by
    show Region0.scaledProduct (W3 m ρ c (Proc.devRef .tc main_arg0)) (W3 m ρ c (Proc.devRef .tc main_arg2))
      (W3 m ρ c (Proc.devRef .tc main_v15)) = _
    rw [W3_arg0, W3_arg2, W3_v15]; rfl))

theorem W4_v5 : W4 m ρ c (Proc.devRef .tc main_v5) = val_main_v5 (F := Ideal) (m ((c : Thread nD τ).loc main_arg1)) :=
  calc W4 m ρ c (Proc.devRef .tc main_v5)
    _ = W3 m ρ c (Proc.devRef .tc main_v5) := W4_of_ne m ρ c main_v5 (by decide)
    _ = val_main_v5 (F := Ideal) (m ((c : Thread nD τ).loc main_arg1)) := W3_v5 m ρ c

theorem W4_v6 : W4 m ρ c (Proc.devRef .tc main_v6) = val_main_v6 (F := Ideal) (m ((c : Thread nD τ).loc main_arg1)) :=
  calc W4 m ρ c (Proc.devRef .tc main_v6)
    _ = W3 m ρ c (Proc.devRef .tc main_v6) := W4_of_ne m ρ c main_v6 (by decide)
    _ = val_main_v6 (F := Ideal) (m ((c : Thread nD τ).loc main_arg1)) := W3_v6 m ρ c

theorem W4_v14 : W4 m ρ c (Proc.devRef .tc main_v14) = val_main_v14 (F := Ideal) (m ((c : Thread nD τ).loc main_arg1)) :=
  calc W4 m ρ c (Proc.devRef .tc main_v14)
    _ = W3 m ρ c (Proc.devRef .tc main_v14) := W4_of_ne m ρ c main_v14 (by decide)
    _ = val_main_v14 (F := Ideal) (m ((c : Thread nD τ).loc main_arg1)) := W3_v14 m ρ c

theorem W4_arg3 : W4 m ρ c (Proc.devRef .tc main_arg3) = (m ((c : Thread nD τ).loc main_arg3)) :=
  calc W4 m ρ c (Proc.devRef .tc main_arg3)
    _ = W3 m ρ c (Proc.devRef .tc main_arg3) := W4_of_ne m ρ c main_arg3 (by decide)
    _ = (m ((c : Thread nD τ).loc main_arg3)) := W3_arg3 m ρ c

set_option maxHeartbeats 1600000 in
theorem W5_v26 : W5 m ρ c (Proc.devRef .tc main_v26) = aggregate (m ((c : Thread nD τ).loc main_arg1)) (lin1 (m ((c : Thread nD τ).loc main_arg0)) (m ((c : Thread nD τ).loc main_arg1)) (m ((c : Thread nD τ).loc main_arg2))) := by
  show StableHlo.after hostOps1 (W4 m ρ c) (Proc.devRef .tc main_v26) = _
  after_results
  rw [W4_v5, W4_v6, W4_v16]
  rfl
theorem W5_v27 : W5 m ρ c (Proc.devRef .tc main_v27) = scaleColumn (m ((c : Thread nD τ).loc main_arg1)) := by
  show StableHlo.after hostOps1 (W4 m ρ c) (Proc.devRef .tc main_v27) = _
  after_results
  rw [W4_v14]
  rfl
theorem W5_v28 : W5 m ρ c (Proc.devRef .tc main_v28) = biasRow (m ((c : Thread nD τ).loc main_arg3)) := by
  show StableHlo.after hostOps1 (W4 m ρ c) (Proc.devRef .tc main_v28) = _
  after_results
  rw [W4_arg3]
  rfl

/-! ## The second region and the stretch after it -/

theorem W6_v29 : W6 m ρ c (Proc.devRef .tc main_v29) = hidden (m ((c : Thread nD τ).loc main_arg0)) (m ((c : Thread nD τ).loc main_arg1)) (m ((c : Thread nD τ).loc main_arg2)) (m ((c : Thread nD τ).loc main_arg3)) :=
  (W6_arr m ρ c 3).trans ((Region1.final (V5 m ρ) c).trans (by
    show Region1.scaleBiasRelu (W5 m ρ c (Proc.devRef .tc main_v26)) (W5 m ρ c (Proc.devRef .tc main_v28))
      (W5 m ρ c (Proc.devRef .tc main_v27)) = _
    rw [W5_v26, W5_v28, W5_v27]; rfl))

theorem W6_v14 : W6 m ρ c (Proc.devRef .tc main_v14) = val_main_v14 (F := Ideal) (m ((c : Thread nD τ).loc main_arg1)) :=
  calc W6 m ρ c (Proc.devRef .tc main_v14)
    _ = W5 m ρ c (Proc.devRef .tc main_v14) := W6_of_ne m ρ c main_v14 (by decide)
    _ = W4 m ρ c (Proc.devRef .tc main_v14) := by host_keeps hostOps1
    _ = W3 m ρ c (Proc.devRef .tc main_v14) := W4_of_ne m ρ c main_v14 (by decide)
    _ = val_main_v14 (F := Ideal) (m ((c : Thread nD τ).loc main_arg1)) := W3_v14 m ρ c

theorem W6_arg4 : W6 m ρ c (Proc.devRef .tc main_arg4) = (m ((c : Thread nD τ).loc main_arg4)) :=
  calc W6 m ρ c (Proc.devRef .tc main_arg4)
    _ = W5 m ρ c (Proc.devRef .tc main_arg4) := W6_of_ne m ρ c main_arg4 (by decide)
    _ = W4 m ρ c (Proc.devRef .tc main_arg4) := by host_keeps hostOps1
    _ = W3 m ρ c (Proc.devRef .tc main_arg4) := W4_of_ne m ρ c main_arg4 (by decide)
    _ = (m ((c : Thread nD τ).loc main_arg4)) := W3_arg4 m ρ c

theorem W7_v29 : W7 m ρ c (Proc.devRef .tc main_v29) = hidden (m ((c : Thread nD τ).loc main_arg0)) (m ((c : Thread nD τ).loc main_arg1)) (m ((c : Thread nD τ).loc main_arg2)) (m ((c : Thread nD τ).loc main_arg3)) :=
  (show W7 m ρ c (Proc.devRef .tc main_v29) = W6 m ρ c (Proc.devRef .tc main_v29) by host_keeps hostOps2).trans (W6_v29 m ρ c)
theorem W7_arg4 : W7 m ρ c (Proc.devRef .tc main_arg4) = (m ((c : Thread nD τ).loc main_arg4)) :=
  (show W7 m ρ c (Proc.devRef .tc main_arg4) = W6 m ρ c (Proc.devRef .tc main_arg4) by host_keeps hostOps2).trans (W6_arg4 m ρ c)
theorem W7_v30 : W7 m ρ c (Proc.devRef .tc main_v30) = scaleColumn (m ((c : Thread nD τ).loc main_arg1)) := by
  show StableHlo.after hostOps2 (W6 m ρ c) (Proc.devRef .tc main_v30) = _
  after_results
  rw [W6_v14]
  rfl

/-! ## The third region and the stretch after it -/

theorem W8_v31 : W8 m ρ c (Proc.devRef .tc main_v31) = lin2 (m ((c : Thread nD τ).loc main_arg0)) (m ((c : Thread nD τ).loc main_arg1)) (m ((c : Thread nD τ).loc main_arg2)) (m ((c : Thread nD τ).loc main_arg3)) (m ((c : Thread nD τ).loc main_arg4)) :=
  (W8_arr m ρ c 3).trans ((Region2.final (V7 m ρ) c).trans (by
    show Region2.scaledProduct (W7 m ρ c (Proc.devRef .tc main_v29)) (W7 m ρ c (Proc.devRef .tc main_arg4))
      (W7 m ρ c (Proc.devRef .tc main_v30)) = _
    rw [W7_v29, W7_arg4, W7_v30]; rfl))

theorem W8_v5 : W8 m ρ c (Proc.devRef .tc main_v5) = val_main_v5 (F := Ideal) (m ((c : Thread nD τ).loc main_arg1)) :=
  calc W8 m ρ c (Proc.devRef .tc main_v5)
    _ = W7 m ρ c (Proc.devRef .tc main_v5) := W8_of_ne m ρ c main_v5 (by decide)
    _ = W6 m ρ c (Proc.devRef .tc main_v5) := by host_keeps hostOps2
    _ = W5 m ρ c (Proc.devRef .tc main_v5) := W6_of_ne m ρ c main_v5 (by decide)
    _ = W4 m ρ c (Proc.devRef .tc main_v5) := by host_keeps hostOps1
    _ = W3 m ρ c (Proc.devRef .tc main_v5) := W4_of_ne m ρ c main_v5 (by decide)
    _ = val_main_v5 (F := Ideal) (m ((c : Thread nD τ).loc main_arg1)) := W3_v5 m ρ c

theorem W8_v6 : W8 m ρ c (Proc.devRef .tc main_v6) = val_main_v6 (F := Ideal) (m ((c : Thread nD τ).loc main_arg1)) :=
  calc W8 m ρ c (Proc.devRef .tc main_v6)
    _ = W7 m ρ c (Proc.devRef .tc main_v6) := W8_of_ne m ρ c main_v6 (by decide)
    _ = W6 m ρ c (Proc.devRef .tc main_v6) := by host_keeps hostOps2
    _ = W5 m ρ c (Proc.devRef .tc main_v6) := W6_of_ne m ρ c main_v6 (by decide)
    _ = W4 m ρ c (Proc.devRef .tc main_v6) := by host_keeps hostOps1
    _ = W3 m ρ c (Proc.devRef .tc main_v6) := W4_of_ne m ρ c main_v6 (by decide)
    _ = val_main_v6 (F := Ideal) (m ((c : Thread nD τ).loc main_arg1)) := W3_v6 m ρ c

theorem W8_v14 : W8 m ρ c (Proc.devRef .tc main_v14) = val_main_v14 (F := Ideal) (m ((c : Thread nD τ).loc main_arg1)) :=
  calc W8 m ρ c (Proc.devRef .tc main_v14)
    _ = W7 m ρ c (Proc.devRef .tc main_v14) := W8_of_ne m ρ c main_v14 (by decide)
    _ = W6 m ρ c (Proc.devRef .tc main_v14) := by host_keeps hostOps2
    _ = W5 m ρ c (Proc.devRef .tc main_v14) := W6_of_ne m ρ c main_v14 (by decide)
    _ = W4 m ρ c (Proc.devRef .tc main_v14) := by host_keeps hostOps1
    _ = W3 m ρ c (Proc.devRef .tc main_v14) := W4_of_ne m ρ c main_v14 (by decide)
    _ = val_main_v14 (F := Ideal) (m ((c : Thread nD τ).loc main_arg1)) := W3_v14 m ρ c

theorem W8_arg5 : W8 m ρ c (Proc.devRef .tc main_arg5) = (m ((c : Thread nD τ).loc main_arg5)) :=
  calc W8 m ρ c (Proc.devRef .tc main_arg5)
    _ = W7 m ρ c (Proc.devRef .tc main_arg5) := W8_of_ne m ρ c main_arg5 (by decide)
    _ = W6 m ρ c (Proc.devRef .tc main_arg5) := by host_keeps hostOps2
    _ = W5 m ρ c (Proc.devRef .tc main_arg5) := W6_of_ne m ρ c main_arg5 (by decide)
    _ = W4 m ρ c (Proc.devRef .tc main_arg5) := by host_keeps hostOps1
    _ = W3 m ρ c (Proc.devRef .tc main_arg5) := W4_of_ne m ρ c main_arg5 (by decide)
    _ = (m ((c : Thread nD τ).loc main_arg5)) := W3_arg5 m ρ c

theorem W8_v29 : W8 m ρ c (Proc.devRef .tc main_v29) = hidden (m ((c : Thread nD τ).loc main_arg0)) (m ((c : Thread nD τ).loc main_arg1)) (m ((c : Thread nD τ).loc main_arg2)) (m ((c : Thread nD τ).loc main_arg3)) :=
  calc W8 m ρ c (Proc.devRef .tc main_v29)
    _ = W7 m ρ c (Proc.devRef .tc main_v29) := (W8_arr m ρ c 0).trans (((dat2 (V7 m ρ) c).arrAt_in 0 rfl _).trans (A_eq2 (V7 m ρ) c 0))
    _ = hidden (m ((c : Thread nD τ).loc main_arg0)) (m ((c : Thread nD τ).loc main_arg1)) (m ((c : Thread nD τ).loc main_arg2)) (m ((c : Thread nD τ).loc main_arg3)) := W7_v29 m ρ c

theorem W9_v29 : W9 m ρ c (Proc.devRef .tc main_v29) = hidden (m ((c : Thread nD τ).loc main_arg0)) (m ((c : Thread nD τ).loc main_arg1)) (m ((c : Thread nD τ).loc main_arg2)) (m ((c : Thread nD τ).loc main_arg3)) :=
  (show W9 m ρ c (Proc.devRef .tc main_v29) = W8 m ρ c (Proc.devRef .tc main_v29) by host_keeps hostOps3).trans (W8_v29 m ρ c)
set_option maxHeartbeats 1600000 in
theorem W9_v41 : W9 m ρ c (Proc.devRef .tc main_v41)
    = aggregate (m ((c : Thread nD τ).loc main_arg1)) (lin2 (m ((c : Thread nD τ).loc main_arg0)) (m ((c : Thread nD τ).loc main_arg1)) (m ((c : Thread nD τ).loc main_arg2)) (m ((c : Thread nD τ).loc main_arg3)) (m ((c : Thread nD τ).loc main_arg4))) := by
  show StableHlo.after hostOps3 (W8 m ρ c) (Proc.devRef .tc main_v41) = _
  after_results
  rw [W8_v5, W8_v6, W8_v31]
  rfl
theorem W9_v42 : W9 m ρ c (Proc.devRef .tc main_v42) = scaleColumn (m ((c : Thread nD τ).loc main_arg1)) := by
  show StableHlo.after hostOps3 (W8 m ρ c) (Proc.devRef .tc main_v42) = _
  after_results
  rw [W8_v14]
  rfl
theorem W9_v43 : W9 m ρ c (Proc.devRef .tc main_v43) = biasRow (m ((c : Thread nD τ).loc main_arg5)) := by
  show StableHlo.after hostOps3 (W8 m ρ c) (Proc.devRef .tc main_v43) = _
  after_results
  rw [W8_arg5]
  rfl

/-! ## The last region: the result -/

/-- THE RESULT BUFFER at the last boundary is the kernel's term of the arguments. -/
theorem W10_v44 : W10 m ρ c (Proc.devRef .tc main_v44)
    = result (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) :=
  (W10_arr m ρ c 4).trans ((Region3.final (V9 m ρ) c).trans (by
    show Region3.half (n := 100000) (W9 m ρ c (Proc.devRef .tc main_v29)) (W9 m ρ c (Proc.devRef .tc main_v41))
      (W9 m ρ c (Proc.devRef .tc main_v43)) (W9 m ρ c (Proc.devRef .tc main_v42)) = _
    rw [W9_v29, W9_v41, W9_v43, W9_v42]; rfl))

end Cert.KernelIdeal.Stages

end
-- ==== Proof.LibScatterAdd.lean ====
/-
  The host's accumulating float scatter, for row scatters, read at an index on the extended reals.

  A ROW SCATTER has scatter indices of shape [N, 1] holding one row number each; that number names the
  operand's axis 0, which is inserted; the update's remaining axes (none, or one axis of C columns) go to the
  operand's remaining axes. Update row j then lands on operand row (I j), the index read signed, column for
  column, and is dropped when that row is outside the operand. On the extended reals the scatter-add is the
  operand plus the exact sum of the updates landing on each element, so

    result (r)    = Z (r)    + the sum over the update rows j with I j = r of U (j)        (no columns)
    result (r, c) = Z (r, c) + the sum over the update rows j with I j = r of U (j, c)     (C columns)

  for any sizes R (operand rows), N (update rows), C (columns) and any index width. The lemmas are stated for
  the dimension numbers as a record built from any proof of their well-formedness (`dims1 wf`, `dims2 wf`); a
  program's own record of the same four lists is that record, so they apply to it by unification.
-/
import Idealize.ShloMosaic.Lib.ValueIdx
import Idealize.ShloMosaic.Lib.IdealHost
import Idealize.ShloMosaic.Lib.Pipeline.Value
import Idealize.ShloMosaic.PureOps.Contract

noncomputable section

open scoped BigOperators

namespace Cert.ScatterRows

open Idealize.ShloMosaic Idealize.ShloMosaic.ValueIdx

theorem coord_val_congr {s : Shape} (j : s.Idx) {a b : Fin s.rank} (h : a = b) : (j a).val = (j b).val := by
  subst h; rfl

section rank1
variable {R N w : Nat}

/-- The 1-D scatter's dimension numbers, over any sizes. -/
abbrev dims1 (wf : ScatterDims.WF ⟨1, ![R]⟩ ⟨2, ![N, 1]⟩ ⟨1, ![N]⟩ [] [0] [0] 1) :
    ScatterDims ⟨1, ![R]⟩ ⟨2, ![N, 1]⟩ ⟨1, ![N]⟩ := ⟨[], [0], [0], 1, wf⟩

theorem start1 (wf) (a : Fin N) (I : IVec ⟨2, ![N, 1]⟩ w) :
    (dims1 (R := R) wf).start (ix1 a) I 0 = (I (ix2 a 0)).toInt := by
  unfold ScatterDims.start
  rw [dif_pos (List.mem_singleton.2 rfl)]
  congr 2
  funext b
  match b with
  | ⟨0, _⟩ =>
    apply Fin.ext
    simp only [ScatterDims.siIdx, ScatterDims.siCoord]
    rw [dif_neg (by decide)]
    simp only [Fin.coe_cast]
    exact coord_val_congr (ix1 a) rfl
  | ⟨1, _⟩ =>
    apply Fin.ext
    simp [ScatterDims.siIdx]

theorem window1 (wf) (j : (⟨1, ![N]⟩ : Shape).Idx) :
    (dims1 (R := R) wf).window j 0 = 0 := by
  unfold ScatterDims.window
  rw [dif_neg (by simp [Shape.kept])]

theorem resultIdx1 (wf) (a : Fin N) (I : IVec ⟨2, ![N, 1]⟩ w) (r : Fin R) :
    (dims1 (R := R) wf).resultIdx? (ix1 a) I = some (ix1 r) ↔ (I (ix2 a 0)).toInt = (r.val : ℤ) := by
  unfold ScatterDims.resultIdx?
  constructor
  · intro h
    split at h
    · rename_i hh
      have h0 := congrFun (Option.some.inj h) 0
      have h1 := congrArg Fin.val h0
      have h2 := hh 0
      rw [start1, window1] at h2
      change ((dims1 (R := R) wf).start (ix1 a) I 0 + ((dims1 (R := R) wf).window (ix1 a) 0 : ℤ)).toNat = r.val at h1
      rw [start1, window1] at h1
      omega
    · exact absurd h (by simp)
  · intro h
    have hh : ∀ b, 0 ≤ (dims1 (R := R) wf).start (ix1 a) I b + ((dims1 (R := R) wf).window (ix1 a) b : ℤ)
        ∧ (dims1 (R := R) wf).start (ix1 a) I b + ((dims1 (R := R) wf).window (ix1 a) b : ℤ)
          < ((⟨1, ![R]⟩ : Shape).size b : ℤ) := by
      intro b
      match b with
      | ⟨0, _⟩ =>
        have := r.isLt
        change _ ∧ (dims1 (R := R) wf).start (ix1 a) I 0 + ((dims1 (R := R) wf).window (ix1 a) 0 : ℤ) < (R : ℤ)
        change 0 ≤ (dims1 (R := R) wf).start (ix1 a) I 0 + ((dims1 (R := R) wf).window (ix1 a) 0 : ℤ) ∧ _
        rw [start1, window1, h]
        omega
    rw [dif_pos hh]
    congr 1
    funext b
    match b with
    | ⟨0, _⟩ =>
      apply Fin.ext
      change ((dims1 (R := R) wf).start (ix1 a) I 0 + ((dims1 (R := R) wf).window (ix1 a) 0 : ℤ)).toNat = r.val
      rw [start1, window1, h]
      omega

end rank1

section rank1sum
variable {R N w : Nat}

/-- A rank-1 index set is its one coordinate range … -/
def idxEquiv1 {n : Nat} : (⟨1, ![n]⟩ : Shape).Idx ≃ Fin n where
  toFun i := i 0
  invFun a := ix1 a
  left_inv i := (eq_ix1 i).symm
  right_inv _ := rfl

/-- … so a sum over it is the sum over the coordinate. -/
theorem sum_idx1 {M : Type*} [AddCommMonoid M] {n : Nat} (f : (⟨1, ![n]⟩ : Shape).Idx → M) :
    ∑ i, f i = ∑ a : Fin n, f (ix1 a) := by
  rw [← Equiv.sum_comp (idxEquiv1 (n := n)).symm f]
  rfl

theorem scatterAdd1_apply (wf) (Z : (⟨1, ![R]⟩ : Shape).Idx → EReal) (I : IVec ⟨2, ![N, 1]⟩ w)
    (U : (⟨1, ![N]⟩ : Shape).Idx → EReal) (r : Fin R) :
    Ideal.hostScatterAdd (dims1 (R := R) wf) Z I U (ix1 r)
      = Z (ix1 r) + ∑ a : Fin N, if (I (ix2 a 0)).toInt = (r.val : ℤ) then U (ix1 a) else 0 := by
  unfold Ideal.hostScatterAdd
  rw [Finset.sum_filter, sum_idx1]
  congr 1
  apply Finset.sum_congr rfl
  intro a _
  exact if_congr (resultIdx1 wf a I r) rfl rfl

end rank1sum

section rank2
variable {R N C w : Nat}

/-- The row scatter's dimension numbers, over any sizes: the update's rows go to the operand's rows
    the indices name, its columns to the same columns. -/
abbrev dims2 (wf : ScatterDims.WF ⟨2, ![R, C]⟩ ⟨2, ![N, 1]⟩ ⟨2, ![N, C]⟩ [1] [0] [0] 1) :
    ScatterDims ⟨2, ![R, C]⟩ ⟨2, ![N, 1]⟩ ⟨2, ![N, C]⟩ := ⟨[1], [0], [0], 1, wf⟩

theorem start2_0 (wf) (a : Fin N) (c : Fin C) (I : IVec ⟨2, ![N, 1]⟩ w) :
    (dims2 (R := R) wf).start (ix2 a c) I 0 = (I (ix2 a 0)).toInt := by
  unfold ScatterDims.start
  rw [dif_pos (List.mem_singleton.2 rfl)]
  congr 2
  funext b
  match b with
  | ⟨0, _⟩ =>
    apply Fin.ext
    simp only [ScatterDims.siIdx, ScatterDims.siCoord]
    rw [dif_neg (by decide)]
    simp only [Fin.coe_cast]
    exact coord_val_congr (ix2 a c) rfl
  | ⟨1, _⟩ =>
    apply Fin.ext
    simp [ScatterDims.siIdx]

theorem start2_1 (wf) (j : (⟨2, ![N, C]⟩ : Shape).Idx) (I : IVec ⟨2, ![N, 1]⟩ w) :
    (dims2 (R := R) wf).start j I 1 = 0 := by
  unfold ScatterDims.start
  rw [dif_neg (by simp)]

theorem window2_0 (wf) (j : (⟨2, ![N, C]⟩ : Shape).Idx) :
    (dims2 (R := R) wf).window j 0 = 0 := by
  unfold ScatterDims.window
  rw [dif_neg (by simp [Shape.kept])]

theorem window2_1 (wf) (a : Fin N) (c : Fin C) :
    (dims2 (R := R) wf).window (ix2 a c) 1 = c.val := by
  unfold ScatterDims.window
  rw [dif_pos (by simp [Shape.kept])]
  exact coord_val_congr (ix2 a c) rfl

end rank2

section rank2sum
variable {R N C w : Nat}

theorem resultIdx2 (wf) (a : Fin N) (c : Fin C) (I : IVec ⟨2, ![N, 1]⟩ w) (r : Fin R) (c' : Fin C) :
    (dims2 (R := R) wf).resultIdx? (ix2 a c) I = some (ix2 r c')
      ↔ (I (ix2 a 0)).toInt = (r.val : ℤ) ∧ c = c' := by
  unfold ScatterDims.resultIdx?
  constructor
  · intro h
    split at h
    · rename_i hh
      have e := Option.some.inj h
      have h0 := congrArg Fin.val (congrFun e 0)
      have h1 := congrArg Fin.val (congrFun e 1)
      have g0 := hh 0
      rw [start2_0, window2_0] at g0
      change ((dims2 (R := R) wf).start (ix2 a c) I 0 + ((dims2 (R := R) wf).window (ix2 a c) 0 : ℤ)).toNat = r.val at h0
      change ((dims2 (R := R) wf).start (ix2 a c) I 1 + ((dims2 (R := R) wf).window (ix2 a c) 1 : ℤ)).toNat = c'.val at h1
      rw [start2_0, window2_0] at h0
      rw [start2_1, window2_1] at h1
      refine ⟨by omega, Fin.ext (by omega)⟩
    · exact absurd h (by simp)
  · rintro ⟨h, rfl⟩
    have hh : ∀ b, 0 ≤ (dims2 (R := R) wf).start (ix2 a c) I b + ((dims2 (R := R) wf).window (ix2 a c) b : ℤ)
        ∧ (dims2 (R := R) wf).start (ix2 a c) I b + ((dims2 (R := R) wf).window (ix2 a c) b : ℤ)
          < ((⟨2, ![R, C]⟩ : Shape).size b : ℤ) := by
      intro b
      match b with
      | ⟨0, _⟩ =>
        have := r.isLt
        change _ ∧ (dims2 (R := R) wf).start (ix2 a c) I 0 + ((dims2 (R := R) wf).window (ix2 a c) 0 : ℤ) < (R : ℤ)
        change 0 ≤ (dims2 (R := R) wf).start (ix2 a c) I 0 + ((dims2 (R := R) wf).window (ix2 a c) 0 : ℤ) ∧ _
        rw [start2_0, window2_0, h]
        omega
      | ⟨1, _⟩ =>
        have := c.isLt
        change _ ∧ (dims2 (R := R) wf).start (ix2 a c) I 1 + ((dims2 (R := R) wf).window (ix2 a c) 1 : ℤ) < (C : ℤ)
        change 0 ≤ (dims2 (R := R) wf).start (ix2 a c) I 1 + ((dims2 (R := R) wf).window (ix2 a c) 1 : ℤ) ∧ _
        rw [start2_1, window2_1]
        omega
    rw [dif_pos hh]
    congr 1
    funext b
    match b with
    | ⟨0, _⟩ =>
      apply Fin.ext
      change ((dims2 (R := R) wf).start (ix2 a c) I 0 + ((dims2 (R := R) wf).window (ix2 a c) 0 : ℤ)).toNat = r.val
      rw [start2_0, window2_0, h]
      omega
    | ⟨1, _⟩ =>
      apply Fin.ext
      change ((dims2 (R := R) wf).start (ix2 a c) I 1 + ((dims2 (R := R) wf).window (ix2 a c) 1 : ℤ)).toNat = c.val
      rw [start2_1, window2_1]
      omega

/-- Of a row of terms, the ones at one column under a condition that does not depend on the column. -/
theorem sum_and_eq (p : Prop) [Decidable p] (c : Fin C) (f : Fin C → EReal) :
    ∑ c' : Fin C, (if p ∧ c' = c then f c' else 0) = if p then f c else 0 := by
  by_cases hp : p
  · simp [hp]
  · simp [hp]

theorem scatterAdd2_apply (wf) (Z : (⟨2, ![R, C]⟩ : Shape).Idx → EReal) (I : IVec ⟨2, ![N, 1]⟩ w)
    (U : (⟨2, ![N, C]⟩ : Shape).Idx → EReal) (r : Fin R) (c : Fin C) :
    Ideal.hostScatterAdd (dims2 (R := R) wf) Z I U (ix2 r c)
      = Z (ix2 r c) + ∑ a : Fin N, if (I (ix2 a 0)).toInt = (r.val : ℤ) then U (ix2 a c) else 0 := by
  unfold Ideal.hostScatterAdd
  rw [Finset.sum_filter, sum_idx2]
  congr 1
  apply Finset.sum_congr rfl
  intro a _
  rw [← sum_and_eq ((I (ix2 a 0)).toInt = (r.val : ℤ)) c (fun c' => U (ix2 a c'))]
  apply Finset.sum_congr rfl
  intro c' _
  exact if_congr (resultIdx2 wf a c' I r c) rfl rfl

end rank2sum

end Cert.ScatterRows

end
-- ==== Proof.LibGatherRows.lean ====
/-
  The host's gather, for row gathers, read at an index.

  A ROW GATHER has start indices of shape [E, 1] holding one row number each; that number names the operand's
  axis 0, which is collapsed; the operand's remaining axes (none, or one axis of C columns) are taken whole. Result
  row a is then the operand's row (rowOf G a): the start index G (a, 0) read signed and clamped into [0, N - 1], as
  the gather clamps every start index so that the slice fits. So

    result (a)    = operand (rowOf G a)         (no columns)
    result (a, c) = operand (rowOf G a, c)      (C columns)

  for any sizes N (operand rows, positive), E (result rows), C (columns) and any index width. The lemmas are stated
  for the dimension numbers as a record built from any proof of their well-formedness (`dims1 wf`, `dims2 wf`); a
  program's own record of the same lists is that record, so they apply to it by unification.
-/
import Idealize.ShloMosaic.Lib.ValueIdx

noncomputable section

namespace Cert.GatherRows

open Idealize.ShloMosaic Idealize.ShloMosaic.ValueIdx

variable {α : Type} {N E C w : Nat}

/-- The operand row a start index names: read signed, clamped into [0, N - 1]. -/
def rowOf (hN : 0 < N) (G : IVec ⟨2, ![E, 1]⟩ w) (a : Fin E) : Fin N :=
  ⟨min (G (ix2 a 0)).toInt.toNat (N - 1), by omega⟩

/-- A start index that reads as a row number in range names that row. -/
theorem rowOf_eq (hN : 0 < N) (G : IVec ⟨2, ![E, 1]⟩ w) (a : Fin E) (r : Fin N) (h : (G (ix2 a 0)).toInt = (r.val : ℤ)) :
    rowOf hN G a = r := by
  apply Fin.ext
  have := r.isLt
  show min (G (ix2 a 0)).toInt.toNat (N - 1) = r.val
  rw [h]
  simp only [Int.toNat_natCast]
  omega

/-- The 1-D gather's dimension numbers, over any sizes. -/
abbrev dims1 (wf : GatherDims.WF ⟨1, ![N]⟩ ⟨2, ![E, 1]⟩ ⟨1, ![E]⟩ [] [0] [] [0] [] 1 ![1]) :
    GatherDims ⟨1, ![N]⟩ ⟨2, ![E, 1]⟩ ⟨1, ![E]⟩ := ⟨[], [0], [], [], [0], 1, ![1], wf⟩

/-- The row gather's dimension numbers, over any sizes. -/
abbrev dims2 (wf : GatherDims.WF ⟨2, ![N, C]⟩ ⟨2, ![E, 1]⟩ ⟨2, ![E, C]⟩ [1] [0] [] [0] [] 1 ![1, C]) :
    GatherDims ⟨2, ![N, C]⟩ ⟨2, ![E, 1]⟩ ⟨2, ![E, C]⟩ := ⟨[1], [0], [], [], [0], 1, ![1, C], wf⟩

/-- THE 1-D GATHER READ AT a: the operand at the row the start index names. -/
theorem gather1_apply (hN : 0 < N) (wf) (x : (⟨1, ![N]⟩ : Shape).Idx → α) (G : IVec ⟨2, ![E, 1]⟩ w) (a : Fin E) :
    Host.gather (dims1 (N := N) (E := E) wf) x G (ix1 a) = x (ix1 (rowOf hN G a)) := by
  unfold Host.gather
  congr 1
  funext b
  obtain rfl : b = 0 := Subsingleton.elim _ _
  refine Fin.ext ?_
  show (dims1 (N := N) (E := E) wf).start (ix1 a) G 0 + (dims1 (N := N) (E := E) wf).batchCoord (ix1 a) 0
      + (dims1 (N := N) (E := E) wf).offCoord (ix1 a) 0 = _
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 1) ∈ (dims1 (N := N) (E := E) wf).startIndexMap from List.mem_singleton.mpr rfl)]
  have hsi : (dims1 (N := N) (E := E) wf).siIdx (ix1 a) ⟨List.idxOf (0 : Fin 1) (dims1 (N := N) (E := E) wf).startIndexMap,
      List.idxOf_lt_length_iff.2 (List.mem_singleton.mpr rfl)⟩ = ix2 a 0 := by
    funext c; refine Fin.ext ?_
    match c with
    | ⟨0, _⟩ => rfl
    | ⟨1, _⟩ => rfl
  rw [hsi]
  rfl

/-- THE ROW GATHER READ AT (a, c): the operand at the row the start index names, same column. -/
theorem gather2_apply (hN : 0 < N) (wf) (x : (⟨2, ![N, C]⟩ : Shape).Idx → α) (G : IVec ⟨2, ![E, 1]⟩ w) (a : Fin E) (c : Fin C) :
    Host.gather (dims2 (N := N) (E := E) (C := C) wf) x G (ix2 a c) = x (ix2 (rowOf hN G a) c) := by
  unfold Host.gather
  congr 1
  funext b
  refine Fin.ext ?_
  match b with
  | ⟨0, _⟩ =>
    -- the collapsed row axis: the clamped start index, no batching coordinate, no offset
    show (dims2 (N := N) (E := E) (C := C) wf).start (ix2 a c) G 0
        + (dims2 (N := N) (E := E) (C := C) wf).batchCoord (ix2 a c) 0
        + (dims2 (N := N) (E := E) (C := C) wf).offCoord (ix2 a c) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (dims2 (N := N) (E := E) (C := C) wf).startIndexMap from List.mem_singleton.mpr rfl)]
    have hsi : (dims2 (N := N) (E := E) (C := C) wf).siIdx (ix2 a c)
        ⟨List.idxOf (0 : Fin 2) (dims2 (N := N) (E := E) (C := C) wf).startIndexMap,
          List.idxOf_lt_length_iff.2 (List.mem_singleton.mpr rfl)⟩ = ix2 a 0 := by
      funext e; refine Fin.ext ?_
      match e with
      | ⟨0, _⟩ => rfl
      | ⟨1, _⟩ => rfl
    rw [hsi]
    rfl
  | ⟨1, _⟩ =>
    -- the column axis, taken whole: start 0, no batching coordinate, the result's column as offset
    show (dims2 (N := N) (E := E) (C := C) wf).start (ix2 a c) G 1
        + (dims2 (N := N) (E := E) (C := C) wf).batchCoord (ix2 a c) 1
        + (dims2 (N := N) (E := E) (C := C) wf).offCoord (ix2 a c) 1 = c.val
    rw [GatherDims.batchCoord_eq_zero _ _ _ List.not_mem_nil]
    have hst : (dims2 (N := N) (E := E) (C := C) wf).start (ix2 a c) G 1 = 0 := by
      unfold GatherDims.start
      rw [dif_neg (by simp)]
    have hk : (1 : Fin 2) ∈ (dims2 (N := N) (E := E) (C := C) wf).sKept :=
      (GatherDims.mem_sKept _ _).mpr ⟨by simp, List.not_mem_nil⟩
    have hoff : (dims2 (N := N) (E := E) (C := C) wf).offCoord (ix2 a c) 1 = c.val := by
      unfold GatherDims.offCoord
      rw [dif_pos hk]
      rfl
    rw [hst, hoff]
    simp

end Cert.GatherRows

end
-- ==== Proof.LibIndexWrap.lean ====
/-
  Integer index arrays: what a signed "non-negative" test says at an index, and that the normalisation of a
  negative index leaves a non-negative index as it is.

  An index array v is normalised as  where (v < 0) (v + n) v  (n the extent of the axis indexed), so that -1
  names the last position. Where the index is already non-negative the normalised index is the index itself;
  a program that normalises and one that does not then read, and write, the same positions. The facts are
  stated at one index of arrays of any shape and width: the comparand only has to be the zero word THERE,
  which a broadcast zero is everywhere.
-/
import Idealize.ShloMosaic.Lib.ValueIdx
import Idealize.ShloMosaic.Lib.Affine

namespace Cert.IndexWrap

open Idealize.ShloMosaic

variable {s : Shape} {w : Nat}

/-- The signed test  v ≥ z  holding at an index where z is the zero word says the index there, read signed,
    is non-negative. -/
theorem nonneg_of_sge (v z : IVec s w) (i : s.Idx) (hz : z i = 0#w) (h : cmpi .sge v z i = 1#1) :
    0 ≤ (v i).toInt := by
  have h' : (z i).toInt ≤ (v i).toInt := IntOp.cmpi_sge.1 h
  rw [hz, BitVec.toInt_zero] at h'
  exact h'

/-- The signed test  v < z  at an index where z is the zero word and v is non-negative is the word 0. -/
theorem slt_eq_zero_of_nonneg (v z : IVec s w) (i : s.Idx) (hz : z i = 0#w) (hv : 0 ≤ (v i).toInt) :
    cmpi .slt v z i = 0#1 := by
  rcases BitVec.eq_zero_or_eq_one (cmpi .slt v z i) with h0 | h1
  · exact h0
  · have h' : (v i).toInt < (z i).toInt := IntOp.cmpi_slt.1 h1
    rw [hz, BitVec.toInt_zero] at h'
    omega

/-- THE NORMALISATION OF A NON-NEGATIVE INDEX IS THE INDEX:  where (v < 0) (v + n) v  at an index where v,
    read signed, is non-negative, is v there — whatever n is. -/
theorem wrap_of_nonneg (v z n : IVec s w) (i : s.Idx) (hz : z i = 0#w) (hv : 0 ≤ (v i).toInt) :
    select (cmpi .slt v z) (addi v n) v i = v i := by
  show Scalar.select (cmpi .slt v z i) (addi v n i) (v i) = v i
  rw [slt_eq_zero_of_nonneg v z i hz hv]
  exact if_neg (by decide)

/-- The same for the whole array, when the comparand is zero and the index non-negative everywhere. -/
theorem wrap_eq_self (v z n : IVec s w) (hz : ∀ i, z i = 0#w) (hv : ∀ i, 0 ≤ (v i).toInt) :
    select (cmpi .slt v z) (addi v n) v = v :=
  funext fun i => wrap_of_nonneg v z n i (hz i) (hv i)

end Cert.IndexWrap
-- ==== Proof.LibHostRead.lean ====
/-
  Host operations of an array program read at an index of literal coordinates, on the extended reals.

  A reference written with array operations spreads a row statistic over the row, views a flat axis as two, cuts one
  plane out of a stack, and sums along the last axis. Each operation, applied at an index built from its coordinates,
  reads its operand at ONE index; the lemmas below name that index.

  * broadcasts: `[a,b] → [a,b,1]`, `[a,b,1] → [a,b,c]`, `[b,c] → [1,b,c]`, `[1,b,c] → [a,b,c]`, `[a] → [a,1]`,
    `[a,1] → [a,c]`, `[c] → [1,c]`, `[1,c] → [a,c]`;
  * reshapes: `[a,n] → [a,b,c]` and `[n] → [b,c]` with `n = b·c` (position `g·c + k` of the flat axis), and
    `[a,1,c] → [a,c]`;
  * a unit-thick slice `[a,b,c] → [a,1,c]` at offset `g` of the middle axis;
  * the sum along the last axis of a rank-3 and of a rank-2 array: the initial value plus `∑ k`;
  * a product of two matrices contracting ONE axis of extent `n`: `∑ k : Fin n` of the operands at index families
    the caller names once.
-/
import Idealize.ShloMosaic.PureOps.Ideal
import Idealize.ShloMosaic.PureOps.Ideal.Laws
import Idealize.ShloMosaic.Lib.ValueIdx
import Idealize.ShloMosaic.Lib.IdealHost
import Idealize.ShloMosaic.Lib.Pipeline.Value

noncomputable section

open scoped BigOperators

namespace Cert.HostRead

open Idealize.ShloMosaic Idealize.ShloMosaic.ValueIdx

variable {α : Type}

/-! ## Broadcasts -/

/-- `[a,b] → [a,b,1]`: at `(r, g, u)` the operand at `(r, g)`. -/
theorem bcast_ab_ab1_apply {a b : ℕ} (x : (⟨2, ![a, b]⟩ : Shape).Idx → α)
    (h : (⟨2, ![a, b]⟩ : Shape).BroadcastsInDim ⟨3, ![a, b, 1]⟩ (![0, 1] : Fin 2 → Fin (⟨3, ![a, b, 1]⟩ : Shape).rank))
    (r : Fin a) (g : Fin b) (u : Fin 1) :
    broadcastInDim ⟨3, ![a, b, 1]⟩ ![0, 1] h x (ix3 r g u) = x (ix2 r g) := by
  refine broadcastInDim_apply _ h x (ix3 r g u) (ix2 r g) fun ax => ?_
  match ax with
  | ⟨0, _⟩ =>
    show r.val = if a = 1 then 0 else r.val
    split
    · have := r.isLt; omega
    · rfl
  | ⟨1, _⟩ =>
    show g.val = if b = 1 then 0 else g.val
    split
    · have := g.isLt; omega
    · rfl

/-- `[a,b,1] → [a,b,c]`: at `(r, g, k)` the operand at `(r, g, 0)`. -/
theorem bcast_ab1_abc_apply {a b c : ℕ} (v : (⟨3, ![a, b, 1]⟩ : Shape).Idx → α)
    (h : (⟨3, ![a, b, 1]⟩ : Shape).BroadcastsInDim ⟨3, ![a, b, c]⟩ (![0, 1, 2] : Fin 3 → Fin (⟨3, ![a, b, c]⟩ : Shape).rank))
    (r : Fin a) (g : Fin b) (k : Fin c) :
    broadcastInDim ⟨3, ![a, b, c]⟩ ![0, 1, 2] h v (ix3 r g k) = v (ix3 r g (0 : Fin 1)) := by
  refine broadcastInDim_apply _ h v (ix3 r g k) (ix3 r g (0 : Fin 1)) fun ax => ?_
  match ax with
  | ⟨0, _⟩ =>
    show r.val = if a = 1 then 0 else r.val
    split
    · have := r.isLt; omega
    · rfl
  | ⟨1, _⟩ =>
    show g.val = if b = 1 then 0 else g.val
    split
    · have := g.isLt; omega
    · rfl
  | ⟨2, _⟩ => rfl

/-- `[b,c] → [1,b,c]`: at `(u, g, k)` the operand at `(g, k)`. -/
theorem bcast_bc_1bc_apply {b c : ℕ} (x : (⟨2, ![b, c]⟩ : Shape).Idx → α)
    (h : (⟨2, ![b, c]⟩ : Shape).BroadcastsInDim ⟨3, ![1, b, c]⟩ (![1, 2] : Fin 2 → Fin (⟨3, ![1, b, c]⟩ : Shape).rank))
    (u : Fin 1) (g : Fin b) (k : Fin c) :
    broadcastInDim ⟨3, ![1, b, c]⟩ ![1, 2] h x (ix3 u g k) = x (ix2 g k) := by
  refine broadcastInDim_apply _ h x (ix3 u g k) (ix2 g k) fun ax => ?_
  match ax with
  | ⟨0, _⟩ =>
    show g.val = if b = 1 then 0 else g.val
    split
    · have := g.isLt; omega
    · rfl
  | ⟨1, _⟩ =>
    show k.val = if c = 1 then 0 else k.val
    split
    · have := k.isLt; omega
    · rfl

/-- `[1,b,c] → [a,b,c]`: at `(r, g, k)` the operand at `(0, g, k)`. -/
theorem bcast_1bc_abc_apply {a b c : ℕ} (v : (⟨3, ![1, b, c]⟩ : Shape).Idx → α)
    (h : (⟨3, ![1, b, c]⟩ : Shape).BroadcastsInDim ⟨3, ![a, b, c]⟩ (![0, 1, 2] : Fin 3 → Fin (⟨3, ![a, b, c]⟩ : Shape).rank))
    (r : Fin a) (g : Fin b) (k : Fin c) :
    broadcastInDim ⟨3, ![a, b, c]⟩ ![0, 1, 2] h v (ix3 r g k) = v (ix3 (0 : Fin 1) g k) := by
  refine broadcastInDim_apply _ h v (ix3 r g k) (ix3 (0 : Fin 1) g k) fun ax => ?_
  match ax with
  | ⟨0, _⟩ => rfl
  | ⟨1, _⟩ =>
    show g.val = if b = 1 then 0 else g.val
    split
    · have := g.isLt; omega
    · rfl
  | ⟨2, _⟩ =>
    show k.val = if c = 1 then 0 else k.val
    split
    · have := k.isLt; omega
    · rfl

/-- `[a] → [a,1]`: at `(r, u)` the operand at `r`. -/
theorem bcast_a_a1_apply {a : ℕ} (x : (⟨1, ![a]⟩ : Shape).Idx → α)
    (h : (⟨1, ![a]⟩ : Shape).BroadcastsInDim ⟨2, ![a, 1]⟩ (![0] : Fin 1 → Fin (⟨2, ![a, 1]⟩ : Shape).rank))
    (r : Fin a) (u : Fin 1) :
    broadcastInDim ⟨2, ![a, 1]⟩ ![0] h x (ix2 r u) = x (ix1 r) := by
  refine broadcastInDim_apply _ h x (ix2 r u) (ix1 r) fun ax => ?_
  match ax with
  | ⟨0, _⟩ =>
    show r.val = if a = 1 then 0 else r.val
    split
    · have := r.isLt; omega
    · rfl

/-- `[a,1] → [a,c]`: at `(r, k)` the operand at `(r, 0)`. -/
theorem bcast_a1_ac_apply {a c : ℕ} (v : (⟨2, ![a, 1]⟩ : Shape).Idx → α)
    (h : (⟨2, ![a, 1]⟩ : Shape).BroadcastsInDim ⟨2, ![a, c]⟩ (![0, 1] : Fin 2 → Fin (⟨2, ![a, c]⟩ : Shape).rank))
    (r : Fin a) (k : Fin c) :
    broadcastInDim ⟨2, ![a, c]⟩ ![0, 1] h v (ix2 r k) = v (ix2 r (0 : Fin 1)) := by
  refine broadcastInDim_apply _ h v (ix2 r k) (ix2 r (0 : Fin 1)) fun ax => ?_
  match ax with
  | ⟨0, _⟩ =>
    show r.val = if a = 1 then 0 else r.val
    split
    · have := r.isLt; omega
    · rfl
  | ⟨1, _⟩ => rfl

/-- `[c] → [1,c]`: at `(u, k)` the operand at `k`. -/
theorem bcast_c_1c_apply {c : ℕ} (x : (⟨1, ![c]⟩ : Shape).Idx → α)
    (h : (⟨1, ![c]⟩ : Shape).BroadcastsInDim ⟨2, ![1, c]⟩ (![1] : Fin 1 → Fin (⟨2, ![1, c]⟩ : Shape).rank))
    (u : Fin 1) (k : Fin c) :
    broadcastInDim ⟨2, ![1, c]⟩ ![1] h x (ix2 u k) = x (ix1 k) := by
  refine broadcastInDim_apply _ h x (ix2 u k) (ix1 k) fun ax => ?_
  match ax with
  | ⟨0, _⟩ =>
    show k.val = if c = 1 then 0 else k.val
    split
    · have := k.isLt; omega
    · rfl

/-- `[1,c] → [a,c]`: at `(r, k)` the operand at `(0, k)`. -/
theorem bcast_1c_ac_apply {a c : ℕ} (v : (⟨2, ![1, c]⟩ : Shape).Idx → α)
    (h : (⟨2, ![1, c]⟩ : Shape).BroadcastsInDim ⟨2, ![a, c]⟩ (![0, 1] : Fin 2 → Fin (⟨2, ![a, c]⟩ : Shape).rank))
    (r : Fin a) (k : Fin c) :
    broadcastInDim ⟨2, ![a, c]⟩ ![0, 1] h v (ix2 r k) = v (ix2 (0 : Fin 1) k) := by
  refine broadcastInDim_apply _ h v (ix2 r k) (ix2 (0 : Fin 1) k) fun ax => ?_
  match ax with
  | ⟨0, _⟩ => rfl
  | ⟨1, _⟩ =>
    show k.val = if c = 1 then 0 else k.val
    split
    · have := k.isLt; omega
    · rfl

/-! ## Reshapes -/

/-- `[a,n] → [a,b,c]` with `n = b·c`: at `(r, g, k)` the operand at `(r, q)`, `q = g·c + k`. -/
theorem shapeCast_an_abc_apply {a n b c : ℕ} (hn : n = b * c) (x : (⟨2, ![a, n]⟩ : Shape).Idx → α)
    (h : (⟨2, ![a, n]⟩ : Shape).ShapeCasts ⟨3, ![a, b, c]⟩) (r : Fin a) (g : Fin b) (k : Fin c) (q : Fin n)
    (hq : q.val = g.val * c + k.val) :
    shapeCast ⟨3, ![a, b, c]⟩ x h (ix3 r g k) = x (ix2 r q) :=
  shapeCast_apply x h _ _ (by
    rw [Shape.rowMajor_val_two, Shape.rowMajor_val_three]
    show r.val * n + q.val = (r.val * b + g.val) * c + k.val
    rw [hq, hn, Nat.add_mul, Nat.mul_assoc, Nat.add_assoc])

/-- `[n] → [b,c]`: at `(g, k)` the operand at `q = g·c + k`. -/
theorem shapeCast_n_bc_apply {n b c : ℕ} (x : (⟨1, ![n]⟩ : Shape).Idx → α)
    (h : (⟨1, ![n]⟩ : Shape).ShapeCasts ⟨2, ![b, c]⟩) (g : Fin b) (k : Fin c) (q : Fin n)
    (hq : q.val = g.val * c + k.val) :
    shapeCast ⟨2, ![b, c]⟩ x h (ix2 g k) = x (ix1 q) :=
  shapeCast_apply x h _ _ (by
    rw [Shape.rowMajor_val_one, Shape.rowMajor_val_two]
    exact hq)

/-- `[a,1,c] → [a,c]`: at `(r, k)` the operand at `(r, 0, k)`. -/
theorem shapeCast_a1c_ac_apply {a c : ℕ} (x : (⟨3, ![a, 1, c]⟩ : Shape).Idx → α)
    (h : (⟨3, ![a, 1, c]⟩ : Shape).ShapeCasts ⟨2, ![a, c]⟩) (r : Fin a) (k : Fin c) :
    shapeCast ⟨2, ![a, c]⟩ x h (ix2 r k) = x (ix3 r (0 : Fin 1) k) :=
  shapeCast_apply x h _ _ (by
    rw [Shape.rowMajor_val_three, Shape.rowMajor_val_two]
    show (r.val * 1 + 0) * c + k.val = r.val * c + k.val
    rw [Nat.mul_one, Nat.add_zero])

/-! ## A unit-thick slice of the middle axis -/

/-- `[a,b,c] → [a,1,c]` at offset `o` of the middle axis: at `(r, u, k)` the operand at `(r, g, k)`, `g = o`. -/
theorem slice_mid_apply {a b c : ℕ} (o : ℕ) (x : (⟨3, ![a, b, c]⟩ : Shape).Idx → α)
    (h : (⟨3, ![a, b, c]⟩ : Shape).Slices ![0, o, 0] ⟨3, ![a, 1, c]⟩) (r : Fin a) (u : Fin 1) (k : Fin c) (g : Fin b)
    (hg : g.val = o) :
    extractStridedSlice ⟨3, ![a, 1, c]⟩ ![0, o, 0] x h (ix3 r u k) = x (ix3 r g k) := by
  refine extractStridedSlice_apply _ x h (ix3 r u k) (ix3 r g k) fun ax => ?_
  match ax with
  | ⟨0, _⟩ => show r.val = 0 + r.val; omega
  | ⟨1, _⟩ => show g.val = o + u.val; omega
  | ⟨2, _⟩ => show k.val = 0 + k.val; omega

/-! ## Sums along the last axis -/

/-- Over `(r, g)`, the rank-3 index whose last coordinate is `k` is `(r, g, k)`. -/
theorem lift_last3 {a b c : ℕ} (h : (⟨3, ![a, b, c]⟩ : Shape).Reduces [(2 : Fin 3)] ⟨2, ![a, b]⟩) (r : Fin a) (g : Fin b)
    (k : Fin c) : h.lift (ix2 r g) k = ix3 r g k := by
  funext d
  refine Fin.ext ?_
  match d with
  | ⟨0, _⟩ => rfl
  | ⟨1, _⟩ => rfl
  | ⟨2, _⟩ => rfl

/-- Over `r`, the rank-2 index whose last coordinate is `k` is `(r, k)`. -/
theorem lift_last2 {a c : ℕ} (h : (⟨2, ![a, c]⟩ : Shape).Reduces [(1 : Fin 2)] ⟨1, ![a]⟩) (r : Fin a) (k : Fin c) :
    h.lift (ix1 r) k = ix2 r k := by
  funext d
  refine Fin.ext ?_
  match d with
  | ⟨0, _⟩ => rfl
  | ⟨1, _⟩ => rfl

/-- The host sum of a rank-3 array along its last axis, at `(r, g)`: the initial value plus `∑ k, x (r, g, k)`. -/
theorem reduceAdd_last3_apply {a b c : ℕ} {φ : FTy} {u : Shape} (x : FVec Ideal ⟨3, ![a, b, c]⟩ φ) (init : u.Idx → Ideal φ)
    (h' : (⟨3, ![a, b, c]⟩ : Shape).ReducesTo [(2 : Fin 3)] ⟨2, ![a, b]⟩) (hu : 0 < u.numel)
    (h : (⟨3, ![a, b, c]⟩ : Shape).Reduces [(2 : Fin 3)] ⟨2, ![a, b]⟩) (r : Fin a) (g : Fin b) :
    Host.reduceAdd x init h' hu (ix2 r g) = init (Shape.Idx.first hu) + ∑ k : Fin c, x (ix3 r g k) := by
  refine (hostReduceAdd_apply x init h' hu (ix2 r g)).trans ?_
  refine (Ideal.hostReduceAdd_single h' h x _ (ix2 r g)).trans ?_
  exact congrArg (_ + ·) (Finset.sum_congr rfl fun k _ => congrArg x (lift_last3 h r g k))

/-- The host sum of a rank-2 array along its last axis, at `r`: the initial value plus `∑ k, x (r, k)`. -/
theorem reduceAdd_last2_apply {a c : ℕ} {φ : FTy} {u : Shape} (x : FVec Ideal ⟨2, ![a, c]⟩ φ) (init : u.Idx → Ideal φ)
    (h' : (⟨2, ![a, c]⟩ : Shape).ReducesTo [(1 : Fin 2)] ⟨1, ![a]⟩) (hu : 0 < u.numel)
    (h : (⟨2, ![a, c]⟩ : Shape).Reduces [(1 : Fin 2)] ⟨1, ![a]⟩) (r : Fin a) :
    Host.reduceAdd x init h' hu (ix1 r) = init (Shape.Idx.first hu) + ∑ k : Fin c, x (ix2 r k) := by
  refine (hostReduceAdd_apply x init h' hu (ix1 r)).trans ?_
  refine (Ideal.hostReduceAdd_single h' h x _ (ix1 r)).trans ?_
  exact congrArg (_ + ·) (Finset.sum_congr rfl fun k _ => congrArg x (lift_last2 h r k))

/-! ## A product contracting one axis -/

/-- A host matrix product whose dimension numbers contract ONE axis of extent `n`, at an output index `j`:
    `∑ k : Fin n, lhs (L k) * rhs (R k)`, where `L k`, `R k` are the operand indices the dimension numbers assign to
    `j` and the contraction coordinate `k`. -/
theorem dotGeneral_read {sl sr so : Shape} {φ₁ φ₂ : FTy} (D : DotDims sl sr so) (prec : Option ContractPrecision) (n : Nat)
    (hr : D.contr.rank = 1) (hs : D.contr.size ⟨0, by omega⟩ = n)
    (lhs : FVec Ideal sl φ₁) (rhs : FVec Ideal sr φ₂) (j : so.Idx) (L : Fin n → sl.Idx) (R : Fin n → sr.Idx)
    (hl : ∀ k, D.lhsIdx j ((contrEquiv1 D n hr hs).symm k) = L k)
    (hr' : ∀ k, D.rhsIdx j ((contrEquiv1 D n hr hs).symm k) = R k) :
    Host.dotGeneral D prec lhs rhs j = ∑ k : Fin n, lhs (L k) * rhs (R k) := by
  simp only [Host.dotGeneral]
  rw [Ideal.dotGeneral_apply, ← Equiv.sum_comp (contrEquiv1 D n hr hs).symm]
  exact Finset.sum_congr rfl fun k _ => by rw [hl k, hr' k]

end Cert.HostRead

end
-- ==== Proof.LibGcnSpec.lean ====
/-
  Two layers of a graph convolution with symmetric degree normalisation, on the extended reals, in two arrangements,
  and that the two agree.

  The graph: `E` edges over `N` nodes; edge `a` reads its features from node `σ a` and is added into node `r`
  exactly when `land a r` holds (an edge whose target is out of range lands nowhere); `w a` is its weight and
  `dis u` the per-node scale (the inverse square root of the weighted in-degree, or zero).

  * The reference arrangement weights every edge by `(dis (σ a) · w a) · dis (δ a)`, where `δ a` is the target
    read back as a node (`δ a = r` whenever `land a r`), aggregates `X W` with those weights and adds the bias.
  * The other arrangement scales the rows of `X W` by `dis` BEFORE the edges read them, aggregates with the bare
    weights `w a`, and scales row `r` of the aggregate by `dis r` afterwards.

  They agree because a node's scale does not depend on the edge: `(∑ₐ tₐ) · dis r = ∑ₐ tₐ · dis r`. On the extended
  reals that law needs the factor to be a non-negative number other than `+∞` — which every `dis r` is, whatever
  the inputs: the inverse square root of a positive extended real is a non-negative real (`+∞ ↦ 0`), and elsewhere
  `dis` is zero. Products are only re-associated and commuted, which the extended reals allow without conditions.
  No entry of the inputs is asked to be finite.
-/
import Idealize.ShloMosaic.PureOps.Ideal

noncomputable section

open scoped BigOperators

namespace Cert.Proof.Gcn

open Idealize.ShloMosaic

/-! ## The per-node scale is a non-negative number below `+∞` -/

/-- The inverse square root of a positive extended real is non-negative and not `+∞`. -/
theorem rsqrt_nonneg_ne_top {x : EReal} (hx : 0 < x) : 0 ≤ Ideal.rsqrt x ∧ Ideal.rsqrt x ≠ ⊤ := by
  induction x using EReal.rec with
  | bot => exact absurd hx (by simp)
  | top => exact ⟨by simp, by simp⟩
  | coe r =>
    have hr : 0 < r := by exact_mod_cast hx
    rw [Ideal.rsqrt_coe, if_neg (not_lt.2 hr.le), if_neg hr.ne']
    exact ⟨by exact_mod_cast (inv_nonneg.2 (Real.sqrt_nonneg r)), EReal.coe_ne_top _⟩

/-- The guarded scale — the inverse square root where the degree is positive, zero elsewhere — is non-negative
    and not `+∞`. -/
theorem guarded_nonneg_ne_top (deg : EReal) :
    0 ≤ (if 0 < deg then Ideal.rsqrt deg else 0) ∧ (if 0 < deg then Ideal.rsqrt deg else 0) ≠ ⊤ := by
  by_cases h : 0 < deg
  · rw [if_pos h]; exact rsqrt_nonneg_ne_top h
  · rw [if_neg h]; exact ⟨le_rfl, EReal.zero_ne_top⟩

/-! ## A non-negative number below `+∞` distributes over a finite sum -/

theorem sum_mul_of_nonneg {ι : Type*} (s : Finset ι) (f : ι → EReal) {x : EReal} (hx : 0 ≤ x) (hx' : x ≠ ⊤) :
    (∑ i ∈ s, f i) * x = ∑ i ∈ s, f i * x := by
  classical
  induction s using Finset.induction_on with
  | empty => simp
  | insert a s ha ih =>
    rw [Finset.sum_insert ha, Finset.sum_insert ha, EReal.right_distrib_of_nonneg_of_ne_top hx hx', ih]

/-! ## The two arrangements -/

variable {N E K : ℕ}

/-- One aggregation: entry `(r, c)` is the sum over the edges landing on `r` of the source row's entry times
    the edge's weight (from zero, as the scatter starts from a zero array). -/
def agg (land : Fin E → Fin N → Prop) [∀ a r, Decidable (land a r)] (σ : Fin E → Fin N)
    (H : Fin N → Fin K → EReal) (v : Fin E → EReal) (r : Fin N) (c : Fin K) : EReal :=
  0 + ∑ a : Fin E, if land a r then H (σ a) c * v a else 0

/-- The matrix product `X W`. -/
def dense (X : Fin N → Fin K → EReal) (W : Fin K → Fin K → EReal) (u : Fin N) (c : Fin K) : EReal :=
  ∑ j : Fin K, X u j * W j c

/-- The reference's weight of an edge: `(dis (σ a) · w a) · dis (δ a)`. -/
def edgeNorm (σ δ : Fin E → Fin N) (dis : Fin N → EReal) (w : Fin E → EReal) (a : Fin E) : EReal :=
  (dis (σ a) * w a) * dis (δ a)

section
variable (land : Fin E → Fin N → Prop) [∀ a r, Decidable (land a r)] (σ δ : Fin E → Fin N)
  (dis : Fin N → EReal) (w : Fin E → EReal)
  (X : Fin N → Fin K → EReal) (W1 : Fin K → Fin K → EReal) (b1 : Fin K → EReal)
  (W2 : Fin K → Fin K → EReal) (b2 : Fin K → EReal)

/-- The reference's hidden layer: the first convolution, rectified. -/
def refHidden (u : Fin N) (j : Fin K) : EReal :=
  max (agg land σ (dense X W1) (edgeNorm σ δ dis w) u j + b1 j) 0

/-- The reference's output: the second convolution of the hidden layer. -/
def refOut (r : Fin N) (c : Fin K) : EReal :=
  agg land σ (dense (refHidden land σ δ dis w X W1 b1) W2) (edgeNorm σ δ dis w) r c + b2 c

/-- The first product with its rows already scaled. -/
def kerFirst (u : Fin N) (j : Fin K) : EReal := dense X W1 u j * dis u

/-- The other arrangement's hidden layer: the aggregate of the scaled rows with the bare weights, its rows scaled,
    the bias added, rectified. -/
def kerHidden (u : Fin N) (j : Fin K) : EReal :=
  max (agg land σ (kerFirst dis X W1) w u j * dis u + b1 j) 0

/-- The second product of the hidden layer, its rows scaled. -/
def kerSecond (u : Fin N) (c : Fin K) : EReal := dense (kerHidden land σ dis w X W1 b1) W2 u c * dis u

/-- The other arrangement's output. -/
def kerOut (r : Fin N) (c : Fin K) : EReal :=
  dis r * agg land σ (kerSecond land σ dis w X W1 b1 W2) w r c + b2 c

variable {land σ δ dis w}

/-- Scaling an aggregate's row by a non-negative number below `+∞` scales every edge's weight. -/
theorem agg_mul (H : Fin N → Fin K → EReal) (v : Fin E → EReal) (r : Fin N) (c : Fin K) {x : EReal}
    (hx : 0 ≤ x) (hx' : x ≠ ⊤) :
    agg land σ H v r c * x = agg land σ H (fun a => v a * x) r c := by
  unfold agg
  rw [zero_add, zero_add, sum_mul_of_nonneg _ _ hx hx']
  refine Finset.sum_congr rfl fun a _ => ?_
  by_cases h : land a r
  · rw [if_pos h, if_pos h, mul_assoc]
  · rw [if_neg h, if_neg h, zero_mul]

/-- THE LAW: aggregating rows scaled by `dis` with the bare weights and scaling row `r` of the result by `dis r`
    is aggregating the unscaled rows with the reference's weights. -/
theorem agg_scaled (hdis : ∀ u, 0 ≤ dis u ∧ dis u ≠ ⊤) (hδ : ∀ a r, land a r → δ a = r)
    (D : Fin N → Fin K → EReal) (r : Fin N) (c : Fin K) :
    agg land σ (fun u j => D u j * dis u) w r c * dis r = agg land σ D (edgeNorm σ δ dis w) r c := by
  rw [agg_mul _ _ _ _ (hdis r).1 (hdis r).2]
  unfold agg
  refine congrArg (0 + ·) (Finset.sum_congr rfl fun a _ => ?_)
  by_cases h : land a r
  · rw [if_pos h, if_pos h]
    unfold edgeNorm
    rw [hδ a r h]
    simp only [mul_assoc]
  · rw [if_neg h, if_neg h]

/-- The two hidden layers are one. -/
theorem kerHidden_eq (hdis : ∀ u, 0 ≤ dis u ∧ dis u ≠ ⊤) (hδ : ∀ a r, land a r → δ a = r) :
    kerHidden land σ dis w X W1 b1 = refHidden land σ δ dis w X W1 b1 := by
  funext u j
  unfold kerHidden refHidden
  rw [show kerFirst dis X W1 = fun u j => dense X W1 u j * dis u from rfl, agg_scaled hdis hδ]

/-- THE TWO ARRANGEMENTS AGREE, entry by entry. -/
theorem kerOut_eq_refOut (hdis : ∀ u, 0 ≤ dis u ∧ dis u ≠ ⊤) (hδ : ∀ a r, land a r → δ a = r)
    (r : Fin N) (c : Fin K) :
    kerOut land σ dis w X W1 b1 W2 b2 r c = refOut land σ δ dis w X W1 b1 W2 b2 r c := by
  unfold kerOut refOut
  rw [mul_comm,
    show kerSecond land σ dis w X W1 b1 W2 = fun u j => dense (kerHidden land σ dis w X W1 b1) W2 u j * dis u from rfl,
    agg_scaled hdis hδ, kerHidden_eq X W1 b1 hdis hδ]

end

end Cert.Proof.Gcn

end
-- ==== Proof.LibGraphRead.lean ====
/-
  The array operations of one graph-convolution layer, each composite read at an index on the extended reals.

  A layer over `N` nodes, `E` edges and `C` feature columns is written with whole-array operations: a row gather
  of the node features by the edges' source indices, a product with the edge weights spread over the columns, an
  accumulating row scatter by the edges' target indices into a zero array, a bias spread over the rows, a
  rectification against a zero array; the edge weights of the symmetric normalisation are products of two
  gathers of the per-node scale with the bare weights; the per-node scale is the inverse square root of the
  weighted in-degree where that is positive and zero elsewhere; and the features enter through a plain matrix
  product. Each lemma below reads ONE such composite at an index and names the result in the vocabulary of the
  specification (`Cert.Proof.Gcn`): `agg`, `edgeNorm`, `dense`, the guarded inverse square root.

  * `lands I a r`: edge `a`'s target index, read signed, is the node `r` — the condition under which the scatter
    adds edge `a`'s row into row `r`; an index outside `[0, N)` lands nowhere.
  * `aggregate_apply`: the scatter of the gathered, weighted rows into zeros is `Gcn.agg`.
  * `edgeNorm_apply`: the product of the two gathered scales with the weight is `Gcn.edgeNorm`.
  * `scale_apply`, `scale_ok`: the guarded inverse square root at a node, and that it is non-negative and not `+∞`.
  * `target_readback`: an edge that lands on `r` has `r` as the node its normalised target index names in a gather.
  * `bias_apply`, `relu_apply`: the bias row added to every row; the maximum with zero.
  * `dense_apply`: the plain matrix product is `Gcn.dense`.

  Everything is generic in the extents and in the index width; dimension numbers are records built from any proof of
  their well-formedness and shape side conditions are variables, so a program's own records and proofs unify.
-/
import Idealize.ShloMosaic.PureOps.Ideal
import Idealize.ShloMosaic.PureOps.Ideal.Laws
import Idealize.ShloMosaic.PureOps.Contract
import Idealize.ShloMosaic.Lib.ValueIdx
import Idealize.ShloMosaic.Lib.IdealHost
import Idealize.ShloMosaic.Lib.Pipeline.Value
import proofs.«167142_j42640435314985_2_alg».proof.Proof.LibScatterAdd
import proofs.«167142_j42640435314985_2_alg».proof.Proof.LibGatherRows
import proofs.«167142_j42640435314985_2_alg».proof.Proof.LibIndexWrap
import proofs.«167142_j42640435314985_2_alg».proof.Proof.LibHostRead
import proofs.«167142_j42640435314985_2_alg».proof.Proof.LibPlainDot
import proofs.«167142_j42640435314985_2_alg».proof.Proof.LibGcnSpec

noncomputable section

open scoped BigOperators

namespace Cert.Proof.GraphRead

open Idealize.ShloMosaic Idealize.ShloMosaic.ValueIdx Cert.GatherRows

variable {N E C w w' : Nat}

/-! ## Where an edge lands -/

/-- Edge `a` lands on node `r`: its target index, read signed, is `r`. An index that is negative or at least `N`
    lands on no node. -/
def lands (I : IVec ⟨2, ![E, 1]⟩ w) (a : Fin E) (r : Fin N) : Prop := (I (ix2 a 0)).toInt = (r.val : ℤ)

instance instDecidableLands (I : IVec ⟨2, ![E, 1]⟩ w) (a : Fin E) (r : Fin N) : Decidable (lands I a r) :=
  inferInstanceAs (Decidable ((I (ix2 a 0)).toInt = (r.val : ℤ)))

/-! ## Zero arrays -/

/-- The zero word of the 32-bit float format spread from a scalar over any shape reads `0` everywhere. -/
theorem bcast_zero_apply {t : Shape} (h0 : (⟨0, ![]⟩ : Shape).BroadcastsInDim t (![] : Fin 0 → Fin t.rank)) (j : t.Idx) :
    broadcastInDim t ![] h0 (constant (F := Ideal) ⟨0, ![]⟩ .f32 0x00000000#32) j = (0 : EReal) :=
  (broadcastInDim_apply _ h0 _ j ix0 (fun a => a.elim0)).trans Ideal.ofBits_zero_f32

/-- The zero integer word spread from a scalar over any shape reads the zero word everywhere. -/
theorem bcast_zero_word_apply {t : Shape} (h0 : (⟨0, ![]⟩ : Shape).BroadcastsInDim t (![] : Fin 0 → Fin t.rank)) (j : t.Idx) :
    broadcastInDim t ![] h0 (constantI ⟨0, ![]⟩ w 0#w) j = 0#w :=
  broadcastInDim_apply _ h0 _ j ix0 (fun a => a.elim0)

/-! ## The aggregation -/

/-- The accumulating row scatter, by the target indices `I` and into a zero array, of the rows of `H` gathered by the
    source indices `G` and multiplied by the per-edge weight `v` spread over the columns: entry `(r, c)` is the sum,
    over the edges landing on `r`, of the source row's entry in column `c` times the edge's weight. -/
theorem aggregate_apply (hN : 0 < N)
    (wfs : ScatterDims.WF ⟨2, ![N, C]⟩ ⟨2, ![E, 1]⟩ ⟨2, ![E, C]⟩ [1] [0] [0] 1)
    (wfg : GatherDims.WF ⟨2, ![N, C]⟩ ⟨2, ![E, 1]⟩ ⟨2, ![E, C]⟩ [1] [0] [] [0] [] 1 ![1, C])
    (h0 : (⟨0, ![]⟩ : Shape).BroadcastsInDim ⟨2, ![N, C]⟩ (![] : Fin 0 → Fin (⟨2, ![N, C]⟩ : Shape).rank))
    (h1 : (⟨1, ![E]⟩ : Shape).BroadcastsInDim ⟨2, ![E, 1]⟩ (![0] : Fin 1 → Fin (⟨2, ![E, 1]⟩ : Shape).rank))
    (h2 : (⟨2, ![E, 1]⟩ : Shape).BroadcastsInDim ⟨2, ![E, C]⟩ (![0, 1] : Fin 2 → Fin (⟨2, ![E, C]⟩ : Shape).rank))
    (I : IVec ⟨2, ![E, 1]⟩ w) (G : IVec ⟨2, ![E, 1]⟩ w') (H : FVec Ideal ⟨2, ![N, C]⟩ .f32)
    (v : FVec Ideal ⟨1, ![E]⟩ .f32) (r : Fin N) (c : Fin C) :
    Host.scatterAdd (F := Ideal) (ScatterRows.dims2 wfs)
        (broadcastInDim ⟨2, ![N, C]⟩ ![] h0 (constant (F := Ideal) ⟨0, ![]⟩ .f32 0x00000000#32)) I
        (mulf (Host.gather (GatherRows.dims2 wfg) H G)
          (broadcastInDim ⟨2, ![E, C]⟩ ![0, 1] h2 (broadcastInDim ⟨2, ![E, 1]⟩ ![0] h1 v))) (ix2 r c)
      = Gcn.agg (lands I) (rowOf hN G) (fun u j => H (ix2 u j)) (fun a => v (ix1 a)) r c := by
  refine (ScatterRows.scatterAdd2_apply wfs _ I _ r c).trans ?_
  unfold Gcn.agg
  refine congrArg₂ (· + ·) (bcast_zero_apply h0 (ix2 r c)) (Finset.sum_congr rfl fun a _ => ?_)
  refine if_congr Iff.rfl ?_ rfl
  show Host.gather (GatherRows.dims2 wfg) H G (ix2 a c)
      * broadcastInDim ⟨2, ![E, C]⟩ ![0, 1] h2 (broadcastInDim ⟨2, ![E, 1]⟩ ![0] h1 v) (ix2 a c) = _
  rw [GatherRows.gather2_apply hN wfg H G a c, HostRead.bcast_a1_ac_apply _ h2 a c, HostRead.bcast_a_a1_apply v h1 a 0]

/-! ## The normalised edge weight -/

/-- The per-node scale gathered by the source indices, times the edge weight, times the scale gathered by the target
    indices: at edge `a` the product `(dis (σ a) · w a) · dis (δ a)`, `σ a` and `δ a` the nodes the two gathers read. -/
theorem edgeNorm_apply (hN : 0 < N)
    (wf1 : GatherDims.WF ⟨1, ![N]⟩ ⟨2, ![E, 1]⟩ ⟨1, ![E]⟩ [] [0] [] [0] [] 1 ![1])
    (dis : FVec Ideal ⟨1, ![N]⟩ .f32) (Gs : IVec ⟨2, ![E, 1]⟩ w) (Gd : IVec ⟨2, ![E, 1]⟩ w')
    (wv : FVec Ideal ⟨1, ![E]⟩ .f32) (a : Fin E) :
    mulf (mulf (Host.gather (GatherRows.dims1 wf1) dis Gs) wv) (Host.gather (GatherRows.dims1 wf1) dis Gd) (ix1 a)
      = Gcn.edgeNorm (rowOf hN Gs) (rowOf hN Gd) (fun u => dis (ix1 u)) (fun a => wv (ix1 a)) a := by
  show Host.gather (GatherRows.dims1 wf1) dis Gs (ix1 a) * wv (ix1 a) * Host.gather (GatherRows.dims1 wf1) dis Gd (ix1 a) = _
  rw [GatherRows.gather1_apply hN wf1 dis Gs a, GatherRows.gather1_apply hN wf1 dis Gd a]
  rfl

/-! ## The per-node scale -/

/-- The selection between the inverse square root of `deg` and a second array, by the test `deg > z`, at an index
    where `z` and the second array are zero: the inverse square root where `deg` is positive, zero elsewhere. -/
theorem guard_apply {s : Shape} (deg z z' : FVec Ideal s .f32) (i : s.Idx) (hz : z i = (0 : EReal)) (hz' : z' i = (0 : EReal)) :
    select (cmpf .ogt deg z) (Host.rsqrt deg) z' i = if 0 < deg i then Ideal.rsqrt (deg i) else 0 := by
  show Scalar.select (Ideal.cmp .ogt (deg i) (z i)) (Ideal.rsqrt (deg i)) (z' i) = _
  rw [hz, hz']
  by_cases hd : (0 : EReal) < deg i
  · rw [if_pos hd]
    have hc : Ideal.cmp .ogt (deg i) 0 = 1#1 := by
      show BitVec.ofBool (decide ((0 : EReal) < deg i)) = 1#1
      rw [decide_eq_true hd]; rfl
    rw [hc]; exact if_pos rfl
  · rw [if_neg hd]
    have hc : Ideal.cmp .ogt (deg i) 0 = 0#1 := by
      show BitVec.ofBool (decide ((0 : EReal) < deg i)) = 0#1
      rw [decide_eq_false hd]; rfl
    rw [hc]; exact if_neg (by decide)

/-- The per-node scale as the programs write it — the selection, by the test `deg > 0` against a zero array, between
    the inverse square root of `deg` and a zero array (its scalar passed through an identity conversion) — at node
    `u`, for ANY array `deg`: the inverse square root where `deg u` is positive, zero elsewhere. -/
theorem scale_apply (h : (⟨0, ![]⟩ : Shape).BroadcastsInDim ⟨1, ![N]⟩ (![] : Fin 0 → Fin (⟨1, ![N]⟩ : Shape).rank))
    (deg : FVec Ideal ⟨1, ![N]⟩ .f32) (u : Fin N) :
    select (cmpf .ogt deg (broadcastInDim ⟨1, ![N]⟩ ![] h (constant (F := Ideal) ⟨0, ![]⟩ .f32 0x00000000#32)))
        (Host.rsqrt deg)
        (broadcastInDim ⟨1, ![N]⟩ ![] h (id (constant (F := Ideal) ⟨0, ![]⟩ .f32 0x00000000#32))) (ix1 u)
      = if 0 < deg (ix1 u) then Ideal.rsqrt (deg (ix1 u)) else 0 :=
  guard_apply deg _ _ (ix1 u) (bcast_zero_apply h (ix1 u)) (bcast_zero_apply h (ix1 u))

/-- The per-node scale is a non-negative number other than `+∞`, whatever `deg` is. -/
theorem scale_ok (h : (⟨0, ![]⟩ : Shape).BroadcastsInDim ⟨1, ![N]⟩ (![] : Fin 0 → Fin (⟨1, ![N]⟩ : Shape).rank))
    (deg : FVec Ideal ⟨1, ![N]⟩ .f32) (u : Fin N) :
    (0 : EReal) ≤ select (cmpf .ogt deg (broadcastInDim ⟨1, ![N]⟩ ![] h (constant (F := Ideal) ⟨0, ![]⟩ .f32 0x00000000#32)))
        (Host.rsqrt deg)
        (broadcastInDim ⟨1, ![N]⟩ ![] h (id (constant (F := Ideal) ⟨0, ![]⟩ .f32 0x00000000#32))) (ix1 u)
      ∧ select (cmpf .ogt deg (broadcastInDim ⟨1, ![N]⟩ ![] h (constant (F := Ideal) ⟨0, ![]⟩ .f32 0x00000000#32)))
        (Host.rsqrt deg)
        (broadcastInDim ⟨1, ![N]⟩ ![] h (id (constant (F := Ideal) ⟨0, ![]⟩ .f32 0x00000000#32))) (ix1 u) ≠ (⊤ : EReal) := by
  rw [scale_apply h deg u]
  exact Gcn.guarded_nonneg_ne_top (deg (ix1 u))

/-! ## The target read back as a node -/

/-- An edge that lands on `r` — its target index `d a`, read signed, is `r` — has `r` as the node a gather reads
    through the NORMALISED target index `where (d < z) (d + n) d`, at an edge where `z` is the zero word: the index
    is non-negative there, so the normalisation leaves it, and it is in range, so the gather's clamp leaves it. -/
theorem target_readback_of_zero (hN : 0 < N)
    (h1 : (⟨1, ![E]⟩ : Shape).BroadcastsInDim ⟨2, ![E, 1]⟩ (![0] : Fin 1 → Fin (⟨2, ![E, 1]⟩ : Shape).rank))
    (d z n : IVec ⟨1, ![E]⟩ w) (a : Fin E) (r : Fin N) (hz : z (ix1 a) = 0#w)
    (hl : lands (broadcastInDim ⟨2, ![E, 1]⟩ ![0] h1 d) a r) :
    rowOf hN (broadcastInDim ⟨2, ![E, 1]⟩ ![0] h1 (select (cmpi .slt d z) (addi d n) d)) a = r := by
  have hd : (d (ix1 a)).toInt = (r.val : ℤ) := by
    have e := HostRead.bcast_a_a1_apply d h1 a 0
    unfold lands at hl
    rw [e] at hl
    exact hl
  refine rowOf_eq hN _ a r ?_
  rw [HostRead.bcast_a_a1_apply _ h1 a 0, IndexWrap.wrap_of_nonneg d z n (ix1 a) hz (by rw [hd]; exact Int.natCast_nonneg _)]
  exact hd

/-- The same with the comparand written as the programs write it, the zero word spread from a scalar. -/
theorem target_readback (hN : 0 < N)
    (h0 : (⟨0, ![]⟩ : Shape).BroadcastsInDim ⟨1, ![E]⟩ (![] : Fin 0 → Fin (⟨1, ![E]⟩ : Shape).rank))
    (h1 : (⟨1, ![E]⟩ : Shape).BroadcastsInDim ⟨2, ![E, 1]⟩ (![0] : Fin 1 → Fin (⟨2, ![E, 1]⟩ : Shape).rank))
    (d n : IVec ⟨1, ![E]⟩ w) (a : Fin E) (r : Fin N)
    (hl : lands (broadcastInDim ⟨2, ![E, 1]⟩ ![0] h1 d) a r) :
    rowOf hN (broadcastInDim ⟨2, ![E, 1]⟩ ![0] h1
      (select (cmpi .slt d (broadcastInDim ⟨1, ![E]⟩ ![] h0 (constantI ⟨0, ![]⟩ w 0#w))) (addi d n) d)) a = r :=
  target_readback_of_zero hN h1 d _ n a r (bcast_zero_word_apply h0 (ix1 a)) hl

/-! ## Bias and rectification -/

/-- A bias vector given a unit leading axis, spread over the rows and added: entry `(r, c)` gains `b c`. -/
theorem bias_apply
    (h1 : (⟨1, ![C]⟩ : Shape).BroadcastsInDim ⟨2, ![1, C]⟩ (![1] : Fin 1 → Fin (⟨2, ![1, C]⟩ : Shape).rank))
    (h2 : (⟨2, ![1, C]⟩ : Shape).BroadcastsInDim ⟨2, ![N, C]⟩ (![0, 1] : Fin 2 → Fin (⟨2, ![N, C]⟩ : Shape).rank))
    (A : FVec Ideal ⟨2, ![N, C]⟩ .f32) (b : FVec Ideal ⟨1, ![C]⟩ .f32) (r : Fin N) (c : Fin C) :
    addf A (broadcastInDim ⟨2, ![N, C]⟩ ![0, 1] h2 (broadcastInDim ⟨2, ![1, C]⟩ ![1] h1 b)) (ix2 r c)
      = A (ix2 r c) + b (ix1 c) := by
  show A (ix2 r c) + broadcastInDim ⟨2, ![N, C]⟩ ![0, 1] h2 (broadcastInDim ⟨2, ![1, C]⟩ ![1] h1 b) (ix2 r c) = _
  rw [HostRead.bcast_1c_ac_apply _ h2 r c, HostRead.bcast_c_1c_apply b h1 0 c]

/-- The maximum with a zero array: entry `(r, c)` is `max (x (r, c)) 0`. -/
theorem relu_apply
    (h0 : (⟨0, ![]⟩ : Shape).BroadcastsInDim ⟨2, ![N, C]⟩ (![] : Fin 0 → Fin (⟨2, ![N, C]⟩ : Shape).rank))
    (x : FVec Ideal ⟨2, ![N, C]⟩ .f32) (r : Fin N) (c : Fin C) :
    maximumf x (broadcastInDim ⟨2, ![N, C]⟩ ![] h0 (constant (F := Ideal) ⟨0, ![]⟩ .f32 0x00000000#32)) (ix2 r c)
      = max (x (ix2 r c)) 0 := by
  show max (x (ix2 r c)) (broadcastInDim ⟨2, ![N, C]⟩ ![] h0 (constant (F := Ideal) ⟨0, ![]⟩ .f32 0x00000000#32) (ix2 r c)) = _
  rw [bcast_zero_apply h0 (ix2 r c)]

/-! ## The matrix product -/

/-- The plain product's dimension numbers, from any proof of their well-formedness. -/
abbrev dimsDot (wf : DotDims.WF ⟨2, ![N, C]⟩ ⟨2, ![C, C]⟩ ⟨2, ![N, C]⟩ [1] [0] [0] [1] [] []) :
    DotDims ⟨2, ![N, C]⟩ ⟨2, ![C, C]⟩ ⟨2, ![N, C]⟩ := ⟨[1], [0], [0], [1], [], [], wf⟩

/-- The host's product of an `N × C` array with a `C × C` array, contracting the first's columns with the second's
    rows: entry `(r, c)` is `∑ j, X (r, j) · W (j, c)`. -/
theorem dense_apply (prec : Option ContractPrecision) (X : FVec Ideal ⟨2, ![N, C]⟩ .f32) (W : FVec Ideal ⟨2, ![C, C]⟩ .f32)
    (r : Fin N) (c : Fin C) :
    Host.dotGeneral (F := Ideal) (DotDims.plain N C C) prec X W (ix2 r c)
      = Gcn.dense (fun u j => X (ix2 u j)) (fun i j => W (ix2 i j)) r c :=
  PlainDot.dotGeneral_plain prec .single X W (ix2 r c)

/-- The same for dimension numbers given as a record built from any proof of their well-formedness. -/
theorem dense_apply' (wf : DotDims.WF ⟨2, ![N, C]⟩ ⟨2, ![C, C]⟩ ⟨2, ![N, C]⟩ [1] [0] [0] [1] [] [])
    (prec : Option ContractPrecision) (X : FVec Ideal ⟨2, ![N, C]⟩ .f32) (W : FVec Ideal ⟨2, ![C, C]⟩ .f32)
    (r : Fin N) (c : Fin C) :
    Host.dotGeneral (F := Ideal) (dimsDot wf) prec X W (ix2 r c)
      = Gcn.dense (fun u j => X (ix2 u j)) (fun i j => W (ix2 i j)) r c :=
  dense_apply prec X W r c

end Cert.Proof.GraphRead

end
-- ==== Proof.GcnPair.lean ====
/-
  One layer of a graph convolution with symmetric degree normalisation, rectified, on the extended reals, in the two
  arrangements this certificate compares, and that they agree; then two such layers stacked.

  The graph: `E` edges over `N` nodes. Edge `a` reads its features from node `σ a` and is added into node `r` exactly
  when `land a r` holds (an edge whose target is out of range lands nowhere); `δ a` is the target read back as a node,
  so `δ a = r` whenever `land a r`; `dis u` is the per-node scale.

  * The reference arrangement weights edge `a` by `dis (σ a) · dis (δ a)` and aggregates the rows of `H W`:
    `max (∑_{a lands on r} (H W) (σ a, c) · (dis (σ a) · dis (δ a)) + b c) 0`.
  * The other arrangement scales row `u` of `H W` by `dis u` BEFORE the edges read it, aggregates with no weight at
    all, and scales row `r` of the aggregate by `dis r` afterwards:
    `max ((∑_{a lands on r} ((H W) (σ a, c) · dis (σ a))) · dis r + b c) 0`.

  They agree because `dis r` does not depend on the edge, so it moves inside the sum — on the extended reals this
  needs `dis r` to be a non-negative number other than `+∞`, which is all that is asked of `dis` — and because
  `δ a = r` on exactly the edges that are summed; products are only re-associated.
-/
import proofs.«167142_j42640435314985_2_alg».proof.Proof.LibGcnSpec

noncomputable section

open scoped BigOperators

namespace Cert.Proof.GcnPair

open Cert.Proof.Gcn

variable {N E K : ℕ}

/-- The unweighted aggregation: entry `(r, c)` is the sum over the edges landing on `r` of the source row's entry
    (from zero, as the scatter starts from a zero array). -/
def gatherSum (land : Fin E → Fin N → Prop) [∀ a r, Decidable (land a r)] (σ : Fin E → Fin N)
    (H : Fin N → Fin K → EReal) (r : Fin N) (c : Fin K) : EReal :=
  0 + ∑ a : Fin E, if land a r then H (σ a) c else 0

/-- The reference's weight of an edge: the scale of its source times the scale of its target. -/
def pairNorm (σ δ : Fin E → Fin N) (dis : Fin N → EReal) (a : Fin E) : EReal := dis (σ a) * dis (δ a)

section
variable (land : Fin E → Fin N → Prop) [∀ a r, Decidable (land a r)] (σ δ : Fin E → Fin N) (dis : Fin N → EReal)

/-- One layer in the reference's arrangement. -/
def layerRef (H : Fin N → Fin K → EReal) (W : Fin K → Fin K → EReal) (b : Fin K → EReal) (u : Fin N) (j : Fin K) : EReal :=
  max (agg land σ (dense H W) (pairNorm σ δ dis) u j + b j) 0

/-- The product with its rows already scaled. -/
def scaledDense (H : Fin N → Fin K → EReal) (W : Fin K → Fin K → EReal) (u : Fin N) (j : Fin K) : EReal :=
  dense H W u j * dis u

/-- One layer in the other arrangement. -/
def layerKer (H : Fin N → Fin K → EReal) (W : Fin K → Fin K → EReal) (b : Fin K → EReal) (u : Fin N) (j : Fin K) : EReal :=
  max (gatherSum land σ (scaledDense dis H W) u j * dis u + b j) 0

variable {land σ δ dis}

/-- THE LAW: aggregating rows scaled by `dis` with no weight and scaling row `r` of the result by `dis r` is aggregating
    the unscaled rows with the reference's weights. -/
theorem gatherSum_scaled (hdis : ∀ u, 0 ≤ dis u ∧ dis u ≠ ⊤) (hδ : ∀ a r, land a r → δ a = r)
    (D : Fin N → Fin K → EReal) (r : Fin N) (c : Fin K) :
    gatherSum land σ (fun u j => D u j * dis u) r c * dis r = agg land σ D (pairNorm σ δ dis) r c := by
  unfold gatherSum agg
  rw [zero_add, zero_add, sum_mul_of_nonneg _ _ (hdis r).1 (hdis r).2]
  refine Finset.sum_congr rfl fun a _ => ?_
  by_cases h : land a r
  · rw [if_pos h, if_pos h]
    unfold pairNorm
    rw [hδ a r h, mul_assoc]
  · rw [if_neg h, if_neg h, zero_mul]

/-- The two arrangements of one layer agree, whatever the layer's input. -/
theorem layerKer_eq (hdis : ∀ u, 0 ≤ dis u ∧ dis u ≠ ⊤) (hδ : ∀ a r, land a r → δ a = r)
    (H : Fin N → Fin K → EReal) (W : Fin K → Fin K → EReal) (b : Fin K → EReal) :
    layerKer land σ dis H W b = layerRef land σ δ dis H W b := by
  funext u j
  unfold layerKer layerRef
  rw [show scaledDense dis H W = fun u j => dense H W u j * dis u from rfl, gatherSum_scaled hdis hδ]

/-- Two stacked layers agree: the first layers are one function, which both second layers then take. -/
theorem twoLayers_eq (hdis : ∀ u, 0 ≤ dis u ∧ dis u ≠ ⊤) (hδ : ∀ a r, land a r → δ a = r)
    (X : Fin N → Fin K → EReal) (W1 : Fin K → Fin K → EReal) (b1 : Fin K → EReal)
    (W2 : Fin K → Fin K → EReal) (b2 : Fin K → EReal) :
    layerKer land σ dis (layerKer land σ dis X W1 b1) W2 b2
      = layerRef land σ δ dis (layerRef land σ δ dis X W1 b1) W2 b2 := by
  rw [layerKer_eq hdis hδ X W1 b1, layerKer_eq hdis hδ]

end

end Cert.Proof.GcnPair

end
-- ==== Proof.GraphParams.lean ====
/-
  The graph's parameters, read off the edge array.

  Both programs append the 100000 self loops to the 1600000 edges of the 2 × 1600000 edge array `e`. Then:
  * edge `a` LANDS on node `r` when its target index, read signed, is `r` (a target outside the nodes lands nowhere);
  * its SOURCE is the node its normalised source index names in a gather (negative indices wrapped, then clamped);
  * its target READ BACK is the node its normalised target index names in a gather — the node `r` itself on every
    edge that lands on `r`;
  * the per-node SCALE is the inverse square root of the in-degree where that is positive, zero elsewhere — a
    non-negative number other than `+∞`, whatever the edges are;
  * the reference's weight of an edge is the scale of its source times the scale of its target read back.
  The reference normalises the source indices once per gather; the three copies are one composite of the edge array.
-/
import proofs.«167142_j42640435314985_2_alg».proof.Proof.RefReadPatched
import proofs.«167142_j42640435314985_2_alg».proof.Proof.LibGraphRead
import proofs.«167142_j42640435314985_2_alg».proof.Proof.GcnPair

noncomputable section

open scoped BigOperators

namespace Cert.Proof.Graph

open Cert.ReferenceIdeal Cert.ReferenceIdeal.Gen Cert.ReferenceIdeal.ReadP
open Idealize.ShloMosaic Idealize.ShloMosaic.ValueIdx Cert.GatherRows Cert.Proof.GraphRead Cert.Proof.Gcn Cert.Proof.GcnPair

theorem nodes_pos : 0 < 100000 := by decide

variable (e : S2x1600000.Idx → BitVec 32)

/-- Edge `a` lands on node `r`. -/
abbrev land : Fin 1700000 → Fin 100000 → Prop := lands (val_main_v42 (F := Ideal) e)
/-- The node edge `a` reads its features from. -/
abbrev src : Fin 1700000 → Fin 100000 := rowOf nodes_pos (val_main_v36 (F := Ideal) e)
/-- Edge `a`'s target read back as a node. -/
abbrev tgt : Fin 1700000 → Fin 100000 := rowOf nodes_pos (val_main_v27 (F := Ideal) e)
/-- The per-node scale. -/
abbrev dis : Fin 100000 → EReal := fun u => val_main_v14 (F := Ideal) e (ix1 u)

/-- The scale is a non-negative number other than `+∞`. -/
theorem dis_ok (u : Fin 100000) : 0 ≤ dis e u ∧ dis e u ≠ ⊤ := by
  show 0 ≤ val_main_v14 (F := Ideal) e (ix1 u) ∧ val_main_v14 (F := Ideal) e (ix1 u) ≠ ⊤
  unfold val_main_v14 val_main_v12 val_main_v13 val_main_call0_v1 val_main_call0_v0 val_main_v11 val_main_cst_1 val_main_cst_2
  exact scale_ok bcast_S_S100000 (val_main_v10 (F := Ideal) e) u

/-- On an edge that lands on `r`, the target read back is `r`. -/
theorem tgt_of_land (a : Fin 1700000) (r : Fin 100000) (h : land e a r) : tgt e a = r := by
  show rowOf nodes_pos (val_main_v27 (F := Ideal) e) a = r
  have h' : lands (val_main_v42 (F := Ideal) e) a r := h
  unfold val_main_v42 at h'
  unfold val_main_v27 val_main_v26 val_main_v23 val_main_v25 val_main_v22 val_main_c_4
  exact target_readback nodes_pos bcast_S_S1700000 bcast_S1700000_S1700000x1_0 (val_main_v6 (F := Ideal) e)
    (val_main_v24 (F := Ideal)) a r h'

/-- The two normalised source index arrays (one per gather) are one composite. -/
theorem srcIndex_eq : val_main_v20 (F := Ideal) e = val_main_v36 (F := Ideal) e := by
  unfold val_main_v20 val_main_v36 val_main_v19 val_main_v35 val_main_v16 val_main_v32 val_main_v18 val_main_v34
    val_main_v15 val_main_v31 val_main_v17 val_main_v33 val_main_c val_main_c_6 val_main_c_3 val_main_c_7
  rfl

/-- So is the second layer's. -/
theorem srcIndex2_eq : val_main_v54 (F := Ideal) e = val_main_v36 (F := Ideal) e := by
  unfold val_main_v54 val_main_v36 val_main_v53 val_main_v35 val_main_v50 val_main_v32 val_main_v52 val_main_v34
    val_main_v49 val_main_v31 val_main_v51 val_main_v33 val_main_c_9 val_main_c_6 val_main_c_10 val_main_c_7
  rfl

/-- The reference's edge weight: the two gathered scales multiplied. -/
theorem norm_apply (a : Fin 1700000) :
    val_main_v29 (F := Ideal) e (ix1 a) = pairNorm (src e) (tgt e) (dis e) a := by
  unfold val_main_v29 val_main_v21 val_main_v28
  rw [srcIndex_eq]
  refine (mulf_apply _ _ (ix1 a)).trans ?_
  unfold pairNorm
  refine congrArg₂ (· * ·) ?_ ?_
  · exact gather1_apply nodes_pos gather_S100000_S1700000x1_S1700000_n_0_n_n_0_1_1_wf (val_main_v14 (F := Ideal) e)
      (val_main_v36 (F := Ideal) e) a
  · exact gather1_apply nodes_pos gather_S100000_S1700000x1_S1700000_n_0_n_n_0_1_1_wf (val_main_v14 (F := Ideal) e)
      (val_main_v27 (F := Ideal) e) a

end Cert.Proof.Graph

end
-- ==== Proof.RefLayer.lean ====
/-
  One layer as the reference writes it, read at an index.

  The product of the layer's input with the weights, its rows gathered by the edges' source indices, each multiplied by
  the edge's weight spread over the columns, scatter-added by the target indices into a zero array, the bias spread over
  the rows and added, the maximum with a zero array taken: entry `(r, c)` is one layer of the specification in the
  reference's arrangement, `max (∑_{a lands on r} (H W) (source a, c) · (dis (source a) · dis (target a)) + b c) 0`.
-/
import proofs.«167142_j42640435314985_2_alg».proof.Proof.RefReadPatched
import proofs.«167142_j42640435314985_2_alg».proof.Proof.LibGraphRead
import proofs.«167142_j42640435314985_2_alg».proof.Proof.GcnPair
import proofs.«167142_j42640435314985_2_alg».proof.Proof.GraphParams

noncomputable section

open scoped BigOperators

namespace Cert.Proof.Graph

open Cert.ReferenceIdeal Cert.ReferenceIdeal.Gen Cert.ReferenceIdeal.ReadP
open Idealize.ShloMosaic Idealize.ShloMosaic.ValueIdx Cert.GatherRows Cert.Proof.GraphRead Cert.Proof.Gcn Cert.Proof.GcnPair

variable (e : S2x1600000.Idx → BitVec 32)

/-- The target index array is spread to a column once per scatter; the copies are one composite of the edge array. -/
theorem tgtIndex2_eq : val_main_v60 (F := Ideal) e = val_main_v42 (F := Ideal) e := by
  unfold val_main_v60 val_main_v42
  rfl

/-- ONE LAYER as the reference writes it — the product of `H` with `W`, its rows gathered by the indices `G`, weighted
    by the edge weights, scatter-added by the target indices into zeros, the bias added, rectified — read at `(r, c)`,
    for gather indices `G` that name the sources. -/
theorem layer_apply (H : FVec Ideal S100000x128 .f32) (W : FVec Ideal S128x128 .f32) (b : FVec Ideal S128 .f32)
    (G : S1700000x1.Idx → BitVec 32) (hG : rowOf nodes_pos G = src e) (r : Fin 100000) (c : Fin 128) :
    maximumf
        (addf
          (Host.scatterAdd (F := Ideal) scatter_S100000x128_S1700000x1_S1700000x128_1_0_0_1
            (broadcastInDim S100000x128 ![] bcast_S_S100000x128 (constant (F := Ideal) S_ .f32 0x00000000#32))
            (val_main_v42 (F := Ideal) e)
            (mulf
              (Host.gather gather_S100000x128_S1700000x1_S1700000x128_1_0_n_n_0_1_1128
                (Host.dotGeneral (F := Ideal) dot_S100000x128_S128x128_S100000x128_1_0_0_1_n_n none H W) G)
              (broadcastInDim S1700000x128 ![0, 1] bcast_S1700000x1_S1700000x128_0_1
                (broadcastInDim S1700000x1 ![0] bcast_S1700000_S1700000x1_0 (val_main_v29 (F := Ideal) e)))))
          (broadcastInDim S100000x128 ![0, 1] bcast_S1x128_S100000x128_0_1 (broadcastInDim S1x128 ![1] bcast_S128_S1x128_1 b)))
        (broadcastInDim S100000x128 ![] bcast_S_S100000x128 (constant (F := Ideal) S_ .f32 0x00000000#32)) (ix2 r c)
      = layerRef (land e) (src e) (tgt e) (dis e) (fun u j => H (ix2 u j)) (fun i j => W (ix2 i j)) (fun j => b (ix1 j)) r c := by
  refine (relu_apply bcast_S_S100000x128 _ r c).trans ?_
  unfold layerRef
  refine congrArg (fun z => max z 0) ?_
  refine (bias_apply bcast_S128_S1x128_1 bcast_S1x128_S100000x128_0_1 _ b r c).trans ?_
  refine congrArg (fun z => z + b (ix1 c)) ?_
  refine (aggregate_apply nodes_pos scatter_S100000x128_S1700000x1_S1700000x128_1_0_0_1_wf
    gather_S100000x128_S1700000x1_S1700000x128_1_0_n_n_0_1_1128_wf bcast_S_S100000x128 bcast_S1700000_S1700000x1_0
    bcast_S1700000x1_S1700000x128_0_1 (val_main_v42 (F := Ideal) e) G
    (Host.dotGeneral (F := Ideal) dot_S100000x128_S128x128_S100000x128_1_0_0_1_n_n none H W) (val_main_v29 (F := Ideal) e) r c).trans ?_
  rw [hG]
  have hD : (fun (u : Fin 100000) (j : Fin 128) =>
        Host.dotGeneral (F := Ideal) dot_S100000x128_S128x128_S100000x128_1_0_0_1_n_n none H W (ix2 u j))
      = dense (fun u j => H (ix2 u j)) (fun i j => W (ix2 i j)) :=
    funext fun u => funext fun j => dense_apply' dot_S100000x128_S128x128_S100000x128_1_0_0_1_n_n_wf none H W u j
  have hV : (fun a : Fin 1700000 => val_main_v29 (F := Ideal) e (ix1 a)) = pairNorm (src e) (tgt e) (dis e) :=
    funext fun a => norm_apply e a
  rw [hD, hV]

end Cert.Proof.Graph

end
-- ==== Proof.RefValue.lean ====
/-
  The reference's result, read index by index, in the vocabulary of the specification.

  Its hidden layer (the first convolution, rectified) and its second layer are each one layer in the reference's
  arrangement — the second over the hidden layer —, and the result lays the two side by side: columns 0 … 127 are the
  hidden layer, columns 128 … 255 the second layer.
-/
import proofs.«167142_j42640435314985_2_alg».proof.Proof.RefReadPatched
import proofs.«167142_j42640435314985_2_alg».proof.Proof.LibGraphRead
import proofs.«167142_j42640435314985_2_alg».proof.Proof.GcnPair
import proofs.«167142_j42640435314985_2_alg».proof.Proof.GraphParams
import proofs.«167142_j42640435314985_2_alg».proof.Proof.RefLayer

noncomputable section

open scoped BigOperators

namespace Cert.Proof.Graph

open Cert.ReferenceIdeal Cert.ReferenceIdeal.Gen Cert.ReferenceIdeal.ReadP
open Idealize.ShloMosaic Idealize.ShloMosaic.ValueIdx Cert.GatherRows Cert.Proof.GraphRead Cert.Proof.Gcn Cert.Proof.GcnPair

variable (e : S2x1600000.Idx → BitVec 32)

variable (x : FVec Ideal S100000x128 .f32) (w1 : FVec Ideal S128x128 .f32) (b1 : FVec Ideal S128 .f32)
  (w2 : FVec Ideal S128x128 .f32) (b2 : FVec Ideal S128 .f32)

/-- The inputs in the specification's form. -/
abbrev feat : Fin 100000 → Fin 128 → EReal := fun u j => x (ix2 u j)
abbrev mat (w : FVec Ideal S128x128 .f32) : Fin 128 → Fin 128 → EReal := fun i j => w (ix2 i j)
abbrev vec (b : FVec Ideal S128 .f32) : Fin 128 → EReal := fun j => b (ix1 j)

/-- The reference's hidden layer. -/
def refHidden : Fin 100000 → Fin 128 → EReal := layerRef (land e) (src e) (tgt e) (dis e) (feat x) (mat w1) (vec b1)
/-- The reference's second layer. -/
def refSecond : Fin 100000 → Fin 128 → EReal :=
  layerRef (land e) (src e) (tgt e) (dis e) (refHidden e x w1 b1) (mat w2) (vec b2)

/-- The hidden layer at `(r, c)`. -/
theorem hidden_apply (r : Fin 100000) (c : Fin 128) :
    val_main_v47 (F := Ideal) x e w1 b1 (ix2 r c) = refHidden e x w1 b1 r c := by
  unfold val_main_v47 val_main_v46 val_main_v43 val_main_v40 val_main_v37 val_main_v39 val_main_v38 val_main_v30
    val_main_v41 val_main_cst_8 val_main_v45 val_main_v44 val_main_call1_v0 val_main_call1_cst
  exact layer_apply e x w1 b1 (val_main_v36 (F := Ideal) e) rfl r c

/-- The second layer at `(r, c)`. -/
theorem second_apply (r : Fin 100000) (c : Fin 128) :
    val_main_v65 (F := Ideal) x e w1 b1 w2 b2 (ix2 r c) = refSecond e x w1 b1 w2 b2 r c := by
  have h := layer_apply e (val_main_v47 (F := Ideal) x e w1 b1) w2 b2 (val_main_v54 (F := Ideal) e)
    (congrArg (rowOf nodes_pos) (srcIndex2_eq e)) r c
  have hH : (fun (u : Fin 100000) (j : Fin 128) => val_main_v47 (F := Ideal) x e w1 b1 (ix2 u j)) = refHidden e x w1 b1 :=
    funext fun u => funext fun j => hidden_apply e x w1 b1 u j
  rw [hH] at h
  unfold val_main_v65 val_main_v64 val_main_v61 val_main_v58 val_main_v55 val_main_v57 val_main_v56 val_main_v48
    val_main_v59 val_main_cst_11 val_main_v63 val_main_v62 val_main_call2_v0 val_main_call2_cst
  rw [tgtIndex2_eq]
  exact h

/-- THE RESULT at a column of the left half is the hidden layer, -/
theorem result_left (r : Fin 100000) (q : Fin 128) (j : Fin 256) (hj : j.val = q.val) :
    val_main_v66 (F := Ideal) x e w1 b1 w2 b2 (ix2 r j) = refHidden e x w1 b1 r q := by
  unfold val_main_v66
  refine (concatenate_pair_apply_left (1 : Fin 2) (val_main_v47 (F := Ideal) x e w1 b1) (val_main_v65 (F := Ideal) x e w1 b1 w2 b2)
    concatenates_S100000x128_S100000x128_S100000x256_d1 (ix2 r j) rfl (ix2 r q) (fun bx => by
      match bx with
      | ⟨0, _⟩ => rfl
      | ⟨1, _⟩ => exact hj.symm)).trans ?_
  exact hidden_apply e x w1 b1 r q

/-- and at a column of the right half the second layer. -/
theorem result_right (r : Fin 100000) (q : Fin 128) (j : Fin 256) (hj : j.val = 128 + q.val) :
    val_main_v66 (F := Ideal) x e w1 b1 w2 b2 (ix2 r j) = refSecond e x w1 b1 w2 b2 r q := by
  unfold val_main_v66
  refine (concatenate_pair_apply_right (1 : Fin 2) (val_main_v47 (F := Ideal) x e w1 b1) (val_main_v65 (F := Ideal) x e w1 b1 w2 b2)
    concatenates_S100000x128_S100000x128_S100000x256_d1 (ix2 r j) rfl rfl (ix2 r q) (fun bx hb => by
      match bx with
      | ⟨0, _⟩ => rfl
      | ⟨1, _⟩ => exact absurd rfl hb)
    (by show q.val + 128 = j.val; omega)).trans ?_
  exact second_apply e x w1 b1 w2 b2 r q

end Cert.Proof.Graph

end
-- ==== Proof.LibGatherScatter.lean ====
/-
  A row gather fed straight into an accumulating row scatter, read at an index on the extended reals.

  Over `N` nodes, `E` edges and `C` columns: the rows of `H` gathered by the start indices `G` (one per edge) and
  scatter-added by the target indices `I` into a zero array. Entry `(r, c)` of the result is the sum, over the edges
  whose target index read signed is `r`, of the gathered row's entry in column `c` — the row the start index names
  (`rowOf`: read signed, clamped into the array). An edge whose target is outside `[0, N)` contributes nothing.

  Generic in the extents and the index widths; the dimension numbers are records built from any proof of their
  well-formedness, so that a program's own records are met by rewriting them to this form.
-/
import proofs.«167142_j42640435314985_2_alg».proof.Proof.LibGraphRead

noncomputable section

open scoped BigOperators

namespace Cert.Proof.GatherScatter

open Idealize.ShloMosaic Idealize.ShloMosaic.ValueIdx Cert.GatherRows Cert.Proof.GraphRead

variable {N E C w w' : Nat}

/-- The rows of `H` gathered by `G` and scatter-added by `I` into zeros, at `(r, c)`: the sum over the edges landing
    on `r` of the source row's entry in column `c`. -/
theorem gather_scatterAdd_apply (hN : 0 < N)
    (wfs : ScatterDims.WF ⟨2, ![N, C]⟩ ⟨2, ![E, 1]⟩ ⟨2, ![E, C]⟩ [1] [0] [0] 1)
    (wfg : GatherDims.WF ⟨2, ![N, C]⟩ ⟨2, ![E, 1]⟩ ⟨2, ![E, C]⟩ [1] [0] [] [0] [] 1 ![1, C])
    (h0 : (⟨0, ![]⟩ : Shape).BroadcastsInDim ⟨2, ![N, C]⟩ (![] : Fin 0 → Fin (⟨2, ![N, C]⟩ : Shape).rank))
    (I : IVec ⟨2, ![E, 1]⟩ w) (G : IVec ⟨2, ![E, 1]⟩ w') (H : FVec Ideal ⟨2, ![N, C]⟩ .f32) (r : Fin N) (c : Fin C) :
    Host.scatterAdd (F := Ideal) (ScatterRows.dims2 wfs)
        (broadcastInDim ⟨2, ![N, C]⟩ ![] h0 (constant (F := Ideal) ⟨0, ![]⟩ .f32 0x00000000#32)) I
        (Host.gather (GatherRows.dims2 wfg) H G) (ix2 r c)
      = 0 + ∑ a : Fin E, if lands I a r then H (ix2 (rowOf hN G a) c) else 0 := by
  refine (ScatterRows.scatterAdd2_apply wfs _ I _ r c).trans ?_
  refine congrArg₂ (· + ·) (bcast_zero_apply h0 (ix2 r c)) (Finset.sum_congr rfl fun a _ => ?_)
  refine if_congr Iff.rfl ?_ rfl
  exact GatherRows.gather2_apply hN wfg H G a c

end Cert.Proof.GatherScatter

end
-- ==== Proof.KernelRead.lean ====
/-
  The idealized kernel's result, read index by index, in the vocabulary of the specification; and that it is the
  reference's result.

  The kernel's hidden layer is one layer of the specification in the OTHER arrangement: the product's row `u` scaled by
  the node's scale (first region), those rows gathered by source and scatter-added by target into zeros with no weight
  (the host stretch), row `r` of that scaled by the node's scale, the bias added and the maximum with zero taken (second
  region). The second layer is the same over the hidden layer, and the last region lays the two side by side.

  Both arrangements of a layer are one function as soon as the per-node scale is a non-negative number other than `+∞`
  and the target read back is the node an edge lands on (`GcnPair.layerKer_eq`); both hold whatever the edge array is.
  So the two result arrays are equal entry by entry, with nothing asked of the inputs.
-/
import proofs.«167142_j42640435314985_2_alg».proof.Proof.KernelStages
import proofs.«167142_j42640435314985_2_alg».proof.Proof.RefValue
import proofs.«167142_j42640435314985_2_alg».proof.Proof.LibColumns
import proofs.«167142_j42640435314985_2_alg».proof.Proof.LibHostRead
import proofs.«167142_j42640435314985_2_alg».proof.Proof.LibScatterAdd
import proofs.«167142_j42640435314985_2_alg».proof.Proof.LibGatherRows
import proofs.«167142_j42640435314985_2_alg».proof.Proof.LibGatherScatter

noncomputable section

open scoped BigOperators

namespace Cert.Proof.KernelRead

open Cert.KernelIdeal Cert.KernelIdeal.Gen Cert.KernelIdeal.Stages
open Idealize.ShloMosaic Idealize.ShloMosaic.ValueIdx
open Cert.Proof.Gcn Cert.Proof.GcnPair Cert.Proof.Graph
open Cert.ReferenceIdeal.ReadP (val_main_v14 val_main_v36 val_main_v42 val_main_v66)

variable (e : S2x1600000.Idx → BitVec 32)

/-- The scale column's entry of row `r` is the node's scale. -/
theorem scaleColumn_apply (r : Fin 100000) : scaleColumn e (ix2 r (0 : Fin 1)) = dis e r :=
  Cert.Proof.Columns.shapeCast_a_a1_apply (val_main_v14 (F := Ideal) e) shapeCasts_S100000_S100000x1 r 0

/-- The bias row's entry of column `q` is the bias's entry. -/
theorem biasRow_apply (b : S128.Idx → EReal) (q : Fin 128) : biasRow b (ix2 (0 : Fin 1) q) = b (ix1 q) :=
  Cert.HostRead.shapeCast_n_bc_apply b shapeCasts_S128_S1x128 (0 : Fin 1) q q (by show q.val = 0 * 128 + q.val; omega)

/-- The program's scatter record is the row scatter's dimension numbers. -/
theorem scatterRec_eq : scatter_S100000x128_S1700000x1_S1700000x128_1_0_0_1
    = Cert.ScatterRows.dims2 scatter_S100000x128_S1700000x1_S1700000x128_1_0_0_1_wf := rfl

/-- The program's gather record is the row gather's dimension numbers. -/
theorem gatherRec_eq : gather_S100000x128_S1700000x1_S1700000x128_1_0_n_n_0_1_1128
    = Cert.GatherRows.dims2 gather_S100000x128_S1700000x1_S1700000x128_1_0_n_n_0_1_1128_wf := rfl

/-- The kernel's aggregation at `(r, c)`: the sum over the edges landing on `r` of the source row's entry. -/
theorem aggregate_apply (H : S100000x128.Idx → EReal) (r : Fin 100000) (c : Fin 128) :
    aggregate e H (ix2 r c) = gatherSum (land e) (src e) (fun u j => H (ix2 u j)) r c := by
  unfold aggregate gatherSum
  rw [scatterRec_eq, gatherRec_eq]
  exact Cert.Proof.GatherScatter.gather_scatterAdd_apply nodes_pos scatter_S100000x128_S1700000x1_S1700000x128_1_0_0_1_wf
    gather_S100000x128_S1700000x1_S1700000x128_1_0_n_n_0_1_1128_wf bcast_S_S100000x128 (val_main_v42 (F := Ideal) e)
    (val_main_v36 (F := Ideal) e) H r c

variable (x : S100000x128.Idx → EReal) (w1 : S128x128.Idx → EReal) (b1 : S128.Idx → EReal)
  (w2 : S128x128.Idx → EReal) (b2 : S128.Idx → EReal)

/-- A scaled product at `(u, j)`: the product's entry times the node's scale. -/
theorem scaled_apply (H : S100000x128.Idx → EReal) (w : S128x128.Idx → EReal) (u : Fin 100000) (j : Fin 128) :
    (∑ k : Fin 128, H (ix2 u k) * w (ix2 k j)) * scaleColumn e (ix2 u (0 : Fin 1))
      = scaledDense (dis e) (fun u j => H (ix2 u j)) (mat w) u j := by
  rw [scaleColumn_apply]; rfl

/-- One layer as the kernel computes it, over any input `H`: scaled product, aggregation, scale, bias, rectification. -/
theorem layer_apply (H : S100000x128.Idx → EReal) (w : S128x128.Idx → EReal) (b : S128.Idx → EReal)
    (L : S100000x128.Idx → EReal)
    (hL : ∀ (u : Fin 100000) (j : Fin 128), L (ix2 u j) = (∑ k : Fin 128, H (ix2 u k) * w (ix2 k j)) * scaleColumn e (ix2 u (0 : Fin 1)))
    (r : Fin 100000) (c : Fin 128) :
    max (aggregate e L (ix2 r c) * scaleColumn e (ix2 r (0 : Fin 1)) + biasRow b (ix2 (0 : Fin 1) c)) 0
      = layerKer (land e) (src e) (dis e) (fun u j => H (ix2 u j)) (mat w) (vec b) r c := by
  unfold layerKer
  rw [aggregate_apply, scaleColumn_apply, biasRow_apply]
  have hS : (fun (u : Fin 100000) (j : Fin 128) => L (ix2 u j)) = scaledDense (dis e) (fun u j => H (ix2 u j)) (mat w) :=
    funext fun u => funext fun j => (hL u j).trans (scaled_apply e H w u j)
  rw [hS]

/-- The kernel's hidden layer. -/
def kerHidden : Fin 100000 → Fin 128 → EReal := layerKer (land e) (src e) (dis e) (feat x) (mat w1) (vec b1)
/-- The kernel's second layer. -/
def kerSecond : Fin 100000 → Fin 128 → EReal :=
  layerKer (land e) (src e) (dis e) (kerHidden e x w1 b1) (mat w2) (vec b2)

theorem hidden_apply (r : Fin 100000) (c : Fin 128) : hidden x e w1 b1 (ix2 r c) = kerHidden e x w1 b1 r c :=
  layer_apply e x w1 b1 (lin1 x e w1) (fun u j => rfl) r c

theorem second_apply (r : Fin 100000) (c : Fin 128) :
    max (aggregate e (lin2 x e w1 b1 w2) (ix2 r c) * scaleColumn e (ix2 r (0 : Fin 1)) + biasRow b2 (ix2 (0 : Fin 1) c)) 0
      = kerSecond e x w1 b1 w2 b2 r c := by
  have h := layer_apply e (hidden x e w1 b1) w2 b2 (lin2 x e w1 b1 w2) (fun u j => rfl) r c
  have hH : (fun (u : Fin 100000) (j : Fin 128) => hidden x e w1 b1 (ix2 u j)) = kerHidden e x w1 b1 :=
    funext fun u => funext fun j => hidden_apply e x w1 b1 u j
  rw [hH] at h
  exact h

/-- THE TWO RESULT ARRAYS ARE EQUAL, entry by entry, whatever the arguments are. -/
theorem result_eq :
    result x e w1 b1 w2 b2 = val_main_v66 (F := Ideal) x e w1 b1 w2 b2 := by
  have hdis := dis_ok e
  have hδ := tgt_of_land e
  funext i
  obtain ⟨r, j, rfl⟩ : ∃ (r : Fin 100000) (j : Fin 256), i = ix2 r j := ⟨i 0, i 1, eq_ix2 i⟩
  by_cases hlt : j.val < 128
  · rw [Cert.Proof.Graph.result_left e x w1 b1 w2 b2 r ⟨j.val, hlt⟩ j rfl]
    unfold result
    rw [Region3.half_left _ _ _ _ r ⟨j.val, hlt⟩ j rfl, hidden_apply]
    unfold kerHidden Graph.refHidden
    rw [layerKer_eq hdis hδ]
  · have hq : j.val - 128 < 128 := by have := j.isLt; omega
    have hj : j.val = 128 + (⟨j.val - 128, hq⟩ : Fin 128).val := by show j.val = 128 + (j.val - 128); omega
    rw [Cert.Proof.Graph.result_right e x w1 b1 w2 b2 r ⟨j.val - 128, hq⟩ j hj]
    unfold result
    rw [Region3.half_right _ _ _ _ r ⟨j.val - 128, hq⟩ j hj, second_apply]
    unfold kerSecond Graph.refSecond kerHidden Graph.refHidden
    exact congrFun (congrFun (twoLayers_eq hdis hδ (feat x) (mat w1) (vec b1) (mat w2) (vec b2)) r) _

end Cert.Proof.KernelRead

end
-- ==== Proof.lean ====
/-
  Two layers of a graph convolution with symmetric degree normalisation: a Pallas kernel against its jnp reference, equal
  on the extended reals.

  Both programs append the self loops to the edge lists, count the in-degrees with a scatter-add of ones and take the
  per-node scale `dis` = the inverse square root of the degree where it is positive, zero elsewhere. A layer of the
  REFERENCE multiplies the features by the weights, gathers the product's rows by the edges' sources, weights edge `a` by
  `dis (source a) · dis (target a)`, scatter-adds by target, adds the bias and rectifies. A layer of the KERNEL scales
  row `u` of the product by `dis u` inside the product's kernel region, gathers and scatter-adds on the host with no
  weight, and scales row `r` of the aggregate by `dis r` inside the next region, which also adds the bias and rectifies.
  The last region writes the hidden layer and the second layer side by side, as the reference's concatenation does.

  The two arrangements agree because `dis r` does not depend on the edge, so it moves inside the sum over the edges
  landing on `r`; on the extended reals that needs `dis r` to be a non-negative number other than `+∞`, which the
  guarded inverse square root is whatever the degree (Proof/GcnPair.lean, Proof/RefValue.lean). No entry of the inputs is
  asked to be finite: the precondition is never opened.

  The pieces: the kernel's run with its result buffer read (Proof/KernelRun.lean); each region's output array as one
  function of the arrays it finds (Proof/Region0.lean … Region3.lean over Proof/Payloads.lean); the walk through @main's
  boundaries to the result as one term of the arguments (Proof/KernelStages.lean); the reference's run and its stages
  (Proof/RefRunPatched.lean, Proof/RefReadPatched.lean); both results read at an index and joined
  (Proof/RefValue.lean, Proof/KernelRead.lean). `preserves` has nothing to say: the idealization rewrote no operation.
-/
import proofs.«167142_j42640435314985_2_alg».proof.Defs
import proofs.«167142_j42640435314985_2_alg».proof.Proof.Gen.Kernel
import proofs.«167142_j42640435314985_2_alg».proof.Proof.Gen.Kernel.Frame
import proofs.«167142_j42640435314985_2_alg».proof.Proof.Gen.KernelIdeal
import proofs.«167142_j42640435314985_2_alg».proof.Proof.Gen.KernelIdeal.Frame
import proofs.«167142_j42640435314985_2_alg».proof.Proof.Gen.ReferenceIdeal
import proofs.«167142_j42640435314985_2_alg».proof.Proof.Gen.Pre_finite_inputs
import proofs.«167142_j42640435314985_2_alg».proof.Proof.KernelRun
import proofs.«167142_j42640435314985_2_alg».proof.Proof.KernelStages
import proofs.«167142_j42640435314985_2_alg».proof.Proof.KernelRead
import proofs.«167142_j42640435314985_2_alg».proof.Proof.RefRunPatched
import proofs.«167142_j42640435314985_2_alg».proof.Proof.RefReadPatched
import Idealize.ShloMosaic.Adequacy
import Idealize.ShloMosaic.Init

noncomputable section

namespace Cert.Proof

open Idealize.ShloMosaic Idealize.ShloMosaic.TcCoe Idealize.SL.Sem

/-- The kernel as printed runs and leaves its arguments alone. -/
theorem frame_kernel : Cert.frame_Kernel := fun m ρ _ => Cert.Kernel.Gen.frame m ρ

/-- So does its idealization. -/
theorem frame_kernelIdeal : Cert.frame_KernelIdeal := fun m ρ _ => Cert.KernelIdeal.Gen.frame m ρ

/-- So does the reference: its run, the result forgotten. -/
theorem frame_referenceIdeal : Cert.frame_ReferenceIdeal := fun m ρ _ =>
  (θ_run Cert.ReferenceIdeal.defs _ _).mono (fun _ h c => (h c).2) (Cert.ReferenceIdeal.ValueP.run (F := Ideal) m ρ)

/-- The idealization rewrote no operation. -/
theorem preserves : Cert.preserves_Kernel_KernelIdeal := trivial

/-- From memories agreeing on the arguments both programs run, and their results are one array: the kernel's result
    buffer ends at its term of the arguments, the reference's at its own, and the two terms are equal entry by entry. -/
theorem algebraic : Cert.algebraic_KernelIdeal_ReferenceIdeal := by
  intro m ρ m' ρ' _ hagree
  refine ⟨fun c => Cert.KernelIdeal.Stages.result (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)), ?_, ?_⟩
  · exact (θ_run Cert.KernelIdeal.defs _ _).mono
      (fun r h c => ⟨(h c).1.trans (Cert.KernelIdeal.Stages.W10_v44 m ρ c), (h c).2⟩)
      (Cert.KernelIdeal.RunValue.run (F := Ideal) m ρ)
  · refine (θ_run Cert.ReferenceIdeal.defs _ _).mono (fun r h c => ⟨(h c).1.trans ?_, (h c).2⟩)
      (Cert.ReferenceIdeal.ValueP.run (F := Ideal) m' ρ')
    rw [Cert.ReferenceIdeal.ReadP.val_main_v66_eq, (hagree c).1, (hagree c).2.1, (hagree c).2.2.1, (hagree c).2.2.2.1,
      (hagree c).2.2.2.2.1, (hagree c).2.2.2.2.2]
    exact (Cert.Proof.KernelRead.result_eq _ _ _ _ _ _).symm

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
